-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x6400000 : Shape := ⟨2, ![2, 6400000]⟩
abbrev S6400000 : Shape := ⟨1, ![6400000]⟩
abbrev S16x128 : Shape := ⟨2, ![16, 128]⟩
abbrev S16 : Shape := ⟨1, ![16]⟩
abbrev S16x16 : Shape := ⟨2, ![16, 16]⟩
abbrev S2x16 : Shape := ⟨2, ![2, 16]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S6400000 : S_.BroadcastsInDim S6400000 (![] : Fin 0 → Fin S6400000.rank)
  reducesTo_S6400000_S_d0 : S6400000.ReducesTo [0] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S2x16 : S_.BroadcastsInDim S2x16 (![] : Fin 0 → Fin S2x16.rank)
  reducesTo_S2x16_S_d0_1 : S2x16.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S16 .f32) (main_arg9 : FVec F S2x16 .f32) (main_arg10 : FVec F S2 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S2x16 .f32 := Host.absf main_arg9
  let main_cst_14 : FVec F S_ .f32 := constant S_ .f32 0x7F800000#32
  let main_v40 : FVec F S2x16 .f32 := broadcastInDim S2x16 ![] bcast_S_S2x16 main_cst_14
  let main_v41 : IVec S2x16 1 := cmpf .olt main_v39 main_v40
  let main_c_15 : IVec S_ 1 := constantI S_ 1 1#1
  let main_v42 : IVec S_ 1 := (fun x v => Host.reduce IntOp.andi x v reducesTo_S2x16_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg5 : FVec F S16x16 .f32) (main_arg6 : FVec F S16 .f32) (main_arg7 : FVec F S16x16 .f32) (main_arg8 : FVec F S16 .f32) (main_arg9 : FVec F S2x16 .f32) (main_arg10 : FVec F S2 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg7
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x6400000 32) (main_arg2 : FVec F S6400000 .f32) (main_arg3 : FVec F S16x128 .f32) (main_arg4 : FVec F S16 .f32) (main_arg5 : FVec F S16x16 .f32) (main_arg6 : FVec F S16 .f32) (main_arg7 : FVec F S16x16 .f32) (main_arg8 : FVec F S16 .f32) (main_arg9 : FVec F S2x16 .f32) (main_arg10 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S6400000 .f32 := Host.absf main_arg2
  let main_cst_0 : FVec F S_ .f32 := constant S_ .f32 0x7F800000#32
  let main_v5 : FVec F S6400000 .f32 := broadcastInDim S6400000 ![] bcast_S_S6400000 main_cst_0
  let main_v6 : IVec S6400000 1 := cmpf .olt main_v4 main_v5
  let main_c_1 : IVec S_ 1 := constantI S_ 1 1#1
  let main_v7 : IVec S_ 1 := (fun x v => Host.reduce IntOp.andi x v reducesTo_S6400000_S_d0 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x6400000 : Shape := ⟨2, ![2, 6400000]⟩
abbrev S6400000 : Shape := ⟨1, ![6400000]⟩
abbrev S16x128 : Shape := ⟨2, ![16, 128]⟩
abbrev S16 : Shape := ⟨1, ![16]⟩
abbrev S16x16 : Shape := ⟨2, ![16, 16]⟩
abbrev S2x16 : Shape := ⟨2, ![2, 16]⟩
abbrev S2 : Shape := ⟨1, ![2]⟩
abbrev S100000 : Shape := ⟨1, ![100000]⟩
abbrev S1x6400000 : Shape := ⟨2, ![1, 6400000]⟩
abbrev S6500000 : Shape := ⟨1, ![6500000]⟩
abbrev S_ : Shape := ⟨0, ![]⟩
abbrev S6500000x1 : Shape := ⟨2, ![6500000, 1]⟩
abbrev S100000x1 : Shape := ⟨2, ![100000, 1]⟩
abbrev S100000x16 : Shape := ⟨2, ![100000, 16]⟩
abbrev S6500000x16 : Shape := ⟨2, ![6500000, 16]⟩
abbrev S100000x2 : Shape := ⟨2, ![100000, 2]⟩
abbrev S10000x128 : Shape := ⟨2, ![10000, 128]⟩
abbrev S10000x1 : Shape := ⟨2, ![10000, 1]⟩
abbrev S10000x16 : Shape := ⟨2, ![10000, 16]⟩
abbrev S128x16 : Shape := ⟨2, ![128, 16]⟩
abbrev S1x16 : Shape := ⟨2, ![1, 16]⟩
abbrev S10000x2 : Shape := ⟨2, ![10000, 2]⟩
abbrev S16x2 : Shape := ⟨2, ![16, 2]⟩
abbrev S1x2 : Shape := ⟨2, ![1, 2]⟩
abbrev S10000 : Shape := ⟨1, ![10000]⟩

abbrev nBuf : Space → Nat
  | .hbm => 71
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x6400000, .i32⟩
  | .hbm, ⟨2, _⟩ => ⟨S6400000, .f32⟩
  | .hbm, ⟨3, _⟩ => ⟨S16x128, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S2x16, .f32⟩
  | .hbm, ⟨10, _⟩ => ⟨S2, .f32⟩
  | .hbm, ⟨11, _⟩ => ⟨S100000, .i32⟩
  | .hbm, ⟨12, _⟩ => ⟨S1x6400000, .i32⟩
  | .hbm, ⟨13, _⟩ => ⟨S6400000, .i32⟩
  | .hbm, ⟨14, _⟩ => ⟨S6500000, .i32⟩
  | .hbm, ⟨15, _⟩ => ⟨S1x6400000, .i32⟩
  | .hbm, ⟨16, _⟩ => ⟨S6400000, .i32⟩
  | .hbm, ⟨17, _⟩ => ⟨S6500000, .i32⟩
  | .hbm, ⟨18, _⟩ => ⟨S_, .f32⟩
  | .hbm, ⟨19, _⟩ => ⟨S100000, .f32⟩
  | .hbm, ⟨20, _⟩ => ⟨S6500000, .f32⟩
  | .hbm, ⟨21, _⟩ => ⟨S_, .f32⟩
  | .hbm, ⟨22, _⟩ => ⟨S100000, .f32⟩
  | .hbm, ⟨23, _⟩ => ⟨S6500000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x16, .bf16⟩
  | .hbm, ⟨35, _⟩ => ⟨S_, .i32⟩
  | .hbm, ⟨36, _⟩ => ⟨S6500000, .i32⟩
  | .hbm, ⟨37, _⟩ => ⟨S6500000, .i1⟩
  | .hbm, ⟨38, _⟩ => ⟨S_, .i32⟩
  | .hbm, ⟨39, _⟩ => ⟨S6500000, .i32⟩
  | .hbm, ⟨40, _⟩ => ⟨S6500000, .i32⟩
  | .hbm, ⟨41, _⟩ => ⟨S6500000, .i32⟩
  | .hbm, ⟨42, _⟩ => ⟨S6500000x1, .i32⟩
  | .hbm, ⟨43, _⟩ => ⟨S6500000x16, .bf16⟩
  | .hbm, ⟨44, _⟩ => ⟨S6500000x16, .f32⟩
  | .hbm, ⟨45, _⟩ => ⟨S6500000x1, .f32⟩
  | .hbm, ⟨46, _⟩ => ⟨S6500000x16, .f32⟩
  | .hbm, ⟨47, _⟩ => ⟨S6500000x16, .f32⟩
  | .hbm, ⟨48, _⟩ => ⟨S_, .f32⟩
  | .hbm, ⟨49, _⟩ => ⟨S100000x16, .f32⟩
  | .hbm, ⟨50, _⟩ => ⟨S6500000x1, .i32⟩
  | .hbm, ⟨51, _⟩ => ⟨S100000x16, .f32⟩
  | .hbm, ⟨52, _⟩ => ⟨S100000x16, .bf16⟩
  | .hbm, ⟨53, _⟩ => ⟨S_, .i32⟩
  | .hbm, ⟨54, _⟩ => ⟨S6500000, .i32⟩
  | .hbm, ⟨55, _⟩ => ⟨S6500000, .i1⟩
  | .hbm, ⟨56, _⟩ => ⟨S_, .i32⟩
  | .hbm, ⟨57, _⟩ => ⟨S6500000, .i32⟩
  | .hbm, ⟨58, _⟩ => ⟨S6500000, .i32⟩
  | .hbm, ⟨59, _⟩ => ⟨S6500000, .i32⟩
  | .hbm, ⟨60, _⟩ => ⟨S6500000x1, .i32⟩
  | .hbm, ⟨61, _⟩ => ⟨S6500000x16, .bf16⟩
  | .hbm, ⟨62, _⟩ => ⟨S6500000x16, .f32⟩
  | .hbm, ⟨63, _⟩ => ⟨S6500000x1, .f32⟩
  | .hbm, ⟨64, _⟩ => ⟨S6500000x16, .f32⟩
  | .hbm, ⟨65, _⟩ => ⟨S6500000x16, .f32⟩
  | .hbm, ⟨66, _⟩ => ⟨S_, .f32⟩
  | .hbm, ⟨67, _⟩ => ⟨S100000x16, .f32⟩
  | .hbm, ⟨68, _⟩ => ⟨S6500000x1, .i32⟩
  | .hbm, ⟨69, _⟩ => ⟨S100000x16, .f32⟩
  | .hbm, ⟨70, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S16x128, .f32⟩
  | .local _ .vmem, ⟨3, _⟩ => ⟨S16, .f32⟩
  | .local _ .vmem, ⟨4, _⟩ => ⟨S16x16, .f32⟩
  | .local _ .vmem, ⟨5, _⟩ => ⟨S10000x1, .f32⟩
  | .local _ .vmem, ⟨6, _⟩ => ⟨S10000x1, .f32⟩
  | .local _ .vmem, ⟨7, _⟩ => ⟨S10000x16, .bf16⟩
  | .local _ .vmem, ⟨8, _⟩ => ⟨S10000x16, .bf16⟩
  | .local _ .vmem, ⟨9, _⟩ => ⟨S10000x16, .f32⟩
  | .local _ .vmem, ⟨10, _⟩ => ⟨S10000x16, .f32⟩
  | .local _ .vmem, ⟨11, _⟩ => ⟨S10000x1, .f32⟩
  | .local _ .vmem, ⟨12, _⟩ => ⟨S10000x1, .f32⟩
  | .local _ .vmem, ⟨13, _⟩ => ⟨S16, .f32⟩
  | .local _ .vmem, ⟨14, _⟩ => ⟨S16x16, .f32⟩
  | .local _ .vmem, ⟨15, _⟩ => ⟨S10000x16, .bf16⟩
  | .local _ .vmem, ⟨16, _⟩ => ⟨S10000x16, .bf16⟩
  | .local _ .vmem, ⟨17, _⟩ => ⟨S10000x16, .f32⟩
  | .local _ .vmem, ⟨18, _⟩ => ⟨S10000x16, .f32⟩
  | .local _ .vmem, ⟨19, _⟩ => ⟨S10000x1, .f32⟩
  | .local _ .vmem, ⟨20, _⟩ => ⟨S10000x1, .f32⟩
  | .local _ .vmem, ⟨21, _⟩ => ⟨S16, .f32⟩
  | .local _ .vmem, ⟨22, _⟩ => ⟨S2x16, .f32⟩
  | .local _ .vmem, ⟨23, _⟩ => ⟨S2, .f32⟩
  | .local _ .vmem, ⟨24, _⟩ => ⟨S10000x2, .f32⟩
  | .local _ .vmem, ⟨25, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst : Ref sig .tc := ⟨.hbm, 18, rfl⟩
abbrev main_call0_v7 : Ref sig .tc := ⟨.hbm, 19, rfl⟩
abbrev main_call0_v8 : Ref sig .tc := ⟨.hbm, 20, rfl⟩
abbrev main_call0_cst_0 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_cst_1 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst_2 : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_c : Ref sig .tc := ⟨.hbm, 35, rfl⟩
abbrev main_call0_v18 : Ref sig .tc := ⟨.hbm, 36, rfl⟩
abbrev main_call0_v19 : Ref sig .tc := ⟨.hbm, 37, rfl⟩
abbrev main_call0_c_3 : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_call0_v23 : Ref sig .tc := ⟨.hbm, 42, rfl⟩
abbrev main_call0_v24 : Ref sig .tc := ⟨.hbm, 43, rfl⟩
abbrev main_call0_v25 : Ref sig .tc := ⟨.hbm, 44, rfl⟩
abbrev main_call0_v26 : Ref sig .tc := ⟨.hbm, 45, rfl⟩
abbrev main_call0_v27 : Ref sig .tc := ⟨.hbm, 46, rfl⟩
abbrev main_call0_v28 : Ref sig .tc := ⟨.hbm, 47, rfl⟩
abbrev main_call0_cst_4 : Ref sig .tc := ⟨.hbm, 48, rfl⟩
abbrev main_call0_v29 : Ref sig .tc := ⟨.hbm, 49, rfl⟩
abbrev main_call0_v30 : Ref sig .tc := ⟨.hbm, 50, rfl⟩
abbrev main_call0_v31 : Ref sig .tc := ⟨.hbm, 51, rfl⟩
abbrev main_call0_v32 : Ref sig .tc := ⟨.hbm, 52, rfl⟩
abbrev main_call0_c_5 : Ref sig .tc := ⟨.hbm, 53, rfl⟩
abbrev main_call0_v33 : Ref sig .tc := ⟨.hbm, 54, rfl⟩
abbrev main_call0_v34 : Ref sig .tc := ⟨.hbm, 55, rfl⟩
abbrev main_call0_c_6 : Ref sig .tc := ⟨.hbm, 56, rfl⟩
abbrev main_call0_v35 : Ref sig .tc := ⟨.hbm, 57, rfl⟩
abbrev main_call0_v36 : Ref sig .tc := ⟨.hbm, 58, rfl⟩
abbrev main_call0_v37 : Ref sig .tc := ⟨.hbm, 59, rfl⟩
abbrev main_call0_v38 : Ref sig .tc := ⟨.hbm, 60, rfl⟩
abbrev main_call0_v39 : Ref sig .tc := ⟨.hbm, 61, rfl⟩
abbrev main_call0_v40 : Ref sig .tc := ⟨.hbm, 62, rfl⟩
abbrev main_call0_v41 : Ref sig .tc := ⟨.hbm, 63, rfl⟩
abbrev main_call0_v42 : Ref sig .tc := ⟨.hbm, 64, rfl⟩
abbrev main_call0_v43 : Ref sig .tc := ⟨.hbm, 65, rfl⟩
abbrev main_call0_cst_7 : Ref sig .tc := ⟨.hbm, 66, rfl⟩
abbrev main_call0_v44 : Ref sig .tc := ⟨.hbm, 67, rfl⟩
abbrev main_call0_v45 : Ref sig .tc := ⟨.hbm, 68, rfl⟩
abbrev main_call0_v46 : Ref sig .tc := ⟨.hbm, 69, rfl⟩
abbrev main_v0 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x16 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x16 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S100000 : S_.BroadcastsInDim S100000 (![] : Fin 0 → Fin S100000.rank)
  bcast_S6500000_S6500000x1_0 : S6500000.BroadcastsInDim S6500000x1 (![0] : Fin 1 → Fin S6500000x1.rank)
  bcast_S100000_S100000x1_0 : S100000.BroadcastsInDim S100000x1 (![0] : Fin 1 → Fin S100000x1.rank)
  bcast_S_S6500000 : S_.BroadcastsInDim S6500000 (![] : Fin 0 → Fin S6500000.rank)
  bitsLt_bf16_f32 : FTy.bits .bf16 < FTy.bits .f32
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  inb_S10000x128_S10000x128_0_0 : ∀ a, (![0, 0] : Fin 2 → Nat) a + S10000x128.size a ≤ S10000x128.size a
  h_S10000x128 : 0 < S10000x128.numel
  inb_S16x128_S16x128_0_0 : ∀ a, (![0, 0] : Fin 2 → Nat) a + S16x128.size a ≤ S16x128.size a
  h_S16x128 : 0 < S16x128.numel
  transposes_S16x128_p1_0_S128x16 : S16x128.Transposes [1, 0] S128x16
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  transposes_S16x16_p1_0_S16x16 : S16x16.Transposes [1, 0] S16x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  inb_S10000x16_S10000x16_0_0 : ∀ a, (![0, 0] : Fin 2 → Nat) a + S10000x16.size a ≤ S10000x16.size a
  h_S10000x16 : 0 < S10000x16.numel
  packedbf16_S10000x16_S10000x16_0_0 : (Rect.unit (s := S10000x16) ![0, 0] S10000x16.size inb_S10000x16_S10000x16_0_0).PackedRows (EltTy.packing .bf16)
  shapeCasts_S10000x16_S10000x16 : S10000x16.ShapeCasts S10000x16
  inb_S2x16_S2x16_0_0 : ∀ a, (![0, 0] : Fin 2 → Nat) a + S2x16.size a ≤ S2x16.size a
  h_S2x16 : 0 < S2x16.numel
  transposes_S2x16_p1_0_S16x2 : S2x16.Transposes [1, 0] S16x2
  inb_S2_S2_0 : ∀ a, (![0] : Fin 1 → Nat) a + S2.size a ≤ S2.size a
  h_S2 : 0 < S2.numel
  shapeCasts_S2_S1x2 : S2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  inb_S10000x2_S10000x2_0_0 : ∀ a, (![0, 0] : Fin 2 → Nat) a + S10000x2.size a ≤ S10000x2.size a
  h_S10000x2 : 0 < S10000x2.numel
  scatter_S100000_S6500000x1_S6500000_n_0_0_1_wf : ScatterDims.WF S100000 S6500000x1 S6500000 [] [0] [0] 1
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S10000x128_S128x16_S10000x16_1_0_0_1_n_n_wf : DotDims.WF S10000x128 S128x16 S10000x16 [1] [0] [0] [1] [] []
  dot_S10000x16_S16x16_S10000x16_1_0_0_1_n_n_wf : DotDims.WF S10000x16 S16x16 S10000x16 [1] [0] [0] [1] [] []
  dot_S10000x16_S16x2_S10000x2_1_0_0_1_n_n_wf : DotDims.WF S10000x16 S16x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x1.size a ≤ S100000x1.size a
  hwx0_4 : ∀ i : grid0.Coords, EltTy.bits .f32 = 32 ∨ (Rect.block (s := S100000x1) S10000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x16.size a ≤ S100000x16.size a
  hwx0_5 : ∀ i : grid0.Coords, EltTy.bits .bf16 = 32 ∨ (Rect.block (s := S100000x16) S10000x16.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16.size a ≤ S16.size a
  hwx1_2 : ∀ i : grid1.Coords, EltTy.bits .f32 = 32 ∨ (Rect.block (s := S16) S16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x16.size a ≤ S100000x16.size a
  hwx1_4 : ∀ i : grid1.Coords, EltTy.bits .bf16 = 32 ∨ (Rect.block (s := S100000x16) S10000x16.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16.size a ≤ S16.size a
  hwx2_2 : ∀ i : grid2.Coords, EltTy.bits .f32 = 32 ∨ (Rect.block (s := S16) S16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2x16.size a ≤ S2x16.size a
  hwx2_3 : ∀ i : grid2.Coords, EltTy.bits .f32 = 32 ∨ (Rect.block (s := S2x16) S2x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2.size a ≤ S2.size a
  hwx2_4 : ∀ i : grid2.Coords, EltTy.bits .f32 = 32 ∨ (Rect.block (s := S2) S2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x2.size a ≤ S100000x2.size a
  hwx2_5 : ∀ i : grid2.Coords, EltTy.bits .f32 = 32 ∨ (Rect.block (s := S100000x2) S10000x2.size (cc2_transform_5 i) (hinb2_5 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v16) S10000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v17) S10000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v31) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v16) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v32) S10000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v46) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v16) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S2x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v0) S10000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x6400000 : Shape := ⟨2, ![2, 6400000]⟩
abbrev S6400000 : Shape := ⟨1, ![6400000]⟩
abbrev S16x128 : Shape := ⟨2, ![16, 128]⟩
abbrev S16 : Shape := ⟨1, ![16]⟩
abbrev S16x16 : Shape := ⟨2, ![16, 16]⟩
abbrev S2x16 : Shape := ⟨2, ![2, 16]⟩
abbrev S2 : Shape := ⟨1, ![2]⟩
abbrev S100000 : Shape := ⟨1, ![100000]⟩
abbrev S1x6400000 : Shape := ⟨2, ![1, 6400000]⟩
abbrev S6500000 : Shape := ⟨1, ![6500000]⟩
abbrev S_ : Shape := ⟨0, ![]⟩
abbrev S6500000x1 : Shape := ⟨2, ![6500000, 1]⟩
abbrev S128x16 : Shape := ⟨2, ![128, 16]⟩
abbrev S100000x16 : Shape := ⟨2, ![100000, 16]⟩
abbrev S1x16 : Shape := ⟨2, ![1, 16]⟩
abbrev S6500000x16 : Shape := ⟨2, ![6500000, 16]⟩
abbrev S16x2 : Shape := ⟨2, ![16, 2]⟩
abbrev S100000x2 : Shape := ⟨2, ![100000, 2]⟩
abbrev S1x2 : Shape := ⟨2, ![1, 2]⟩
abbrev S100000x1 : Shape := ⟨2, ![100000, 1]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x6400000, .i32⟩
  | 2 => ⟨S6400000, .f32⟩
  | 3 => ⟨S16x128, .f32⟩
  | 4 => ⟨S16, .f32⟩
  | 5 => ⟨S16x16, .f32⟩
  | 6 => ⟨S16, .f32⟩
  | 7 => ⟨S16x16, .f32⟩
  | 8 => ⟨S16, .f32⟩
  | 9 => ⟨S2x16, .f32⟩
  | 10 => ⟨S2, .f32⟩
  | 11 => ⟨S100000, .i32⟩
  | 12 => ⟨S1x6400000, .i32⟩
  | 13 => ⟨S6400000, .i32⟩
  | 14 => ⟨S6500000, .i32⟩
  | 15 => ⟨S1x6400000, .i32⟩
  | 16 => ⟨S6400000, .i32⟩
  | 17 => ⟨S6500000, .i32⟩
  | 18 => ⟨S_, .f32⟩
  | 19 => ⟨S100000, .f32⟩
  | 20 => ⟨S6500000, .f32⟩
  | 21 => ⟨S_, .f32⟩
  | 22 => ⟨S100000, .f32⟩
  | 23 => ⟨S6500000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S6500000, .i32⟩
  | 35 => ⟨S6500000, .i1⟩
  | 36 => ⟨S_, .i32⟩
  | 37 => ⟨S6500000, .i32⟩
  | 38 => ⟨S6500000, .i32⟩
  | 39 => ⟨S6500000, .i32⟩
  | 40 => ⟨S6500000x1, .i32⟩
  | 41 => ⟨S6500000, .f32⟩
  | 42 => ⟨S6500000, .f32⟩
  | 43 => ⟨S_, .i32⟩
  | 44 => ⟨S6500000, .i32⟩
  | 45 => ⟨S6500000, .i1⟩
  | 46 => ⟨S_, .i32⟩
  | 47 => ⟨S6500000, .i32⟩
  | 48 => ⟨S6500000, .i32⟩
  | 49 => ⟨S6500000, .i32⟩
  | 50 => ⟨S6500000x1, .i32⟩
  | 51 => ⟨S6500000, .f32⟩
  | 52 => ⟨S6500000, .f32⟩
  | 53 => ⟨S128x16, .f32⟩
  | 54 => ⟨S100000x16, .f32⟩
  | 55 => ⟨S1x16, .f32⟩
  | 56 => ⟨S100000x16, .f32⟩
  | 57 => ⟨S100000x16, .f32⟩
  | 58 => ⟨S_, .f32⟩
  | 59 => ⟨S100000x16, .f32⟩
  | 60 => ⟨S100000x16, .f32⟩
  | 61 => ⟨S16x16, .f32⟩
  | 62 => ⟨S100000x16, .f32⟩
  | 63 => ⟨S_, .i32⟩
  | 64 => ⟨S6500000, .i32⟩
  | 65 => ⟨S6500000, .i1⟩
  | 66 => ⟨S_, .i32⟩
  | 67 => ⟨S6500000, .i32⟩
  | 68 => ⟨S6500000, .i32⟩
  | 69 => ⟨S6500000, .i32⟩
  | 70 => ⟨S6500000x1, .i32⟩
  | 71 => ⟨S6500000x16, .f32⟩
  | 72 => ⟨S6500000x1, .f32⟩
  | 73 => ⟨S6500000x16, .f32⟩
  | 74 => ⟨S6500000x16, .f32⟩
  | 75 => ⟨S_, .f32⟩
  | 76 => ⟨S100000x16, .f32⟩
  | 77 => ⟨S6500000x1, .i32⟩
  | 78 => ⟨S100000x16, .f32⟩
  | 79 => ⟨S1x16, .f32⟩
  | 80 => ⟨S100000x16, .f32⟩
  | 81 => ⟨S100000x16, .f32⟩
  | 82 => ⟨S_, .f32⟩
  | 83 => ⟨S100000x16, .f32⟩
  | 84 => ⟨S100000x16, .f32⟩
  | 85 => ⟨S16x16, .f32⟩
  | 86 => ⟨S100000x16, .f32⟩
  | 87 => ⟨S_, .i32⟩
  | 88 => ⟨S6500000, .i32⟩
  | 89 => ⟨S6500000, .i1⟩
  | 90 => ⟨S_, .i32⟩
  | 91 => ⟨S6500000, .i32⟩
  | 92 => ⟨S6500000, .i32⟩
  | 93 => ⟨S6500000, .i32⟩
  | 94 => ⟨S6500000x1, .i32⟩
  | 95 => ⟨S6500000x16, .f32⟩
  | 96 => ⟨S6500000x1, .f32⟩
  | 97 => ⟨S6500000x16, .f32⟩
  | 98 => ⟨S6500000x16, .f32⟩
  | 99 => ⟨S_, .f32⟩
  | 100 => ⟨S100000x16, .f32⟩
  | 101 => ⟨S6500000x1, .i32⟩
  | 102 => ⟨S100000x16, .f32⟩
  | 103 => ⟨S1x16, .f32⟩
  | 104 => ⟨S100000x16, .f32⟩
  | 105 => ⟨S100000x16, .f32⟩
  | 106 => ⟨S_, .f32⟩
  | 107 => ⟨S100000x16, .f32⟩
  | 108 => ⟨S100000x16, .f32⟩
  | 109 => ⟨S16x2, .f32⟩
  | 110 => ⟨S100000x2, .f32⟩
  | 111 => ⟨S1x2, .f32⟩
  | 112 => ⟨S100000x2, .f32⟩
  | 113 => ⟨S100000x2, .f32⟩
  | 114 => ⟨S_, .f32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x2, .f32⟩
  | 121 => ⟨S100000x2, .f32⟩
  | 122 => ⟨S100000x2, .f32⟩
  | 123 => ⟨S_, .f32⟩
  | 124 => ⟨S100000, .f32⟩
  | 125 => ⟨S100000x1, .f32⟩
  | 126 => ⟨S100000x1, .f32⟩
  | 127 => ⟨S100000x2, .f32⟩
  | _ => ⟨S100000x128, .f32⟩

abbrev hbmTy0_1 (i : Nat) : BufTy := match i % 128 with
  | 0 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call1_cst : Ref sig .tc := ⟨.hbm, 58, rfl⟩
abbrev main_call1_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_6 : Ref sig .tc := ⟨.hbm, 63, rfl⟩
abbrev main_v40 : Ref sig .tc := ⟨.hbm, 64, rfl⟩
abbrev main_v41 : Ref sig .tc := ⟨.hbm, 65, rfl⟩
abbrev main_c_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call2_cst : Ref sig .tc := ⟨.hbm, 82, rfl⟩
abbrev main_call2_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_9 : Ref sig .tc := ⟨.hbm, 87, rfl⟩
abbrev main_v59 : Ref sig .tc := ⟨.hbm, 88, rfl⟩
abbrev main_v60 : Ref sig .tc := ⟨.hbm, 89, rfl⟩
abbrev main_c_10 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_11 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_call3_cst : Ref sig .tc := ⟨.hbm, 106, rfl⟩
abbrev main_call3_v0 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call4_cst : Ref sig .tc := ⟨.hbm, 114, rfl⟩
abbrev main_call4_v0 : Ref sig .tc := ⟨.hbm, 115, rfl⟩
abbrev main_call4_cst_0 : Ref sig .tc := ⟨.hbm, 116, rfl⟩
abbrev main_call4_v1 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_v6 : Ref sig .tc := ⟨.hbm, 122, rfl⟩
abbrev main_call4_cst_1 : Ref sig .tc := ⟨.hbm, 123, rfl⟩
abbrev main_call4_v7 : Ref sig .tc := ⟨.hbm, 124, rfl⟩
abbrev main_call4_v8 : Ref sig .tc := ⟨.hbm, 125, rfl⟩
abbrev main_call4_v9 : Ref sig .tc := ⟨.hbm, 126, rfl⟩
abbrev main_call4_v10 : Ref sig .tc := ⟨.hbm, 127, rfl⟩
abbrev main_v81 : Ref sig .tc := ⟨.hbm, 128, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S100000 : S_.BroadcastsInDim S100000 (![] : Fin 0 → Fin S100000.rank)
  bcast_S6500000_S6500000x1_0 : S6500000.BroadcastsInDim S6500000x1 (![0] : Fin 1 → Fin S6500000x1.rank)
  bcast_S_S6500000 : S_.BroadcastsInDim S6500000 (![] : Fin 0 → Fin S6500000.rank)
  transposes_S16x128_S128x16_1_0 : S16x128.Transposes [1, 0] S128x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  transposes_S16x16_S16x16_1_0 : S16x16.Transposes [1, 0] S16x16
  bcast_S6500000x1_S6500000x16_0_1 : S6500000x1.BroadcastsInDim S6500000x16 (![0, 1] : Fin 2 → Fin S6500000x16.rank)
  transposes_S2x16_S16x2_1_0 : S2x16.Transposes [1, 0] S16x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x128_S128x16_S100000x16_1_0_0_1_n_n_wf : DotDims.WF S100000x128 S128x16 S100000x16 [1] [0] [0] [1] [] []
  dot_S100000x16_S16x16_S100000x16_1_0_0_1_n_n_wf : DotDims.WF S100000x16 S16x16 S100000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S100000x16_S16x2_S100000x2_1_0_0_1_n_n_wf : DotDims.WF S100000x16 S16x2 S100000x2 [1] [0] [0] [1] [] []

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf

class Facts : Prop extends Facts₀ where

variable [Facts]
-- ==== Proof.KRun.lean ====
/-
  The kernel program's run, with the result named.

  Every weakly fair execution of the program ends, nothing faulting, with the argument arrays as launched and the
  result array holding what the last boundary of the run's fold holds there: the host operations and the three
  pipelined regions applied in order to the launch memory. This is the generated frame's own term — the launch of the
  program's six segments — with the final state also read at the result's buffer.
-/
import proofs.«146560_j1984274891423_2_alg».proof.Proof.FrameKernelIdeal

set_option maxRecDepth 16384

noncomputable section

namespace Cert.KernelIdeal.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination without a fault, the result at the fold's last boundary, the arguments as launched. -/
theorem run_main : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.KRun

end
-- ==== Proof.Spec.lean ====
/-
  The graph-convolution network of this certificate, written once as plain functions of extended reals.

  A node `n` carries a row of 128 features; the first dense layer gives 16 hidden units `max (x·Wfᵀ + bf) 0`.
  A convolution layer multiplies the hidden row by `Wᵀ`, sends the product along the edges (each edge weighted),
  sums what arrives at every node, adds a bias and clips at zero; the last dense layer gives two logits whose
  log-softmax is the result. The kernel program scales a node's message by `dinv n` BEFORE it travels and the
  arriving sum by `dinv n` AFTER; the reference weights every edge by `dinv src · w · dinv dst`. Both are stated
  here through the same pieces, with the aggregation itself a parameter.
-/
import Idealize.ShloMosaic.PureOps.Ideal
import Idealize.ShloMosaic.Lib.ValueIdx

noncomputable section

open scoped BigOperators

namespace Cert.Gcn

open Idealize.ShloMosaic Idealize.ShloMosaic.ValueIdx

/-- A rank-2 array of extended reals of literal extents. -/
abbrev A2 (a b : Nat) : Type := (⟨2, ![a, b]⟩ : Shape).Idx → EReal
/-- A rank-1 array of extended reals of a literal extent. -/
abbrev A1 (a : Nat) : Type := (⟨1, ![a]⟩ : Shape).Idx → EReal

/-- The first dense layer at node `n`, unit `k`: `max (∑ₗ x[n,l]·Wf[k,l] + bf[k]) 0`. -/
def hid0 (X : A2 100000 128) (Wf : A2 16 128) (bf : A1 16) (n : Fin 100000) (k : Fin 16) : EReal :=
  max ((∑ l : Fin 128, X (ix2 n l) * Wf (ix2 k l)) + bf (ix1 k)) 0

/-- A hidden row times `Wᵀ`: `∑ₖ H[n,k]·W[q,k]`, for a weight matrix of `C` rows. -/
def lin16 {C : Nat} (H : Fin 100000 → Fin 16 → EReal) (W : A2 C 16) (n : Fin 100000) (q : Fin C) : EReal :=
  ∑ k : Fin 16, H n k * W (ix2 q k)

/-- What a node does with an arrived sum `A` that is still to be scaled by the node's own factor `D`:
    `max (A[n,k]·D[n] + b[k]) 0`. -/
def hidAgg (A : A2 100000 16) (D : A2 100000 1) (b : A1 16) (n : Fin 100000) (k : Fin 16) : EReal :=
  max (A (ix2 n k) * D (ix2 n (0 : Fin 1)) + b (ix1 k)) 0

/-- What a node does with an arrived sum that needs no further scaling: `max (A[n,k] + b[k]) 0`. -/
def hidSum (A : A2 100000 16) (b : A1 16) (n : Fin 100000) (k : Fin 16) : EReal :=
  max (A (ix2 n k) + b (ix1 k)) 0

/-- A message array scaled row by row: `M[n,q]·D[n]`. -/
def scaleRows (M : Fin 100000 → Fin 16 → EReal) (D : A2 100000 1) : A2 100000 16 :=
  fun i => M (i 0) (i 1) * D (ix2 (i 0) (0 : Fin 1))

/-- A message array as it is. -/
def asArray (M : Fin 100000 → Fin 16 → EReal) : A2 100000 16 := fun i => M (i 0) (i 1)

/-- The first kernel stage: the first dense layer, then the first convolution's product, each row scaled. -/
def stage0 (X : A2 100000 128) (Wf : A2 16 128) (bf : A1 16) (W1 : A2 16 16) (D : A2 100000 1) : A2 100000 16 :=
  scaleRows (lin16 (hid0 X Wf bf) W1) D

/-- The middle kernel stage: finish a convolution from the arrived sum, then the next convolution's product, scaled. -/
def stage1 (A : A2 100000 16) (D : A2 100000 1) (b : A1 16) (W : A2 16 16) : A2 100000 16 :=
  scaleRows (lin16 (hidAgg A D b) W) D

/-- Minus infinity as the programs spell it. -/
def ninf : EReal := Ideal.ofBits .f32 0xFF800000#32

/-- The maximum of a row of two logits as both programs take it: a fold of `max` from minus infinity, then one more
    `max` with minus infinity. -/
def rowMax (z : Fin 2 → EReal) : EReal := max ninf ((Finset.univ : Finset (Fin 2)).fold max ninf z)

/-- The log-softmax of a row of two logits: `(z q − M) − log ∑ₖ exp (z k − M)`, `M` the row's maximum. -/
def logSoftmax2 (z : Fin 2 → EReal) (q : Fin 2) : EReal :=
  (z q - rowMax z) - Ideal.log (∑ k : Fin 2, Ideal.exp (z k - rowMax z))

/-- The two logits of node `n` from its last hidden row. -/
def logits (H : Fin 100000 → Fin 16 → EReal) (Wo : A2 2 16) (bo : A1 2) (n : Fin 100000) (q : Fin 2) : EReal :=
  lin16 H Wo n q + bo (ix1 q)

/-- The last kernel stage: finish the second convolution from the arrived sum, the output layer, log-softmax. -/
def stage2 (A : A2 100000 16) (D : A2 100000 1) (b : A1 16) (Wo : A2 2 16) (bo : A1 2) : A2 100000 2 :=
  fun i => logSoftmax2 (logits (hidAgg A D b) Wo bo (i 0)) (i 1)

/-- The kernel program's result from its aggregation `agg` (messages in, arrived sums out). -/
def kernelOut (agg : A2 100000 16 → A2 100000 16) (X : A2 100000 128) (Wf : A2 16 128) (bf : A1 16) (W1 : A2 16 16)
    (b1 : A1 16) (W2 : A2 16 16) (b2 : A1 16) (Wo : A2 2 16) (bo : A1 2) (D : A2 100000 1) : A2 100000 2 :=
  stage2 (agg (stage1 (agg (stage0 X Wf bf W1 D)) D b1 W2)) D b2 Wo bo

/-- The reference's result from ITS aggregation `agg` (which carries the whole edge normalisation). -/
def refOut (agg : A2 100000 16 → A2 100000 16) (X : A2 100000 128) (Wf : A2 16 128) (bf : A1 16) (W1 : A2 16 16)
    (b1 : A1 16) (W2 : A2 16 16) (b2 : A1 16) (Wo : A2 2 16) (bo : A1 2) : A2 100000 2 :=
  fun i => logSoftmax2 (logits (hidSum (agg (asArray (lin16 (hidSum (agg (asArray (lin16 (hid0 X Wf bf) W1))) b1) W2))) b2)
    Wo bo (i 0)) (i 1)

/-- THE BRIDGE between the two: if scaling the messages' rows before the kernel's aggregation and the arrived rows
    after it is the reference's aggregation, the two results are one array. -/
theorem kernelOut_eq_refOut (aggK aggR : A2 100000 16 → A2 100000 16) (D : A2 100000 1)
    (h : ∀ (M : Fin 100000 → Fin 16 → EReal) (n : Fin 100000) (k : Fin 16),
      aggK (scaleRows M D) (ix2 n k) * D (ix2 n (0 : Fin 1)) = aggR (asArray M) (ix2 n k))
    (X : A2 100000 128) (Wf : A2 16 128) (bf : A1 16) (W1 : A2 16 16) (b1 : A1 16) (W2 : A2 16 16) (b2 : A1 16)
    (Wo : A2 2 16) (bo : A1 2) :
    kernelOut aggK X Wf bf W1 b1 W2 b2 Wo bo D = refOut aggR X Wf bf W1 b1 W2 b2 Wo bo := by
  have hh : ∀ (M : Fin 100000 → Fin 16 → EReal) (b : A1 16), hidAgg (aggK (scaleRows M D)) D b = hidSum (aggR (asArray M)) b := by
    intro M b; funext n k; unfold hidAgg hidSum; rw [h M n k]
  unfold kernelOut refOut stage2 stage1 stage0
  funext i
  rw [hh, hh]

end Cert.Gcn

end
-- ==== Proof.Agg.lean ====
/-
  The two aggregations over the edge list, as functions of a message array.

  The edge list is the given edges followed by one self loop per node; `row` (sources, negative entries wrapped once
  by the node count) picks the message rows, `col` (targets) says where each picked row is added, `ew` is the edge
  weight (1 on the self loops). The node factor is `dinv n = 1/√deg n` where the weighted in-degree `deg n` is
  positive, and 0 elsewhere. The reference adds `M[row e] · (dinv[row e] · ew e · dinv[col e])` into node `col e`;
  the kernel program adds `M'[row e] · ew e`, its messages `M'` scaled beforehand and the arrived sums afterwards.
  Both are spelt here over the reference's own stages for `row`, `col`, `ew`, the edge factor and `dinv`.
-/
import proofs.«146560_j1984274891423_2_alg».proof.Proof.ReadReferenceIdeal
import proofs.«146560_j1984274891423_2_alg».proof.Proof.Spec

noncomputable section

namespace Cert.ReferenceIdeal.Agg

open Cert.ReferenceIdeal Cert.ReferenceIdeal.Gen Cert.ReferenceIdeal.ReadP Idealize.ShloMosaic Idealize.ShloMosaic.ValueIdx

/-- The edge endpoints as given: `[2, 6400000]` 32-bit integers. -/
abbrev EdgeIdx : Type := (⟨S2x6400000, .i32⟩ : BufTy).Contents (Elt Ideal)
/-- The edge weights as given. -/
abbrev EdgeW : Type := (⟨S6400000, .f32⟩ : BufTy).Contents (Elt Ideal)

/-- The node factor `dinv` as a column `[100000, 1]`. -/
def dcol (x1 : EdgeIdx) (x2 : EdgeW) : Cert.Gcn.A2 100000 1 :=
  broadcastInDim S100000x1 ![0] bcast_S100000_S100000x1_0 (val_main_v15 (F := Ideal) x1 x2)

/-- The reference's aggregation of a message array `M`: row `row e` of `M` times the edge's whole factor, added into
    node `col e`. -/
def aggR (x1 : EdgeIdx) (x2 : EdgeW) (M : Cert.Gcn.A2 100000 16) : Cert.Gcn.A2 100000 16 :=
  Host.scatterAdd (F := Ideal) scatter_S100000x16_S6500000x1_S6500000x16_1_0_0_1
    (broadcastInDim S100000x16 ![] bcast_S_S100000x16 (constant (F := Ideal) S_ .f32 0x00000000#32))
    (val_main_v51 (F := Ideal) x1)
    (mulf (Host.gather gather_S100000x16_S6500000x1_S6500000x16_1_0_n_n_0_1_116 M (val_main_v45 (F := Ideal) x1))
      (val_main_v48 (F := Ideal) x1 x2))

/-- The kernel program's aggregation of a message array `M`: row `row e` of `M` times the edge weight alone, added
    into node `col e`. -/
def aggK (x1 : EdgeIdx) (x2 : EdgeW) (M : Cert.Gcn.A2 100000 16) : Cert.Gcn.A2 100000 16 :=
  Host.scatterAdd (F := Ideal) scatter_S100000x16_S6500000x1_S6500000x16_1_0_0_1
    (broadcastInDim S100000x16 ![] bcast_S_S100000x16 (constant (F := Ideal) S_ .f32 0x00000000#32))
    (val_main_v51 (F := Ideal) x1)
    (mulf (Host.gather gather_S100000x16_S6500000x1_S6500000x16_1_0_n_n_0_1_116 M (val_main_v45 (F := Ideal) x1))
      (broadcastInDim S6500000x16 ![0, 1] bcast_S6500000x1_S6500000x16_0_1
        (broadcastInDim S6500000x1 ![0] bcast_S6500000_S6500000x1_0 (val_main_v8 (F := Ideal) x2))))

end Cert.ReferenceIdeal.Agg

end
-- ==== Proof.KChain.lean ====
/-
  The kernel program's result read through the run's fold.

  The fold applies, to the launch memory: the host operations that build the edge list and the node factors; the
  first pipelined stage; the first aggregation over the edges; the middle stage; the second aggregation; the last
  stage. Each host stretch is read back as the operations' composed term of the buffers it reads, a stage's output
  array as the stage's function of its input arrays (the three facts `h0 h1 h2`, proved region by region), and every
  other buffer is carried unchanged from the boundary before. Composed, the result is `Cert.Gcn.kernelOut` of the
  launch arguments, over the edge list's own stages.
-/
import proofs.«146560_j1984274891423_2_alg».proof.Proof.FrameKernelIdeal
import proofs.«146560_j1984274891423_2_alg».proof.Proof.Agg
import Idealize.ShloMosaic.Lib.StableHlo.Run

set_option maxRecDepth 16384

noncomputable section

namespace Cert.KernelIdeal.KChain

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## An aggregation stretch as one function -/

/-- One aggregation as the program spells it: wrap the negative sources once, pick those rows of the messages, weight
    each picked row by its edge, add it into its target node. -/
def kagg (M : FVec Ideal S100000x16 .bf16) (row col : IVec S6500000 32) (ew : FVec Ideal S6500000 .f32) : FVec Ideal S100000x16 .f32 :=
  Host.scatterAdd scatter_S100000x16_S6500000x1_S6500000x16_1_0_0_1
    (broadcastInDim S100000x16 ![] bcast_S_S100000x16 (constant (F := Ideal) S_ .f32 0x00000000#32))
    (broadcastInDim S6500000x1 ![0] bcast_S6500000_S6500000x1_0 col)
    (mulf (extf .f32 (Host.gather gather_S100000x16_S6500000x1_S6500000x16_1_0_n_n_0_1_116 M
        (broadcastInDim S6500000x1 ![0] bcast_S6500000_S6500000x1_0
          (select (cmpi .slt row (broadcastInDim S6500000 ![] bcast_S_S6500000 (constantI S_ 32 0#32)))
            (addi row (broadcastInDim S6500000 ![] bcast_S_S6500000 (constantI S_ 32 100000#32))) row))) bitsLt_bf16_f32)
      (broadcastInDim S6500000x16 ![0, 1] bcast_S6500000x1_S6500000x16_0_1
        (broadcastInDim S6500000x1 ![0] bcast_S6500000_S6500000x1_0 ew)))

/-- Over the reference's own stages for the edge list it is the aggregation `Agg.aggK`. -/
theorem kagg_eq (x1 : Cert.ReferenceIdeal.Agg.EdgeIdx) (x2 : Cert.ReferenceIdeal.Agg.EdgeW) (M : Cert.Gcn.A2 100000 16) :
    kagg M (Cert.ReferenceIdeal.ReadP.val_main_v3 (F := Ideal) x1) (Cert.ReferenceIdeal.ReadP.val_main_v6 (F := Ideal) x1)
      (Cert.ReferenceIdeal.ReadP.val_main_v8 (F := Ideal) x2) = Cert.ReferenceIdeal.Agg.aggK x1 x2 M := rfl

/-! ## The first stretch: the edge list and the node factors -/

theorem W1_v3 : W1 m ρ c (Proc.devRef .tc main_call0_v3)
    = Cert.ReferenceIdeal.ReadP.val_main_v3 (F := Ideal) (m ((c : Thread nD τ).loc main_arg1)) := by
  show StableHlo.after hostOps0 (W0 m ρ c) (Proc.devRef .tc main_call0_v3) = _
  after_results <;> rfl
theorem W1_v6 : W1 m ρ c (Proc.devRef .tc main_call0_v6)
    = Cert.ReferenceIdeal.ReadP.val_main_v6 (F := Ideal) (m ((c : Thread nD τ).loc main_arg1)) := by
  show StableHlo.after hostOps0 (W0 m ρ c) (Proc.devRef .tc main_call0_v6) = _
  after_results <;> rfl
theorem W1_v8 : W1 m ρ c (Proc.devRef .tc main_call0_v8)
    = Cert.ReferenceIdeal.ReadP.val_main_v8 (F := Ideal) (m ((c : Thread nD τ).loc main_arg2)) := by
  show StableHlo.after hostOps0 (W0 m ρ c) (Proc.devRef .tc main_call0_v8) = _
  after_results <;> rfl

/-- Reading a buffer's contents back at its own type undoes writing them there. -/
theorem ofBuf_toBuf {T : BufTy} (x : TRef sig T) (v : T.Contents (Elt Ideal)) : x.ofBuf (x.toBuf v) = v := by
  obtain ⟨r, h, _, _⟩ := x; subst h; rfl

/-- Two stretches of operations one after the other are the stretches composed. -/
theorem after_append {Val : EltTy → Type} (l1 l2 : List (HloOp τ sig Val)) (W : Valuation τ sig Val) :
    StableHlo.after (l1 ++ l2) W = StableHlo.after l2 (StableHlo.after l1 W) := by
  induction l1 generalizing W with
  | nil => rfl
  | cons op l ih => exact ih _

/-- The node factors as the program spells them, from the edge targets and the edge weights. -/
def kdcol (col : IVec S6500000 32) (ew : FVec Ideal S6500000 .f32) : FVec Ideal S100000x1 .f32 :=
  broadcastInDim S100000x1 ![0] bcast_S100000_S100000x1_0
    (select
      (cmpf .ogt
        (Host.scatterAdd scatter_S100000_S6500000x1_S6500000_n_0_0_1
          (broadcastInDim S100000 ![] bcast_S_S100000 (constant (F := Ideal) S_ .f32 0x00000000#32))
          (broadcastInDim S6500000x1 ![0] bcast_S6500000_S6500000x1_0 col) ew)
        (broadcastInDim S100000 ![] bcast_S_S100000 (constant (F := Ideal) S_ .f32 0x00000000#32)))
      (Host.rsqrt
        (Host.scatterAdd scatter_S100000_S6500000x1_S6500000_n_0_0_1
          (broadcastInDim S100000 ![] bcast_S_S100000 (constant (F := Ideal) S_ .f32 0x00000000#32))
          (broadcastInDim S6500000x1 ![0] bcast_S6500000_S6500000x1_0 col) ew))
      (broadcastInDim S100000 ![] bcast_S_S100000 (id (constant (F := Ideal) S_ .f32 0x00000000#32))))

/-- Over the reference's own stages for the edge list they are the node factors `Agg.dcol`. -/
theorem kdcol_eq (x1 : Cert.ReferenceIdeal.Agg.EdgeIdx) (x2 : Cert.ReferenceIdeal.Agg.EdgeW) :
    kdcol (Cert.ReferenceIdeal.ReadP.val_main_v6 (F := Ideal) x1) (Cert.ReferenceIdeal.ReadP.val_main_v8 (F := Ideal) x2)
      = Cert.ReferenceIdeal.Agg.dcol x1 x2 := rfl

set_option maxHeartbeats 4000000 in
/-- The stretch's later operations, over any contents `W` before them: the node-factor column from the edge
    targets and weights found in `W`. -/
theorem tail_v16 (W : Valuation τ sig (Elt Ideal)) :
    StableHlo.after ((hostOps0 (F := Ideal)).drop 10) W (Proc.devRef .tc main_call0_v16)
      = (TRef.of main_call0_v16 : TRef sig ⟨S100000x1, .f32⟩).toBuf
          (kdcol ((TRef.of main_call0_v6 : TRef sig ⟨S6500000, .i32⟩).ofBuf (W (Proc.devRef .tc main_call0_v6)))
            ((TRef.of main_call0_v8 : TRef sig ⟨S6500000, .f32⟩).ofBuf (W (Proc.devRef .tc main_call0_v8)))) := by
  dsimp only [hostOps0, List.drop]
  after_results
  simp only [ofBuf_toBuf]
  rfl

set_option maxHeartbeats 4000000 in
/-- The stretch's first operations leave the edge targets: the given targets followed by one self loop per node. -/
theorem head_v6 : (TRef.of main_call0_v6 : TRef sig ⟨S6500000, .i32⟩).ofBuf
      (StableHlo.after ((hostOps0 (F := Ideal)).take 10) (W0 m ρ c) (Proc.devRef .tc main_call0_v6))
    = Cert.ReferenceIdeal.ReadP.val_main_v6 (F := Ideal) (m ((c : Thread nD τ).loc main_arg1)) := by
  dsimp only [hostOps0, List.take]
  after_results <;> rfl

set_option maxHeartbeats 4000000 in
/-- and the edge weights: the given weights followed by a one per self loop. -/
theorem head_v8 : (TRef.of main_call0_v8 : TRef sig ⟨S6500000, .f32⟩).ofBuf
      (StableHlo.after ((hostOps0 (F := Ideal)).take 10) (W0 m ρ c) (Proc.devRef .tc main_call0_v8))
    = Cert.ReferenceIdeal.ReadP.val_main_v8 (F := Ideal) (m ((c : Thread nD τ).loc main_arg2)) := by
  dsimp only [hostOps0, List.take]
  after_results <;> rfl

/-- Writing a column at the node-factor buffer's own type changes nothing. -/
theorem toBuf_v16 (y : (⟨S100000x1, .f32⟩ : BufTy).Contents (Elt Ideal)) :
    (TRef.of main_call0_v16 : TRef sig ⟨S100000x1, .f32⟩).toBuf y = y := rfl

/-- After the first stretch the node-factor buffer holds `Agg.dcol` of the edge list. -/
theorem W1_v16 : W1 m ρ c (Proc.devRef .tc main_call0_v16)
    = Cert.ReferenceIdeal.Agg.dcol (m ((c : Thread nD τ).loc main_arg1)) (m ((c : Thread nD τ).loc main_arg2)) := by
  show StableHlo.after hostOps0 (W0 m ρ c) (Proc.devRef .tc main_call0_v16) = _
  rw [← List.take_append_drop 10 (hostOps0 (F := Ideal)), after_append, tail_v16, head_v6, head_v8]
  exact (toBuf_v16 _).trans (kdcol_eq _ _)

/-! ## Buffers carried through a stretch of host operations or a stage -/

/-- A buffer that none of a stretch's operations writes holds after the stretch what it held before. -/
local macro "host_carry" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

theorem W5_v16 : W5 m ρ c (Proc.devRef .tc main_call0_v16) = W4 m ρ c (Proc.devRef .tc main_call0_v16) := by
  host_carry hostOps2
theorem W4_v16 : W4 m ρ c (Proc.devRef .tc main_call0_v16) = W3 m ρ c (Proc.devRef .tc main_call0_v16) :=
  (W4_arr m ρ c 1).trans (((dat1 (V3 m ρ) c).arrAt_in 1 rfl _).trans (A_eq1 (V3 m ρ) c 1))
theorem W3_v16 : W3 m ρ c (Proc.devRef .tc main_call0_v16) = W2 m ρ c (Proc.devRef .tc main_call0_v16) := by
  host_carry hostOps1
theorem W2_v16 : W2 m ρ c (Proc.devRef .tc main_call0_v16) = W1 m ρ c (Proc.devRef .tc main_call0_v16) :=
  (W2_arr m ρ c 4).trans (((dat0 (V1 m ρ) c).arrAt_in 4 rfl _).trans (A_eq0 (V1 m ρ) c 4))
theorem W2_v3 : W2 m ρ c (Proc.devRef .tc main_call0_v3) = W1 m ρ c (Proc.devRef .tc main_call0_v3) := W2_of_ne m ρ c main_call0_v3 (by decide)
theorem W3_v3 : W3 m ρ c (Proc.devRef .tc main_call0_v3) = W2 m ρ c (Proc.devRef .tc main_call0_v3) := by
  host_carry hostOps1
theorem W4_v3 : W4 m ρ c (Proc.devRef .tc main_call0_v3) = W3 m ρ c (Proc.devRef .tc main_call0_v3) := W4_of_ne m ρ c main_call0_v3 (by decide)
theorem W2_v6 : W2 m ρ c (Proc.devRef .tc main_call0_v6) = W1 m ρ c (Proc.devRef .tc main_call0_v6) := W2_of_ne m ρ c main_call0_v6 (by decide)
theorem W3_v6 : W3 m ρ c (Proc.devRef .tc main_call0_v6) = W2 m ρ c (Proc.devRef .tc main_call0_v6) := by
  host_carry hostOps1
theorem W4_v6 : W4 m ρ c (Proc.devRef .tc main_call0_v6) = W3 m ρ c (Proc.devRef .tc main_call0_v6) := W4_of_ne m ρ c main_call0_v6 (by decide)
theorem W2_v8 : W2 m ρ c (Proc.devRef .tc main_call0_v8) = W1 m ρ c (Proc.devRef .tc main_call0_v8) := W2_of_ne m ρ c main_call0_v8 (by decide)
theorem W3_v8 : W3 m ρ c (Proc.devRef .tc main_call0_v8) = W2 m ρ c (Proc.devRef .tc main_call0_v8) := by
  host_carry hostOps1
theorem W4_v8 : W4 m ρ c (Proc.devRef .tc main_call0_v8) = W3 m ρ c (Proc.devRef .tc main_call0_v8) := W4_of_ne m ρ c main_call0_v8 (by decide)
theorem W2_arg6 : W2 m ρ c (Proc.devRef .tc main_arg6) = W1 m ρ c (Proc.devRef .tc main_arg6) := W2_of_ne m ρ c main_arg6 (by decide)
theorem W3_arg6 : W3 m ρ c (Proc.devRef .tc main_arg6) = W2 m ρ c (Proc.devRef .tc main_arg6) := by
  host_carry hostOps1
theorem W2_arg7 : W2 m ρ c (Proc.devRef .tc main_arg7) = W1 m ρ c (Proc.devRef .tc main_arg7) := W2_of_ne m ρ c main_arg7 (by decide)
theorem W3_arg7 : W3 m ρ c (Proc.devRef .tc main_arg7) = W2 m ρ c (Proc.devRef .tc main_arg7) := by
  host_carry hostOps1
theorem W2_arg8 : W2 m ρ c (Proc.devRef .tc main_arg8) = W1 m ρ c (Proc.devRef .tc main_arg8) := W2_of_ne m ρ c main_arg8 (by decide)
theorem W3_arg8 : W3 m ρ c (Proc.devRef .tc main_arg8) = W2 m ρ c (Proc.devRef .tc main_arg8) := by
  host_carry hostOps1
theorem W2_arg9 : W2 m ρ c (Proc.devRef .tc main_arg9) = W1 m ρ c (Proc.devRef .tc main_arg9) := W2_of_ne m ρ c main_arg9 (by decide)
theorem W3_arg9 : W3 m ρ c (Proc.devRef .tc main_arg9) = W2 m ρ c (Proc.devRef .tc main_arg9) := by
  host_carry hostOps1
theorem W2_arg10 : W2 m ρ c (Proc.devRef .tc main_arg10) = W1 m ρ c (Proc.devRef .tc main_arg10) := W2_of_ne m ρ c main_arg10 (by decide)
theorem W3_arg10 : W3 m ρ c (Proc.devRef .tc main_arg10) = W2 m ρ c (Proc.devRef .tc main_arg10) := by
  host_carry hostOps1
theorem W4_arg8 : W4 m ρ c (Proc.devRef .tc main_arg8) = W3 m ρ c (Proc.devRef .tc main_arg8) := W4_of_ne m ρ c main_arg8 (by decide)
theorem W5_arg8 : W5 m ρ c (Proc.devRef .tc main_arg8) = W4 m ρ c (Proc.devRef .tc main_arg8) := by
  host_carry hostOps2
theorem W4_arg9 : W4 m ρ c (Proc.devRef .tc main_arg9) = W3 m ρ c (Proc.devRef .tc main_arg9) := W4_of_ne m ρ c main_arg9 (by decide)
theorem W5_arg9 : W5 m ρ c (Proc.devRef .tc main_arg9) = W4 m ρ c (Proc.devRef .tc main_arg9) := by
  host_carry hostOps2
theorem W4_arg10 : W4 m ρ c (Proc.devRef .tc main_arg10) = W3 m ρ c (Proc.devRef .tc main_arg10) := W4_of_ne m ρ c main_arg10 (by decide)
theorem W5_arg10 : W5 m ρ c (Proc.devRef .tc main_arg10) = W4 m ρ c (Proc.devRef .tc main_arg10) := by
  host_carry hostOps2
theorem W1_arg0 : W1 m ρ c (Proc.devRef .tc main_arg0) = m ((c : Thread nD τ).loc main_arg0) :=
  (show W1 m ρ c (Proc.devRef .tc main_arg0) = W0 m ρ c (Proc.devRef .tc main_arg0) by host_carry hostOps0).trans rfl
theorem W1_arg3 : W1 m ρ c (Proc.devRef .tc main_arg3) = m ((c : Thread nD τ).loc main_arg3) :=
  (show W1 m ρ c (Proc.devRef .tc main_arg3) = W0 m ρ c (Proc.devRef .tc main_arg3) by host_carry hostOps0).trans rfl
theorem W1_arg4 : W1 m ρ c (Proc.devRef .tc main_arg4) = m ((c : Thread nD τ).loc main_arg4) :=
  (show W1 m ρ c (Proc.devRef .tc main_arg4) = W0 m ρ c (Proc.devRef .tc main_arg4) by host_carry hostOps0).trans rfl
theorem W1_arg5 : W1 m ρ c (Proc.devRef .tc main_arg5) = m ((c : Thread nD τ).loc main_arg5) :=
  (show W1 m ρ c (Proc.devRef .tc main_arg5) = W0 m ρ c (Proc.devRef .tc main_arg5) by host_carry hostOps0).trans rfl
theorem W1_arg6 : W1 m ρ c (Proc.devRef .tc main_arg6) = m ((c : Thread nD τ).loc main_arg6) :=
  (show W1 m ρ c (Proc.devRef .tc main_arg6) = W0 m ρ c (Proc.devRef .tc main_arg6) by host_carry hostOps0).trans rfl
theorem W1_arg7 : W1 m ρ c (Proc.devRef .tc main_arg7) = m ((c : Thread nD τ).loc main_arg7) :=
  (show W1 m ρ c (Proc.devRef .tc main_arg7) = W0 m ρ c (Proc.devRef .tc main_arg7) by host_carry hostOps0).trans rfl
theorem W1_arg8 : W1 m ρ c (Proc.devRef .tc main_arg8) = m ((c : Thread nD τ).loc main_arg8) :=
  (show W1 m ρ c (Proc.devRef .tc main_arg8) = W0 m ρ c (Proc.devRef .tc main_arg8) by host_carry hostOps0).trans rfl
theorem W1_arg9 : W1 m ρ c (Proc.devRef .tc main_arg9) = m ((c : Thread nD τ).loc main_arg9) :=
  (show W1 m ρ c (Proc.devRef .tc main_arg9) = W0 m ρ c (Proc.devRef .tc main_arg9) by host_carry hostOps0).trans rfl
theorem W1_arg10 : W1 m ρ c (Proc.devRef .tc main_arg10) = m ((c : Thread nD τ).loc main_arg10) :=
  (show W1 m ρ c (Proc.devRef .tc main_arg10) = W0 m ρ c (Proc.devRef .tc main_arg10) by host_carry hostOps0).trans rfl

/-! ## The two aggregation stretches read back -/

set_option maxHeartbeats 4000000 in
/-- The first aggregation stretch, over any contents `W` before it: the arrived-sum buffer ends at the aggregation
    of the first stage's output buffer along the edge-list buffers. -/
theorem agg1_readback (W : Valuation τ sig (Elt Ideal)) :
    StableHlo.after hostOps1 W (Proc.devRef .tc main_call0_v31)
      = kagg (W (Proc.devRef .tc main_call0_v17)) (W (Proc.devRef .tc main_call0_v3))
          (W (Proc.devRef .tc main_call0_v6)) (W (Proc.devRef .tc main_call0_v8)) := by
  after_results <;> rfl

set_option maxHeartbeats 4000000 in
/-- The second aggregation stretch likewise, of the middle stage's output buffer. -/
theorem agg2_readback (W : Valuation τ sig (Elt Ideal)) :
    StableHlo.after hostOps2 W (Proc.devRef .tc main_call0_v46)
      = kagg (W (Proc.devRef .tc main_call0_v32)) (W (Proc.devRef .tc main_call0_v3))
          (W (Proc.devRef .tc main_call0_v6)) (W (Proc.devRef .tc main_call0_v8)) := by
  after_results <;> rfl

theorem W3_v31 : W3 m ρ c (Proc.devRef .tc main_call0_v31)
    = kagg (W2 m ρ c (Proc.devRef .tc main_call0_v17)) (W2 m ρ c (Proc.devRef .tc main_call0_v3))
        (W2 m ρ c (Proc.devRef .tc main_call0_v6)) (W2 m ρ c (Proc.devRef .tc main_call0_v8)) :=
  agg1_readback (W2 m ρ c)

theorem W5_v46 : W5 m ρ c (Proc.devRef .tc main_call0_v46)
    = kagg (W4 m ρ c (Proc.devRef .tc main_call0_v32)) (W4 m ρ c (Proc.devRef .tc main_call0_v3))
        (W4 m ρ c (Proc.devRef .tc main_call0_v6)) (W4 m ρ c (Proc.devRef .tc main_call0_v8)) :=
  agg2_readback (W4 m ρ c)

/-! ## The chain -/

private theorem congr4 {α β γ δ ε : Sort _} (f : α → β → γ → δ → ε) {a a' : α} {b b' : β} {c c' : γ} {d d' : δ}
    (ha : a = a') (hb : b = b') (hc : c = c') (hd : d = d') : f a b c d = f a' b' c' d' := by
  subst ha hb hc hd; rfl

private theorem congr5 {α β γ δ ε ζ : Sort _} (f : α → β → γ → δ → ε → ζ) {a a' : α} {b b' : β} {c c' : γ} {d d' : δ}
    {e e' : ε} (ha : a = a') (hb : b = b') (hc : c = c') (hd : d = d') (he : e = e') :
    f a b c d e = f a' b' c' d' e' := by
  subst ha hb hc hd he; rfl

/-- The node factors reach every stage unchanged. -/
theorem W2_dcol : W2 m ρ c (Proc.devRef .tc main_call0_v16) = (Cert.ReferenceIdeal.Agg.dcol (m ((c : Thread nD τ).loc main_arg1)) (m ((c : Thread nD τ).loc main_arg2))) :=
  (W2_v16 m ρ c).trans (W1_v16 m ρ c)
theorem W3_dcol : W3 m ρ c (Proc.devRef .tc main_call0_v16) = (Cert.ReferenceIdeal.Agg.dcol (m ((c : Thread nD τ).loc main_arg1)) (m ((c : Thread nD τ).loc main_arg2))) :=
  (W3_v16 m ρ c).trans (W2_dcol m ρ c)
theorem W5_dcol : W5 m ρ c (Proc.devRef .tc main_call0_v16) = (Cert.ReferenceIdeal.Agg.dcol (m ((c : Thread nD τ).loc main_arg1)) (m ((c : Thread nD τ).loc main_arg2))) :=
  (W5_v16 m ρ c).trans ((W4_v16 m ρ c).trans (W3_dcol m ρ c))

/-- The edge list reaches both aggregation stretches unchanged. -/
theorem W2_row : W2 m ρ c (Proc.devRef .tc main_call0_v3) = Cert.ReferenceIdeal.ReadP.val_main_v3 (F := Ideal) (m ((c : Thread nD τ).loc main_arg1)) :=
  (W2_v3 m ρ c).trans (W1_v3 m ρ c)
theorem W2_col : W2 m ρ c (Proc.devRef .tc main_call0_v6) = Cert.ReferenceIdeal.ReadP.val_main_v6 (F := Ideal) (m ((c : Thread nD τ).loc main_arg1)) :=
  (W2_v6 m ρ c).trans (W1_v6 m ρ c)
theorem W2_ew : W2 m ρ c (Proc.devRef .tc main_call0_v8) = Cert.ReferenceIdeal.ReadP.val_main_v8 (F := Ideal) (m ((c : Thread nD τ).loc main_arg2)) :=
  (W2_v8 m ρ c).trans (W1_v8 m ρ c)
theorem W4_row : W4 m ρ c (Proc.devRef .tc main_call0_v3) = Cert.ReferenceIdeal.ReadP.val_main_v3 (F := Ideal) (m ((c : Thread nD τ).loc main_arg1)) :=
  (W4_v3 m ρ c).trans ((W3_v3 m ρ c).trans (W2_row m ρ c))
theorem W4_col : W4 m ρ c (Proc.devRef .tc main_call0_v6) = Cert.ReferenceIdeal.ReadP.val_main_v6 (F := Ideal) (m ((c : Thread nD τ).loc main_arg1)) :=
  (W4_v6 m ρ c).trans ((W3_v6 m ρ c).trans (W2_col m ρ c))
theorem W4_ew : W4 m ρ c (Proc.devRef .tc main_call0_v8) = Cert.ReferenceIdeal.ReadP.val_main_v8 (F := Ideal) (m ((c : Thread nD τ).loc main_arg2)) :=
  (W4_v8 m ρ c).trans ((W3_v8 m ρ c).trans (W2_ew m ρ c))

/-- The first stage's output buffer. -/
theorem W2_v17 (h0 : ∀ (V : (c : Dev nD) → (b : Ref sig .tc) → Buf (Elt Ideal) ((c : Thread nD τ).loc b)) (c : Dev nD), (GenP.dat0 (F := Ideal) V c).arrAt 5 cfg0.N = Cert.Gcn.stage0 (V c main_arg0) (V c main_arg3) (V c main_arg4) (V c main_arg5) (V c main_call0_v16)) :
    W2 m ρ c (Proc.devRef .tc main_call0_v17) = (Cert.Gcn.stage0 (m ((c : Thread nD τ).loc main_arg0)) (m ((c : Thread nD τ).loc main_arg3)) (m ((c : Thread nD τ).loc main_arg4)) (m ((c : Thread nD τ).loc main_arg5)) (Cert.ReferenceIdeal.Agg.dcol (m ((c : Thread nD τ).loc main_arg1)) (m ((c : Thread nD τ).loc main_arg2)))) :=
  ((W2_arr m ρ c 5).trans (h0 (V1 m ρ) c)).trans
    (congr5 Cert.Gcn.stage0 (W1_arg0 m ρ c) (W1_arg3 m ρ c) (W1_arg4 m ρ c) (W1_arg5 m ρ c) (W1_v16 m ρ c))

/-- The first arrived sums. -/
theorem W3_sum (h0 : ∀ (V : (c : Dev nD) → (b : Ref sig .tc) → Buf (Elt Ideal) ((c : Thread nD τ).loc b)) (c : Dev nD), (GenP.dat0 (F := Ideal) V c).arrAt 5 cfg0.N = Cert.Gcn.stage0 (V c main_arg0) (V c main_arg3) (V c main_arg4) (V c main_arg5) (V c main_call0_v16)) :
    W3 m ρ c (Proc.devRef .tc main_call0_v31) = (Cert.ReferenceIdeal.Agg.aggK (m ((c : Thread nD τ).loc main_arg1)) (m ((c : Thread nD τ).loc main_arg2))) (Cert.Gcn.stage0 (m ((c : Thread nD τ).loc main_arg0)) (m ((c : Thread nD τ).loc main_arg3)) (m ((c : Thread nD τ).loc main_arg4)) (m ((c : Thread nD τ).loc main_arg5)) (Cert.ReferenceIdeal.Agg.dcol (m ((c : Thread nD τ).loc main_arg1)) (m ((c : Thread nD τ).loc main_arg2)))) :=
  (W3_v31 m ρ c).trans ((congr4 kagg (W2_v17 m ρ c h0) (W2_row m ρ c) (W2_col m ρ c) (W2_ew m ρ c)).trans
    (kagg_eq _ _ _))

/-- The middle stage's output buffer. -/
theorem W4_v32 (h0 : ∀ (V : (c : Dev nD) → (b : Ref sig .tc) → Buf (Elt Ideal) ((c : Thread nD τ).loc b)) (c : Dev nD), (GenP.dat0 (F := Ideal) V c).arrAt 5 cfg0.N = Cert.Gcn.stage0 (V c main_arg0) (V c main_arg3) (V c main_arg4) (V c main_arg5) (V c main_call0_v16))
    (h1 : ∀ (V : (c : Dev nD) → (b : Ref sig .tc) → Buf (Elt Ideal) ((c : Thread nD τ).loc b)) (c : Dev nD), (GenP.dat1 (F := Ideal) V c).arrAt 4 cfg1.N = Cert.Gcn.stage1 (V c main_call0_v31) (V c main_call0_v16) (V c main_arg6) (V c main_arg7)) :
    W4 m ρ c (Proc.devRef .tc main_call0_v32) = (Cert.Gcn.stage1 ((Cert.ReferenceIdeal.Agg.aggK (m ((c : Thread nD τ).loc main_arg1)) (m ((c : Thread nD τ).loc main_arg2))) (Cert.Gcn.stage0 (m ((c : Thread nD τ).loc main_arg0)) (m ((c : Thread nD τ).loc main_arg3)) (m ((c : Thread nD τ).loc main_arg4)) (m ((c : Thread nD τ).loc main_arg5)) (Cert.ReferenceIdeal.Agg.dcol (m ((c : Thread nD τ).loc main_arg1)) (m ((c : Thread nD τ).loc main_arg2))))) (Cert.ReferenceIdeal.Agg.dcol (m ((c : Thread nD τ).loc main_arg1)) (m ((c : Thread nD τ).loc main_arg2))) (m ((c : Thread nD τ).loc main_arg6)) (m ((c : Thread nD τ).loc main_arg7))) :=
  ((W4_arr m ρ c 4).trans (h1 (V3 m ρ) c)).trans
    (congr4 Cert.Gcn.stage1 (W3_sum m ρ c h0) (W3_dcol m ρ c)
      ((W3_arg6 m ρ c).trans ((W2_arg6 m ρ c).trans (W1_arg6 m ρ c)))
      ((W3_arg7 m ρ c).trans ((W2_arg7 m ρ c).trans (W1_arg7 m ρ c))))

/-- The second arrived sums. -/
theorem W5_sum (h0 : ∀ (V : (c : Dev nD) → (b : Ref sig .tc) → Buf (Elt Ideal) ((c : Thread nD τ).loc b)) (c : Dev nD), (GenP.dat0 (F := Ideal) V c).arrAt 5 cfg0.N = Cert.Gcn.stage0 (V c main_arg0) (V c main_arg3) (V c main_arg4) (V c main_arg5) (V c main_call0_v16))
    (h1 : ∀ (V : (c : Dev nD) → (b : Ref sig .tc) → Buf (Elt Ideal) ((c : Thread nD τ).loc b)) (c : Dev nD), (GenP.dat1 (F := Ideal) V c).arrAt 4 cfg1.N = Cert.Gcn.stage1 (V c main_call0_v31) (V c main_call0_v16) (V c main_arg6) (V c main_arg7)) :
    W5 m ρ c (Proc.devRef .tc main_call0_v46) = (Cert.ReferenceIdeal.Agg.aggK (m ((c : Thread nD τ).loc main_arg1)) (m ((c : Thread nD τ).loc main_arg2))) (Cert.Gcn.stage1 ((Cert.ReferenceIdeal.Agg.aggK (m ((c : Thread nD τ).loc main_arg1)) (m ((c : Thread nD τ).loc main_arg2))) (Cert.Gcn.stage0 (m ((c : Thread nD τ).loc main_arg0)) (m ((c : Thread nD τ).loc main_arg3)) (m ((c : Thread nD τ).loc main_arg4)) (m ((c : Thread nD τ).loc main_arg5)) (Cert.ReferenceIdeal.Agg.dcol (m ((c : Thread nD τ).loc main_arg1)) (m ((c : Thread nD τ).loc main_arg2))))) (Cert.ReferenceIdeal.Agg.dcol (m ((c : Thread nD τ).loc main_arg1)) (m ((c : Thread nD τ).loc main_arg2))) (m ((c : Thread nD τ).loc main_arg6)) (m ((c : Thread nD τ).loc main_arg7))) :=
  (W5_v46 m ρ c).trans ((congr4 kagg (W4_v32 m ρ c h0 h1) (W4_row m ρ c) (W4_col m ρ c) (W4_ew m ρ c)).trans
    (kagg_eq _ _ _))

/-- THE RESULT BUFFER after the run is the network's function of the launch arguments, its two aggregations the
    edge list's own. -/
theorem result_eq
    (h0 : ∀ (V : (c : Dev nD) → (b : Ref sig .tc) → Buf (Elt Ideal) ((c : Thread nD τ).loc b)) (c : Dev nD), (GenP.dat0 (F := Ideal) V c).arrAt 5 cfg0.N = Cert.Gcn.stage0 (V c main_arg0) (V c main_arg3) (V c main_arg4) (V c main_arg5) (V c main_call0_v16))
    (h1 : ∀ (V : (c : Dev nD) → (b : Ref sig .tc) → Buf (Elt Ideal) ((c : Thread nD τ).loc b)) (c : Dev nD), (GenP.dat1 (F := Ideal) V c).arrAt 4 cfg1.N = Cert.Gcn.stage1 (V c main_call0_v31) (V c main_call0_v16) (V c main_arg6) (V c main_arg7))
    (h2 : ∀ (V : (c : Dev nD) → (b : Ref sig .tc) → Buf (Elt Ideal) ((c : Thread nD τ).loc b)) (c : Dev nD), (GenP.dat2 (F := Ideal) V c).arrAt 5 cfg2.N = Cert.Gcn.stage2 (V c main_call0_v46) (V c main_call0_v16) (V c main_arg8) (V c main_arg9) (V c main_arg10)) :
    W6 m ρ c (Proc.devRef .tc main_v0)
      = Cert.Gcn.kernelOut (Cert.ReferenceIdeal.Agg.aggK (m ((c : Thread nD τ).loc main_arg1)) (m ((c : Thread nD τ).loc main_arg2)))
          (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
          (Cert.ReferenceIdeal.Agg.dcol (m ((c : Thread nD τ).loc main_arg1)) (m ((c : Thread nD τ).loc main_arg2))) := by
  unfold Cert.Gcn.kernelOut
  exact ((W6_arr m ρ c 5).trans (h2 (V5 m ρ) c)).trans
    (congr5 Cert.Gcn.stage2 (W5_sum m ρ c h0 h1) (W5_dcol m ρ c)
      ((W5_arg8 m ρ c).trans ((W4_arg8 m ρ c).trans ((W3_arg8 m ρ c).trans ((W2_arg8 m ρ c).trans (W1_arg8 m ρ c)))))
      ((W5_arg9 m ρ c).trans ((W4_arg9 m ρ c).trans ((W3_arg9 m ρ c).trans ((W2_arg9 m ρ c).trans (W1_arg9 m ρ c)))))
      ((W5_arg10 m ρ c).trans ((W4_arg10 m ρ c).trans ((W3_arg10 m ρ c).trans ((W2_arg10 m ρ c).trans (W1_arg10 m ρ c))))))

end Cert.KernelIdeal.KChain

end
-- ==== Proof.LibKeepdims.lean ====
/-
  Column vectors read at an index: the three layout steps a row reduction with `keepdims` goes through.

  A row reduction of an `[a, b]` array gives a vector `[a]`; `keepdims` views it as a column `[a, 1]`
  (row-major position `i * 1 + 0 = i`), and using it against the `[a, b]` array again broadcasts that
  column along the rows, every entry of row `p` reading the column's entry `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibKeepdims
-- ==== Proof.Region0.lean ====
/-
  The first stage of the network, block by block.

  The stage's output array has 100000 rows of 16 entries. Row `n` is computed from the node's 128 features `X[n, ·]`,
  the first dense layer's weights `Wf` and bias `bf`, the first convolution's weight matrix `W` and the node's own
  factor `D[n]`: with the hidden row `h[n, k] = max (∑ₗ X[n, l] · Wf[k, l] + bf[k]) 0`,
  `out[n, q] = (∑ₖ h[n, k] · W[q, k]) · D[n]`.
  The grid has ten points; point `t` holds rows `10000 t … 10000 t + 9999` of `X`, of `D` and of the output (a block is
  10000 consecutive rows, all columns), and the whole of `Wf`, `bf` and `W`. An entry `(p, q)` of the output block at
  point `t` depends only on row `p` of the blocks of `X` and `D`, that is on row `10000 t + p` of the arrays, so what
  the point writes back is block `t` of the one function above of the whole arrays; the ten blocks tile the rows
  (row `r` lies in block `r / 10000`), so the output array ends holding that function everywhere.
-/
import proofs.«146560_j1984274891423_2_alg».proof.Proof.FrameKernelIdeal
import proofs.«146560_j1984274891423_2_alg».proof.Proof.Spec
import proofs.«146560_j1984274891423_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegVal

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

/-- The 16-term contraction of a row of the left operand with a column of the right one: the left operand's
    index at output `(p, q)` and contraction position `k` is `(p, k)`. -/
private theorem dot16_lhs (p : Fin 10000) (q k : Fin 16) :
    dot_S10000x16_S16x16_S10000x16_1_0_0_1_n_n.lhsIdx (ix2 p q)
      ((ValueIdx.contrEquiv1 dot_S10000x16_S16x16_S10000x16_1_0_0_1_n_n 16 rfl rfl).symm k) = ix2 p k := by
  have hk := ValueIdx.contrEquiv1_symm_val dot_S10000x16_S16x16_S10000x16_1_0_0_1_n_n 16 rfl rfl k
  refine funext fun a => Fin.ext ?_
  match a with
  | ⟨0, _⟩ =>
    show (dot_S10000x16_S16x16_S10000x16_1_0_0_1_n_n.lhsIdx (ix2 p q) _ 0).val = p.val
    unfold DotDims.lhsIdx
    rw [dif_neg (show ¬(0 : Fin S10000x16.rank) ∈ dot_S10000x16_S16x16_S10000x16_1_0_0_1_n_n.lhsBatch by decide),
      dif_pos (show (0 : Fin S10000x16.rank) ∈ dot_S10000x16_S16x16_S10000x16_1_0_0_1_n_n.lhsNonContracting by decide)]
    rfl
  | ⟨1, _⟩ =>
    exact (dot_S10000x16_S16x16_S10000x16_1_0_0_1_n_n.lhsIdx_val_of_single rfl (ix2 p q) _).trans hk

/-- The right operand's index there is `(k, q)`. -/
private theorem dot16_rhs (p : Fin 10000) (q k : Fin 16) :
    dot_S10000x16_S16x16_S10000x16_1_0_0_1_n_n.rhsIdx (ix2 p q)
      ((ValueIdx.contrEquiv1 dot_S10000x16_S16x16_S10000x16_1_0_0_1_n_n 16 rfl rfl).symm k) = ix2 k q := by
  have hk := ValueIdx.contrEquiv1_symm_val dot_S10000x16_S16x16_S10000x16_1_0_0_1_n_n 16 rfl rfl k
  refine funext fun a => Fin.ext ?_
  match a with
  | ⟨0, _⟩ =>
    exact (dot_S10000x16_S16x16_S10000x16_1_0_0_1_n_n.rhsIdx_val_of_single rfl (ix2 p q) _).trans hk
  | ⟨1, _⟩ =>
    show (dot_S10000x16_S16x16_S10000x16_1_0_0_1_n_n.rhsIdx (ix2 p q) _ 1).val = q.val
    unfold DotDims.rhsIdx
    rw [dif_neg (show ¬(1 : Fin S16x16.rank) ∈ dot_S10000x16_S16x16_S10000x16_1_0_0_1_n_n.rhsBatch by decide),
      dif_pos (show (1 : Fin S16x16.rank) ∈ dot_S10000x16_S16x16_S10000x16_1_0_0_1_n_n.rhsNonContracting by decide)]
    rfl

/-- A product of a `[10000, 16]` block with a `[16, 16]` matrix into the zero accumulator, read at `(p, q)`:
    the sum over the 16 contraction positions. -/
private theorem matmul16_apply (L : FVec Ideal S10000x16 .bf16) (R : FVec Ideal S16x16 .bf16) (p : Fin 10000) (q : Fin 16) :
    matmul dot_S10000x16_S16x16_S10000x16_1_0_0_1_n_n none L R (constant S10000x16 .f32 0x00000000#32) (ix2 p q)
      = ∑ k : Fin 16, L (ix2 p k) * R (ix2 k q) := by
  refine (Ideal.matmul_constant_zero_apply dot_S10000x16_S16x16_S10000x16_1_0_0_1_n_n none L R (ix2 p q)).trans ?_
  rw [← Equiv.sum_comp (ValueIdx.contrEquiv1 dot_S10000x16_S16x16_S10000x16_1_0_0_1_n_n 16 rfl rfl).symm]
  refine Finset.sum_congr rfl fun k _ => ?_
  rw [dot16_lhs, dot16_rhs]

/-- The 128-term contraction of a feature row with a weight column: the left operand's index at output `(p, k)`
    and contraction position `l` is `(p, l)`. -/
private theorem dot128_lhs (p : Fin 10000) (k : Fin 16) (l : Fin 128) :
    dot_S10000x128_S128x16_S10000x16_1_0_0_1_n_n.lhsIdx (ix2 p k)
      ((ValueIdx.contrEquiv1 dot_S10000x128_S128x16_S10000x16_1_0_0_1_n_n 128 rfl rfl).symm l) = ix2 p l := by
  have hl := ValueIdx.contrEquiv1_symm_val dot_S10000x128_S128x16_S10000x16_1_0_0_1_n_n 128 rfl rfl l
  refine funext fun a => Fin.ext ?_
  match a with
  | ⟨0, _⟩ =>
    show (dot_S10000x128_S128x16_S10000x16_1_0_0_1_n_n.lhsIdx (ix2 p k) _ 0).val = p.val
    unfold DotDims.lhsIdx
    rw [dif_neg (show ¬(0 : Fin S10000x128.rank) ∈ dot_S10000x128_S128x16_S10000x16_1_0_0_1_n_n.lhsBatch by decide),
      dif_pos (show (0 : Fin S10000x128.rank) ∈ dot_S10000x128_S128x16_S10000x16_1_0_0_1_n_n.lhsNonContracting by decide)]
    rfl
  | ⟨1, _⟩ =>
    exact (dot_S10000x128_S128x16_S10000x16_1_0_0_1_n_n.lhsIdx_val_of_single rfl (ix2 p k) _).trans hl

/-- The right operand's index there is `(l, k)`. -/
private theorem dot128_rhs (p : Fin 10000) (k : Fin 16) (l : Fin 128) :
    dot_S10000x128_S128x16_S10000x16_1_0_0_1_n_n.rhsIdx (ix2 p k)
      ((ValueIdx.contrEquiv1 dot_S10000x128_S128x16_S10000x16_1_0_0_1_n_n 128 rfl rfl).symm l) = ix2 l k := by
  have hl := ValueIdx.contrEquiv1_symm_val dot_S10000x128_S128x16_S10000x16_1_0_0_1_n_n 128 rfl rfl l
  refine funext fun a => Fin.ext ?_
  match a with
  | ⟨0, _⟩ =>
    exact (dot_S10000x128_S128x16_S10000x16_1_0_0_1_n_n.rhsIdx_val_of_single rfl (ix2 p k) _).trans hl
  | ⟨1, _⟩ =>
    show (dot_S10000x128_S128x16_S10000x16_1_0_0_1_n_n.rhsIdx (ix2 p k) _ 1).val = k.val
    unfold DotDims.rhsIdx
    rw [dif_neg (show ¬(1 : Fin S128x16.rank) ∈ dot_S10000x128_S128x16_S10000x16_1_0_0_1_n_n.rhsBatch by decide),
      dif_pos (show (1 : Fin S128x16.rank) ∈ dot_S10000x128_S128x16_S10000x16_1_0_0_1_n_n.rhsNonContracting by decide)]
    rfl

/-- A product of a `[10000, 128]` block with a `[128, 16]` matrix into the zero accumulator, read at `(p, k)`:
    the sum over the 128 contraction positions. -/
private theorem matmul128_apply (L : FVec Ideal S10000x128 .bf16) (R : FVec Ideal S128x16 .bf16) (p : Fin 10000) (k : Fin 16) :
    matmul dot_S10000x128_S128x16_S10000x16_1_0_0_1_n_n none L R (constant S10000x16 .f32 0x00000000#32) (ix2 p k)
      = ∑ l : Fin 128, L (ix2 p l) * R (ix2 l k) := by
  refine (Ideal.matmul_constant_zero_apply dot_S10000x128_S128x16_S10000x16_1_0_0_1_n_n none L R (ix2 p k)).trans ?_
  rw [← Equiv.sum_comp (ValueIdx.contrEquiv1 dot_S10000x128_S128x16_S10000x16_1_0_0_1_n_n 128 rfl rfl).symm]
  refine Finset.sum_congr rfl fun l _ => ?_
  rw [dot128_lhs, dot128_rhs]

/-- The body's arithmetic at row `p`, column `q` of the block. -/
theorem k0_pay_apply (v0 : Vec Ideal S10000x128 .f32) (v2 : Vec Ideal S16x128 .f32) (v6 : Vec Ideal S16 .f32)
    (v13 : Vec Ideal S16x16 .f32) (v17 : Vec Ideal S10000x1 .f32) (p : Fin 10000) (q : Fin 16) :
    k0_pay1 (F := Ideal) v0 v2 v6 v13 v17 (ix2 p q)
      = (∑ k : Fin 16, max ((∑ l : Fin 128, v0 (ix2 p l) * v2 (ix2 k l)) + v6 (ix1 k)) 0 * v13 (ix2 q k))
          * v17 (ix2 p (0 : Fin 1)) := by
  unfold k0_pay1
  dsimp only
  rw [shapeCast_self v17]
  refine (congrArg₂ (· * ·) (matmul16_apply _ _ p q)
    (Cert.LibKeepdims.broadcastTo_a1_ab_apply v17 broadcasts_S10000x1_S10000x16 p q)).trans ?_
  refine congrArg (· * v17 (ix2 p (0 : Fin 1))) (Finset.sum_congr rfl fun k _ => ?_)
  rw [transpose_ix2_apply]
  show max (matmul (F := Ideal) dot_S10000x128_S128x16_S10000x16_1_0_0_1_n_n none (truncf .bf16 v0 bitsLt_bf16_f32)
        (transpose S128x16 [1, 0] (truncf .bf16 v2 bitsLt_bf16_f32) transposes_S16x128_p1_0_S128x16)
        (constant S10000x16 .f32 0x00000000#32) (ix2 p k)
      + broadcastTo S10000x16 (shapeCast S1x16 v6 shapeCasts_S16_S1x16) broadcasts_S1x16_S10000x16 (ix2 p k))
      (FloatOps.ofBits (F := Ideal) .f32 0x00000000#32) * v13 (ix2 q k) = _
  rw [matmul128_apply, broadcastTo_1b_ab_apply, shapeCast_a_1a_apply, Ideal.ofBits_def, Ideal.ofBits_zero_f32]
  refine congrArg (fun s => max (s + v6 (ix1 k)) 0 * v13 (ix2 q k)) (Finset.sum_congr rfl fun l _ => ?_)
  rw [transpose_ix2_apply]
  rfl

private theorem hz2 : (![0, 0] : Fin 2 → Nat) = fun _ => 0 := funext fun a => by fin_cases a <;> rfl
private theorem hz1 : (![0] : Fin 1 → Nat) = fun _ => 0 := funext fun a => by fin_cases a <;> rfl

/-- The windows' block positions at grid point `t`, decided once over the ten points: the row-blocked windows
    sit at block row `t`, the whole-array windows at the origin. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Entry `(p, l)` of the feature block at point `t` is entry `(10000 t + p, l)` of the feature array. -/
theorem read0_0 (A : S100000x128.Idx → EReal) (t : Fin cfg0.N) (p : Fin 10000) (l : Fin 128) (i : S100000x128.Idx)
    (h0 : (i 0).val = t.val * 10000 + p.val) (h1 : (i 1).val = l.val) :
    (((cfg0.win 0).blk t).view.read (Elt Ideal) A : S10000x128.Idx → EReal) (ix2 p l) = A i := by
  obtain ⟨e0, e1, -⟩ := idx_facts0 t
  rw [View.read_apply]
  refine congrArg A (funext fun a => Fin.ext ?_)
  match a with
  | ⟨0, _⟩ => show win0_0.index t (0 : Fin 2) * 10000 + 1 * p.val = (i 0).val; rw [e0, h0]; omega
  | ⟨1, _⟩ => show win0_0.index t (1 : Fin 2) * 128 + 1 * l.val = (i 1).val; rw [e1, h1]; omega

/-- The first layer's weight window is the whole matrix at every point. -/
theorem read0_1 (A : S16x128.Idx → EReal) (t : Fin cfg0.N) (k : Fin 16) (l : Fin 128) :
    (((cfg0.win 1).blk t).view.read (Elt Ideal) A : S16x128.Idx → EReal) (ix2 k l) = A (ix2 k l) := by
  obtain ⟨-, -, e0, e1, -⟩ := idx_facts0 t
  rw [View.read_apply]
  refine congrArg A (funext fun a => Fin.ext ?_)
  match a with
  | ⟨0, _⟩ => show win0_1.index t (0 : Fin 2) * 16 + 1 * k.val = k.val; rw [e0]; omega
  | ⟨1, _⟩ => show win0_1.index t (1 : Fin 2) * 128 + 1 * l.val = l.val; rw [e1]; omega

/-- The bias window is the whole vector at every point. -/
theorem read0_2 (A : S16.Idx → EReal) (t : Fin cfg0.N) (k : Fin 16) :
    (((cfg0.win 2).blk t).view.read (Elt Ideal) A : S16.Idx → EReal) (ix1 k) = A (ix1 k) := by
  obtain ⟨-, -, -, -, e0, -⟩ := idx_facts0 t
  rw [View.read_apply]
  refine congrArg A (funext fun a => Fin.ext ?_)
  match a with
  | ⟨0, _⟩ => show win0_2.index t (0 : Fin 1) * 16 + 1 * k.val = k.val; rw [e0]; omega

/-- The convolution's weight window is the whole matrix at every point. -/
theorem read0_3 (A : S16x16.Idx → EReal) (t : Fin cfg0.N) (q k : Fin 16) :
    (((cfg0.win 3).blk t).view.read (Elt Ideal) A : S16x16.Idx → EReal) (ix2 q k) = A (ix2 q k) := by
  obtain ⟨-, -, -, -, -, e0, e1, -⟩ := idx_facts0 t
  rw [View.read_apply]
  refine congrArg A (funext fun a => Fin.ext ?_)
  match a with
  | ⟨0, _⟩ => show win0_3.index t (0 : Fin 2) * 16 + 1 * q.val = q.val; rw [e0]; omega
  | ⟨1, _⟩ => show win0_3.index t (1 : Fin 2) * 16 + 1 * k.val = k.val; rw [e1]; omega

/-- Entry `(p, 0)` of the node-factor block at point `t` is entry `(10000 t + p, 0)` of the column. -/
theorem read0_4 (A : S100000x1.Idx → EReal) (t : Fin cfg0.N) (p : Fin 10000) (u : Fin 1) (i : S100000x1.Idx)
    (h0 : (i 0).val = t.val * 10000 + p.val) :
    (((cfg0.win 4).blk t).view.read (Elt Ideal) A : S10000x1.Idx → EReal) (ix2 p u) = A i := by
  obtain ⟨-, -, -, -, -, -, -, e0, e1, -⟩ := idx_facts0 t
  rw [View.read_apply]
  refine congrArg A (funext fun a => Fin.ext ?_)
  match a with
  | ⟨0, _⟩ => show win0_4.index t (0 : Fin 2) * 10000 + 1 * p.val = (i 0).val; rw [e0, h0]; omega
  | ⟨1, _⟩ =>
    show win0_4.index t (1 : Fin 2) * 1 + 1 * u.val = (i 1).val
    have := (i 1).isLt; have : (i 1).val < 1 := this; have := u.isLt; rw [e1]; omega

/-- Where entry `(p, q)` of the output block at point `t` sits in the output array: row `10000 t + p`, column `q`. -/
theorem emb0_5 (t : Fin cfg0.N) (p : Fin 10000) (q : Fin 16) :
    ((((cfg0.win 5).blk t).view.emb (ix2 p q) : S100000x16.Idx) 0).val = t.val * 10000 + p.val
    ∧ ((((cfg0.win 5).blk t).view.emb (ix2 p q) : S100000x16.Idx) 1).val = q.val := by
  obtain ⟨-, -, -, -, -, -, -, -, -, e0, e1⟩ := idx_facts0 t
  constructor
  · show win0_5.index t (0 : Fin 2) * 10000 + 1 * p.val = _; rw [e0]; omega
  · show win0_5.index t (1 : Fin 2) * 16 + 1 * q.val = _; rw [e1]; omega

/-- The body's payload of the five windows' blocks at point `t`, entry `(p, q)`, is the stage's value at the
    array index `I` in row `10000 t + p`, column `q`: every block entry the payload reads is the array entry
    of that row (or of the whole weight and bias arrays). -/
theorem block0_at (A0 : S100000x128.Idx → EReal) (A1 : S16x128.Idx → EReal) (A2 : S16.Idx → EReal)
    (A3 : S16x16.Idx → EReal) (A4 : S100000x1.Idx → EReal) (t : Fin cfg0.N) (p : Fin 10000) (q : Fin 16)
    (I : S100000x16.Idx) (hI0 : (I 0).val = t.val * 10000 + p.val) (hI1 : (I 1).val = q.val) :
    k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (ix2 p q)
      = Cert.Gcn.stage0 A0 A1 A2 A3 A4 I := by
  rw [k0_pay_apply]
  unfold Cert.Gcn.stage0 Cert.Gcn.scaleRows Cert.Gcn.lin16 Cert.Gcn.hid0
  have hq : q = I 1 := Fin.ext hI1.symm
  rw [read0_4 A4 t p 0 (ix2 (I 0) (0 : Fin 1)) hI0]
  refine congrArg (· * A4 (ix2 (I 0) (0 : Fin 1))) (Finset.sum_congr rfl fun k _ => ?_)
  rw [read0_2 A2 t k, read0_3 A3 t q k, hq]
  refine congrArg (fun s => max (s + A2 (ix1 k)) 0 * A3 (ix2 (I 1) k)) (Finset.sum_congr rfl fun l _ => ?_)
  rw [read0_0 A0 t p l (ix2 (I 0) l) hI0 rfl, read0_1 A1 t k l]

/-- What the body leaves in the output block at point `t` is block `t` of the stage's array. -/
theorem block0 (A0 : S100000x128.Idx → EReal) (A1 : S16x128.Idx → EReal) (A2 : S16.Idx → EReal)
    (A3 : S16x16.Idx → EReal) (A4 : S100000x1.Idx → EReal) (t : Fin cfg0.N) :
    k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4)
      = ((cfg0.win 5).blk t).view.read (Elt Ideal) (Cert.Gcn.stage0 A0 A1 A2 A3 A4) := by
  funext y
  rw [View.read_apply, eq_ix2 y]
  exact block0_at A0 A1 A2 A3 A4 t (y 0) (y 1) _ (emb0_5 t (y 0) (y 1)).1 (emb0_5 t (y 0) (y 1)).2

/-- WHAT POINT `t` WRITES BACK is block `t` of the stage's array of the region's input arrays. -/
theorem flushed0_eq (V : (c : Dev nD) → (b : Ref sig .tc) → Buf (Elt Ideal) ((c : Thread nD τ).loc b)) (c : Dev nD)
    (t : Fin cfg0.N) :
    (dat0 (F := Ideal) V c).flushed 5 t = ((cfg0.win 5).blk t).view.read (Elt Ideal)
      (Cert.Gcn.stage0 (V c main_arg0) (V c main_arg3) (V c main_arg4) (V c main_arg5) (V c main_call0_v16)) := by
  show (cfg0.win 5).cut (grid0.coords t) ((dat0 V c).after 5 t) = _
  rw [after0_5]
  unfold out0_5
  rw [View.canon_unit_zero hz2]
  simp only [View.ld_unit_zero (S := S10000x128) hz2, View.ld_unit_zero (S := S16x128) hz2,
    View.ld_unit_zero (S := S16) hz1, View.ld_unit_zero (S := S16x16) hz2, View.ld_unit_zero (S := S10000x1) hz2]
  unfold iblk0
  exact block0 (V c main_arg0) (V c main_arg3) (V c main_arg4) (V c main_arg5) (V c main_call0_v16) t

/-- An index of the output array is in point `t`'s block iff each coordinate is in the block's range on its axis. -/
theorem mem_blk0 (t : Fin cfg0.N) (i : S100000x16.Idx) :
    i ∈ ((cfg0.win 5).blk t).view.set ↔ ∀ a : Fin 2, win0_5.index t a * S10000x16.size a ≤ (i a).val ∧ (i a).val < win0_5.index t a * S10000x16.size a + S10000x16.size a := by
  show i ∈ ((View.whole main_call0_v17).slice (win0_5.rect t)).set ↔ _
  rw [View.set_slice_whole, Rect.mem_set_unit]
  exact Iff.rfl

/-- Row `r` of the output array is written by the point `r / 10000`. -/
theorem cover0 (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  have hN : cfg0.N = 10 := N_0
  refine ⟨⟨(i 0).val / 10000, by rw [hN]; omega⟩, flush0_5 _, ?_⟩
  rw [mem_blk0]
  obtain ⟨-, -, -, -, -, -, -, -, -, e0, e1⟩ := idx_facts0 ⟨(i 0).val / 10000, by rw [hN]; omega⟩
  intro a
  match a with
  | ⟨0, _⟩ =>
    show win0_5.index _ (0 : Fin 2) * 10000 ≤ (i 0).val ∧ (i 0).val < win0_5.index _ (0 : Fin 2) * 10000 + 10000
    rw [e0]; show (i 0).val / 10000 * 10000 ≤ (i 0).val ∧ (i 0).val < (i 0).val / 10000 * 10000 + 10000; omega
  | ⟨1, _⟩ =>
    show win0_5.index _ (1 : Fin 2) * 16 ≤ (i 1).val ∧ (i 1).val < win0_5.index _ (1 : Fin 2) * 16 + 16
    rw [e1]; omega

/-- THE OUTPUT ARRAY of the first stage after its ten points: the stage's function of the features, the first
    layer's weights and bias, the first convolution's weights and the node factors as the region finds them. -/
theorem region0_value (V : (c : Dev nD) → (b : Ref sig .tc) → Buf (Elt Ideal) ((c : Thread nD τ).loc b)) (c : Dev nD) :
    (GenP.dat0 (F := Ideal) V c).arrAt 5 cfg0.N
      = Cert.Gcn.stage0 (V c main_arg0) (V c main_arg3) (V c main_arg4) (V c main_arg5) (V c main_call0_v16) :=
  (dat0 (F := Ideal) V c).arrAt_eq_of_cover 5 _ (fun t _ => flushed0_eq V c t) cover0

end Cert.KernelIdeal.RegVal

end
-- ==== Proof.Region1.lean ====
/-
  The middle stage of the network, block by block.

  The stage's output array has 100000 rows of 16 entries. Row `n` is computed from row `n` of the arrived sums `A`,
  the node's own factor `D[n]`, the bias `b` and the next layer's weight matrix `W`:
  `out[n, q] = (∑ₖ max (A[n, k] · D[n] + b[k]) 0 · W[q, k]) · D[n]`.
  The grid has ten points; point `t` holds rows `10000 t … 10000 t + 9999` of `A`, of `D` and of the output (a block is
  10000 consecutive rows, all columns), and the whole of `b` and `W`. An entry `(p, q)` of the output block at point
  `t` depends only on row `p` of the blocks of `A` and `D`, that is on row `10000 t + p` of the arrays, so what the
  point writes back is block `t` of the one function above of the whole arrays; the ten blocks tile the rows
  (row `r` lies in block `r / 10000`), so the output array ends holding that function everywhere.
-/
import proofs.«146560_j1984274891423_2_alg».proof.Proof.FrameKernelIdeal
import proofs.«146560_j1984274891423_2_alg».proof.Proof.Spec
import proofs.«146560_j1984274891423_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegVal

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

/-- The 16-term contraction of a row of the left operand with a column of the right one: the left operand's
    index at output `(p, q)` and contraction position `k` is `(p, k)`. -/
private theorem dot16_lhs (p : Fin 10000) (q k : Fin 16) :
    dot_S10000x16_S16x16_S10000x16_1_0_0_1_n_n.lhsIdx (ix2 p q)
      ((ValueIdx.contrEquiv1 dot_S10000x16_S16x16_S10000x16_1_0_0_1_n_n 16 rfl rfl).symm k) = ix2 p k := by
  have hk := ValueIdx.contrEquiv1_symm_val dot_S10000x16_S16x16_S10000x16_1_0_0_1_n_n 16 rfl rfl k
  refine funext fun a => Fin.ext ?_
  match a with
  | ⟨0, _⟩ =>
    show (dot_S10000x16_S16x16_S10000x16_1_0_0_1_n_n.lhsIdx (ix2 p q) _ 0).val = p.val
    unfold DotDims.lhsIdx
    rw [dif_neg (show ¬(0 : Fin S10000x16.rank) ∈ dot_S10000x16_S16x16_S10000x16_1_0_0_1_n_n.lhsBatch by decide),
      dif_pos (show (0 : Fin S10000x16.rank) ∈ dot_S10000x16_S16x16_S10000x16_1_0_0_1_n_n.lhsNonContracting by decide)]
    rfl
  | ⟨1, _⟩ =>
    exact (dot_S10000x16_S16x16_S10000x16_1_0_0_1_n_n.lhsIdx_val_of_single rfl (ix2 p q) _).trans hk

/-- The right operand's index there is `(k, q)`. -/
private theorem dot16_rhs (p : Fin 10000) (q k : Fin 16) :
    dot_S10000x16_S16x16_S10000x16_1_0_0_1_n_n.rhsIdx (ix2 p q)
      ((ValueIdx.contrEquiv1 dot_S10000x16_S16x16_S10000x16_1_0_0_1_n_n 16 rfl rfl).symm k) = ix2 k q := by
  have hk := ValueIdx.contrEquiv1_symm_val dot_S10000x16_S16x16_S10000x16_1_0_0_1_n_n 16 rfl rfl k
  refine funext fun a => Fin.ext ?_
  match a with
  | ⟨0, _⟩ =>
    exact (dot_S10000x16_S16x16_S10000x16_1_0_0_1_n_n.rhsIdx_val_of_single rfl (ix2 p q) _).trans hk
  | ⟨1, _⟩ =>
    show (dot_S10000x16_S16x16_S10000x16_1_0_0_1_n_n.rhsIdx (ix2 p q) _ 1).val = q.val
    unfold DotDims.rhsIdx
    rw [dif_neg (show ¬(1 : Fin S16x16.rank) ∈ dot_S10000x16_S16x16_S10000x16_1_0_0_1_n_n.rhsBatch by decide),
      dif_pos (show (1 : Fin S16x16.rank) ∈ dot_S10000x16_S16x16_S10000x16_1_0_0_1_n_n.rhsNonContracting by decide)]
    rfl

/-- A product of a `[10000, 16]` block with a `[16, 16]` matrix into the zero accumulator, read at `(p, q)`:
    the sum over the 16 contraction positions. -/
private theorem matmul16_apply (L : FVec Ideal S10000x16 .bf16) (R : FVec Ideal S16x16 .bf16) (p : Fin 10000) (q : Fin 16) :
    matmul dot_S10000x16_S16x16_S10000x16_1_0_0_1_n_n none L R (constant S10000x16 .f32 0x00000000#32) (ix2 p q)
      = ∑ k : Fin 16, L (ix2 p k) * R (ix2 k q) := by
  refine (Ideal.matmul_constant_zero_apply dot_S10000x16_S16x16_S10000x16_1_0_0_1_n_n none L R (ix2 p q)).trans ?_
  rw [← Equiv.sum_comp (ValueIdx.contrEquiv1 dot_S10000x16_S16x16_S10000x16_1_0_0_1_n_n 16 rfl rfl).symm]
  refine Finset.sum_congr rfl fun k _ => ?_
  rw [dot16_lhs, dot16_rhs]

/-- The body's arithmetic at row `p`, column `q` of the block. -/
theorem k1_pay_apply (v0 : Vec Ideal S10000x16 .f32) (v2 : Vec Ideal S10000x1 .f32) (v6 : Vec Ideal S16 .f32)
    (v13 : Vec Ideal S16x16 .f32) (v17 : Vec Ideal S10000x1 .f32) (p : Fin 10000) (q : Fin 16) :
    k1_pay1 (F := Ideal) v0 v2 v6 v13 v17 (ix2 p q)
      = (∑ k : Fin 16, max (v0 (ix2 p k) * v2 (ix2 p (0 : Fin 1)) + v6 (ix1 k)) 0 * v13 (ix2 q k)) * v17 (ix2 p (0 : Fin 1)) := by
  unfold k1_pay1
  dsimp only
  rw [shapeCast_self v0, shapeCast_self v2, shapeCast_self v17]
  refine (congrArg₂ (· * ·) (matmul16_apply _ _ p q)
    (Cert.LibKeepdims.broadcastTo_a1_ab_apply v17 broadcasts_S10000x1_S10000x16 p q)).trans ?_
  refine congrArg (· * v17 (ix2 p (0 : Fin 1))) (Finset.sum_congr rfl fun k _ => ?_)
  rw [transpose_ix2_apply]
  show max (v0 (ix2 p k) * broadcastTo S10000x16 v2 broadcasts_S10000x1_S10000x16 (ix2 p k)
      + broadcastTo S10000x16 (shapeCast S1x16 v6 shapeCasts_S16_S1x16) broadcasts_S1x16_S10000x16 (ix2 p k))
      (FloatOps.ofBits (F := Ideal) .f32 0x00000000#32) * v13 (ix2 q k) = _
  rw [Cert.LibKeepdims.broadcastTo_a1_ab_apply, broadcastTo_1b_ab_apply, shapeCast_a_1a_apply, Ideal.ofBits_def,
    Ideal.ofBits_zero_f32]

private theorem hz2 : (![0, 0] : Fin 2 → Nat) = fun _ => 0 := funext fun a => by fin_cases a <;> rfl
private theorem hz1 : (![0] : Fin 1 → Nat) = fun _ => 0 := funext fun a => by fin_cases a <;> rfl

/-- The windows' block positions at grid point `t`, decided once over the ten points: the row-blocked windows
    sit at block row `t`, the whole-array windows at the origin. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry `(p, k)` of the arrived-sum block at point `t` is entry `(10000 t + p, k)` of the array. -/
theorem read1_0 (A : S100000x16.Idx → EReal) (t : Fin cfg1.N) (p : Fin 10000) (k : Fin 16) (i : S100000x16.Idx)
    (h0 : (i 0).val = t.val * 10000 + p.val) (h1 : (i 1).val = k.val) :
    (((cfg1.win 0).blk t).view.read (Elt Ideal) A : S10000x16.Idx → EReal) (ix2 p k) = A i := by
  obtain ⟨e0, e1, -⟩ := idx_facts1 t
  rw [View.read_apply]
  refine congrArg A (funext fun a => Fin.ext ?_)
  match a with
  | ⟨0, _⟩ => show win1_0.index t (0 : Fin 2) * 10000 + 1 * p.val = (i 0).val; rw [e0, h0]; omega
  | ⟨1, _⟩ => show win1_0.index t (1 : Fin 2) * 16 + 1 * k.val = (i 1).val; rw [e1, h1]; omega

/-- Entry `(p, 0)` of the node-factor block at point `t` is entry `(10000 t + p, 0)` of the column. -/
theorem read1_1 (A : S100000x1.Idx → EReal) (t : Fin cfg1.N) (p : Fin 10000) (u : Fin 1) (i : S100000x1.Idx)
    (h0 : (i 0).val = t.val * 10000 + p.val) :
    (((cfg1.win 1).blk t).view.read (Elt Ideal) A : S10000x1.Idx → EReal) (ix2 p u) = A i := by
  obtain ⟨-, -, e0, e1, -⟩ := idx_facts1 t
  rw [View.read_apply]
  refine congrArg A (funext fun a => Fin.ext ?_)
  match a with
  | ⟨0, _⟩ => show win1_1.index t (0 : Fin 2) * 10000 + 1 * p.val = (i 0).val; rw [e0, h0]; omega
  | ⟨1, _⟩ =>
    show win1_1.index t (1 : Fin 2) * 1 + 1 * u.val = (i 1).val
    have := (i 1).isLt; have : (i 1).val < 1 := this; have := u.isLt; rw [e1]; omega

/-- The bias window is the whole vector at every point. -/
theorem read1_2 (A : S16.Idx → EReal) (t : Fin cfg1.N) (k : Fin 16) :
    (((cfg1.win 2).blk t).view.read (Elt Ideal) A : S16.Idx → EReal) (ix1 k) = A (ix1 k) := by
  obtain ⟨-, -, -, -, e0, -⟩ := idx_facts1 t
  rw [View.read_apply]
  refine congrArg A (funext fun a => Fin.ext ?_)
  match a with
  | ⟨0, _⟩ => show win1_2.index t (0 : Fin 1) * 16 + 1 * k.val = k.val; rw [e0]; omega

/-- The weight window is the whole matrix at every point. -/
theorem read1_3 (A : S16x16.Idx → EReal) (t : Fin cfg1.N) (q k : Fin 16) :
    (((cfg1.win 3).blk t).view.read (Elt Ideal) A : S16x16.Idx → EReal) (ix2 q k) = A (ix2 q k) := by
  obtain ⟨-, -, -, -, -, e0, e1, -⟩ := idx_facts1 t
  rw [View.read_apply]
  refine congrArg A (funext fun a => Fin.ext ?_)
  match a with
  | ⟨0, _⟩ => show win1_3.index t (0 : Fin 2) * 16 + 1 * q.val = q.val; rw [e0]; omega
  | ⟨1, _⟩ => show win1_3.index t (1 : Fin 2) * 16 + 1 * k.val = k.val; rw [e1]; omega

/-- Where entry `(p, q)` of the output block at point `t` sits in the output array: row `10000 t + p`, column `q`. -/
theorem emb1_4 (t : Fin cfg1.N) (p : Fin 10000) (q : Fin 16) :
    ((((cfg1.win 4).blk t).view.emb (ix2 p q) : S100000x16.Idx) 0).val = t.val * 10000 + p.val
    ∧ ((((cfg1.win 4).blk t).view.emb (ix2 p q) : S100000x16.Idx) 1).val = q.val := by
  obtain ⟨-, -, -, -, -, -, -, e0, e1⟩ := idx_facts1 t
  constructor
  · show win1_4.index t (0 : Fin 2) * 10000 + 1 * p.val = _; rw [e0]; omega
  · show win1_4.index t (1 : Fin 2) * 16 + 1 * q.val = _; rw [e1]; omega

/-- The body's payload of the four windows' blocks at point `t`, entry `(p, q)`, is the stage's value at the
    array index `I` in row `10000 t + p`, column `q`: every block entry the payload reads is the array entry
    of that row (or of the whole bias and weight arrays). -/
theorem block1_at (A0 : S100000x16.Idx → EReal) (A1 : S100000x1.Idx → EReal) (A2 : S16.Idx → EReal)
    (A3 : S16x16.Idx → EReal) (t : Fin cfg1.N) (p : Fin 10000) (q : Fin 16) (I : S100000x16.Idx)
    (hI0 : (I 0).val = t.val * 10000 + p.val) (hI1 : (I 1).val = q.val) :
    k1_pay1 (F := Ideal) (((cfg1.win 0).blk t).view.read (Elt Ideal) A0) (((cfg1.win 1).blk t).view.read (Elt Ideal) A1)
        (((cfg1.win 2).blk t).view.read (Elt Ideal) A2) (((cfg1.win 3).blk t).view.read (Elt Ideal) A3)
        (((cfg1.win 1).blk t).view.read (Elt Ideal) A1) (ix2 p q)
      = Cert.Gcn.stage1 A0 A1 A2 A3 I := by
  rw [k1_pay_apply]
  unfold Cert.Gcn.stage1 Cert.Gcn.scaleRows Cert.Gcn.lin16 Cert.Gcn.hidAgg
  have hq : q = I 1 := Fin.ext hI1.symm
  rw [read1_1 A1 t p 0 (ix2 (I 0) (0 : Fin 1)) hI0]
  refine congrArg (· * A1 (ix2 (I 0) (0 : Fin 1))) (Finset.sum_congr rfl fun k _ => ?_)
  rw [read1_0 A0 t p k (ix2 (I 0) k) hI0 rfl, read1_2 A2 t k, read1_3 A3 t q k, hq]

/-- What the body leaves in the output block at point `t` is block `t` of the stage's array. -/
theorem block1 (A0 : S100000x16.Idx → EReal) (A1 : S100000x1.Idx → EReal) (A2 : S16.Idx → EReal)
    (A3 : S16x16.Idx → EReal) (t : Fin cfg1.N) :
    k1_pay1 (F := Ideal) (((cfg1.win 0).blk t).view.read (Elt Ideal) A0) (((cfg1.win 1).blk t).view.read (Elt Ideal) A1)
        (((cfg1.win 2).blk t).view.read (Elt Ideal) A2) (((cfg1.win 3).blk t).view.read (Elt Ideal) A3)
        (((cfg1.win 1).blk t).view.read (Elt Ideal) A1)
      = ((cfg1.win 4).blk t).view.read (Elt Ideal) (Cert.Gcn.stage1 A0 A1 A2 A3) := by
  funext y
  rw [View.read_apply, eq_ix2 y]
  exact block1_at A0 A1 A2 A3 t (y 0) (y 1) _ (emb1_4 t (y 0) (y 1)).1 (emb1_4 t (y 0) (y 1)).2

/-- WHAT POINT `t` WRITES BACK is block `t` of the stage's array of the region's input arrays. -/
theorem flushed1_eq (V : (c : Dev nD) → (b : Ref sig .tc) → Buf (Elt Ideal) ((c : Thread nD τ).loc b)) (c : Dev nD)
    (t : Fin cfg1.N) :
    (dat1 (F := Ideal) V c).flushed 4 t = ((cfg1.win 4).blk t).view.read (Elt Ideal)
      (Cert.Gcn.stage1 (V c main_call0_v31) (V c main_call0_v16) (V c main_arg6) (V c main_arg7)) := by
  show (cfg1.win 4).cut (grid1.coords t) ((dat1 V c).after 4 t) = _
  rw [after1_4]
  unfold out1_4
  rw [View.canon_unit_zero hz2]
  simp only [View.ld_unit_zero (S := S10000x16) hz2, View.ld_unit_zero (S := S10000x1) hz2,
    View.ld_unit_zero (S := S16) hz1, View.ld_unit_zero (S := S16x16) hz2]
  unfold iblk1
  exact block1 (V c main_call0_v31) (V c main_call0_v16) (V c main_arg6) (V c main_arg7) t

/-- An index of the output array is in point `t`'s block iff each coordinate is in the block's range on its axis. -/
theorem mem_blk1 (t : Fin cfg1.N) (i : S100000x16.Idx) :
    i ∈ ((cfg1.win 4).blk t).view.set ↔ ∀ a : Fin 2, win1_4.index t a * S10000x16.size a ≤ (i a).val ∧ (i a).val < win1_4.index t a * S10000x16.size a + S10000x16.size a := by
  show i ∈ ((View.whole main_call0_v32).slice (win1_4.rect t)).set ↔ _
  rw [View.set_slice_whole, Rect.mem_set_unit]
  exact Iff.rfl

/-- Row `r` of the output array is written by the point `r / 10000`. -/
theorem cover1 (i : S100000x16.Idx) :
    ∃ t : Fin cfg1.N, (cfg1.win 4).flush t = true ∧ i ∈ ((cfg1.win 4).blk t).view.set := by
  have hi0 : (i 0).val < 100000 := (i 0).isLt
  have hi1 : (i 1).val < 16 := (i 1).isLt
  have hN : cfg1.N = 10 := N_1
  refine ⟨⟨(i 0).val / 10000, by rw [hN]; omega⟩, flush1_4 _, ?_⟩
  rw [mem_blk1]
  obtain ⟨-, -, -, -, -, -, -, e0, e1⟩ := idx_facts1 ⟨(i 0).val / 10000, by rw [hN]; omega⟩
  intro a
  match a with
  | ⟨0, _⟩ =>
    show win1_4.index _ (0 : Fin 2) * 10000 ≤ (i 0).val ∧ (i 0).val < win1_4.index _ (0 : Fin 2) * 10000 + 10000
    rw [e0]; show (i 0).val / 10000 * 10000 ≤ (i 0).val ∧ (i 0).val < (i 0).val / 10000 * 10000 + 10000; omega
  | ⟨1, _⟩ =>
    show win1_4.index _ (1 : Fin 2) * 16 ≤ (i 1).val ∧ (i 1).val < win1_4.index _ (1 : Fin 2) * 16 + 16
    rw [e1]; omega

/-- THE OUTPUT ARRAY of the middle stage after its ten points: the stage's function of the arrived sums, the node
    factors, the bias and the next layer's weights as the region finds them. -/
theorem region1_value (V : (c : Dev nD) → (b : Ref sig .tc) → Buf (Elt Ideal) ((c : Thread nD τ).loc b)) (c : Dev nD) :
    (GenP.dat1 (F := Ideal) V c).arrAt 4 cfg1.N
      = Cert.Gcn.stage1 (V c main_call0_v31) (V c main_call0_v16) (V c main_arg6) (V c main_arg7) :=
  (dat1 (F := Ideal) V c).arrAt_eq_of_cover 4 _ (fun t _ => flushed1_eq V c t) cover1

end Cert.KernelIdeal.RegVal

end
-- ==== Proof.Region2.lean ====
/-
  The last of the three row-blocked stages of the graph-convolution network, read as ONE function of the arrays it finds.

  The stage runs over ten points; point t works on nodes 10000·t … 10000·t + 9999 of the 100000. Its block of the
  arrived sums [10000, 16] and its block of the node factors [10000, 1] are those rows of the two arrays; the bias [16],
  the output weights [2, 16] and the output bias [2] are the whole arrays at every point. Entry (p, q) of what a point
  computes depends on row p of its blocks only: the hidden row h[k] = max (A[n,k]·D[n] + b[k]) 0 of node n = 10000·t + p,
  the two logits z[r] = ∑ₖ h[k]·Wo[r,k] + bo[r], their maximum M — a fold of max from minus infinity, then one more max
  against minus infinity —, and (z[q] − M) − log ∑ᵣ exp (z[r] − M). That is `Cert.Gcn.stage2` at (n, q). The ten blocks
  of 10000 rows tile the [100000, 2] result, node n lying in the block of point n / 10000, so after the last point the
  result array is `stage2` of the five arrays, entry by entry.
-/
import proofs.«146560_j1984274891423_2_alg».proof.Proof.FrameKernelIdeal
import proofs.«146560_j1984274891423_2_alg».proof.Proof.Spec
import proofs.«146560_j1984274891423_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegVal

open Cert.KernelIdeal Cert.KernelIdeal.Gen Cert.KernelIdeal.GenP
open Idealize.ShloMosaic Idealize.ShloMosaic.ValueIdx Idealize.ShloMosaic.TcCoe Idealize.SL.Sem

/-- The log-softmax part of the stage on a block of logits: the rows' maxima, the centred logits, the logarithms of the rows'
    sums of exponentials. -/
def reg2_lsm (v20 : FVec Ideal S10000x2 .f32) : FVec Ideal S10000x2 .f32 :=
  have v21 : FVec Ideal S10000 .f32 := multiReduction .maximumf [1] S10000 v20 0xFF800000#32 reduces_S10000x2_S10000 (.inl rfl) rfl
  have cst_9 : Ideal .f32 := Scalar.ofBits .f32 0xFF800000#32
  have v22 : FVec Ideal S10000 .f32 := broadcast S10000 cst_9
  have v23 : FVec Ideal S10000 .f32 := maximumf v22 v21
  have v24 : FVec Ideal S10000x1 .f32 := shapeCast S10000x1 v23 shapeCasts_S10000_S10000x1
  have v25 : FVec Ideal S10000x2 .f32 := broadcastTo S10000x2 v24 broadcasts_S10000x1_S10000x2
  have v26 : FVec Ideal S10000x2 .f32 := subf v20 v25
  have v27 : FVec Ideal S10000x2 .f32 := exp v26
  have v28 : FVec Ideal S10000 .f32 := multiReduction .add [1] S10000 v27 0x00000000#32 reduces_S10000x2_S10000 (.inl rfl) rfl
  have v29 : FVec Ideal S10000x1 .f32 := shapeCast S10000x1 v28 shapeCasts_S10000_S10000x1
  have v30 : FVec Ideal S10000x1 .f32 := log v29
  have v31 : FVec Ideal S10000x2 .f32 := broadcastTo S10000x2 v30 broadcasts_S10000x1_S10000x2
  have v32 : FVec Ideal S10000x2 .f32 := subf v26 v31
  v32

/-- The index a reduction along the second axis inserts coordinate k at is (p, k). -/
theorem reg2_lift (p : Fin 10000) (k : Fin 2) : reduces_S10000x2_S10000.lift (ix1 p) k = ix2 p k :=
  funext fun a => Fin.ext (by match a with | ⟨0, _⟩ => rfl | ⟨1, _⟩ => rfl)

/-- The row maximum as the stage takes it, at row p. -/
theorem reg2_rowMax_apply (x : FVec Ideal S10000x2 .f32) (p : Fin 10000) :
    maximumf (broadcast S10000 (FloatOps.ofBits (F := Ideal) .f32 0xFF800000#32))
      (multiReduction .maximumf [1] S10000 x 0xFF800000#32 reduces_S10000x2_S10000 (.inl rfl) rfl) (ix1 p)
      = Cert.Gcn.rowMax (fun k => x (ix2 p k)) := by
  rw [maximumf_apply, broadcast_apply]
  refine congrArg (max _) ?_
  refine (Ideal.multiReduction_maximumf_single x 0xFF800000#32 reduces_S10000x2_S10000 (.inl rfl) rfl (ix1 p)).trans ?_
  have e : (x ∘ reduces_S10000x2_S10000.lift (ix1 p)) = fun k : Fin 2 => x (ix2 p k) := funext fun k => congrArg x (reg2_lift p k)
  rw [e]
  rfl

/-- A block minus a per-row vector kept as a column. -/
theorem reg2_center_apply (x : FVec Ideal S10000x2 .f32) (mx : FVec Ideal S10000 .f32) (p : Fin 10000) (q : Fin 2) :
    subf x (broadcastTo S10000x2 (shapeCast S10000x1 mx shapeCasts_S10000_S10000x1) broadcasts_S10000x1_S10000x2) (ix2 p q)
      = x (ix2 p q) - mx (ix1 p) := by
  rw [subf_apply, Cert.LibKeepdims.broadcastTo_a1_ab_apply, Cert.LibKeepdims.shapeCast_a_a1_apply]

/-- The logarithm of a row's sum of exponentials, kept as a column and read along the row. -/
theorem reg2_logsum_apply (y : FVec Ideal S10000x2 .f32) (p : Fin 10000) (q : Fin 2) :
    broadcastTo S10000x2 (log (shapeCast S10000x1
      (multiReduction .add [1] S10000 (exp y) 0x00000000#32 reduces_S10000x2_S10000 (.inl rfl) rfl) shapeCasts_S10000_S10000x1))
      broadcasts_S10000x1_S10000x2 (ix2 p q) = Ideal.log (∑ k : Fin 2, Ideal.exp (y (ix2 p k))) := by
  rw [Cert.LibKeepdims.broadcastTo_a1_ab_apply]
  show Ideal.log (shapeCast S10000x1 _ shapeCasts_S10000_S10000x1 (ix2 p (0 : Fin 1))) = _
  rw [Cert.LibKeepdims.shapeCast_a_a1_apply]
  refine congrArg Ideal.log ?_
  refine (Ideal.multiReduction_add_single (exp y) 0x00000000#32 reduces_S10000x2_S10000 (.inl rfl) rfl (ix1 p)).trans ?_
  refine Finset.sum_congr rfl fun k _ => ?_
  exact congrArg (fun i => Ideal.exp (y i)) (reg2_lift p k)

theorem reg2_lsm_apply (x : FVec Ideal S10000x2 .f32) (p : Fin 10000) (q : Fin 2) :
    reg2_lsm x (ix2 p q) = Cert.Gcn.logSoftmax2 (fun k => x (ix2 p k)) q := by
  unfold reg2_lsm
  rw [subf_apply, reg2_logsum_apply, reg2_center_apply]
  simp only [reg2_center_apply]
  rw [reg2_rowMax_apply x p]
  rfl

/-- The logits part of the stage: from a point's five blocks the hidden rows, those times the transposed output weights,
    plus the output bias. -/
def reg2_logits (v0 : Vec Ideal S10000x16 .f32) (v2 : Vec Ideal S10000x1 .f32) (v6 : Vec Ideal S16 .f32) (v13 : Vec Ideal S2x16 .f32) (v17 : Vec Ideal S2 .f32) : FVec Ideal S10000x2 .f32 :=
  have v1 : FVec Ideal S10000x16 .f32 := shapeCast S10000x16 v0 shapeCasts_S10000x16_S10000x16
  have v3 : FVec Ideal S10000x1 .f32 := shapeCast S10000x1 v2 shapeCasts_S10000x1_S10000x1
  have v4 : FVec Ideal S10000x16 .f32 := broadcastTo S10000x16 v3 broadcasts_S10000x1_S10000x16
  have v5 : FVec Ideal S10000x16 .f32 := mulf v1 v4
  have v7 : FVec Ideal S1x16 .f32 := shapeCast S1x16 v6 shapeCasts_S16_S1x16
  have v8 : FVec Ideal S10000x16 .f32 := broadcastTo S10000x16 v7 broadcasts_S1x16_S10000x16
  have v9 : FVec Ideal S10000x16 .f32 := addf v5 v8
  have cst : Ideal .f32 := Scalar.ofBits .f32 0x00000000#32
  have v10 : FVec Ideal S10000x16 .f32 := broadcast S10000x16 cst
  have v11 : FVec Ideal S10000x16 .f32 := maximumf v9 v10
  have v12 : FVec Ideal S10000x16 .bf16 := truncf .bf16 v11 bitsLt_bf16_f32
  have v14 : FVec Ideal S2x16 .bf16 := truncf .bf16 v13 bitsLt_bf16_f32
  have v15 : FVec Ideal S16x2 .bf16 := transpose S16x2 [1, 0] v14 transposes_S2x16_p1_0_S16x2
  have cst_6 : FVec Ideal S10000x2 .f32 := constant S10000x2 .f32 0x00000000#32
  have v16 : FVec Ideal S10000x2 .f32 := matmul dot_S10000x16_S16x2_S10000x2_1_0_0_1_n_n none v12 v15 cst_6
  have v18 : FVec Ideal S1x2 .f32 := shapeCast S1x2 v17 shapeCasts_S2_S1x2
  have v19 : FVec Ideal S10000x2 .f32 := broadcastTo S10000x2 v18 broadcasts_S1x2_S10000x2
  have v20 : FVec Ideal S10000x2 .f32 := addf v16 v19
  v20

/-- What a point computes from its five blocks is the log-softmax part applied to the logits part. -/
theorem reg2_pay_eq (v0 : Vec Ideal S10000x16 .f32) (v2 : Vec Ideal S10000x1 .f32) (v6 : Vec Ideal S16 .f32) (v13 : Vec Ideal S2x16 .f32) (v17 : Vec Ideal S2 .f32) :
    Gen.k2_pay1 (F := Ideal) v0 v2 v6 v13 v17 = reg2_lsm (reg2_logits v0 v2 v6 v13 v17) := rfl

/-- The hidden unit (p, k) of a block: the arrived sum scaled by the node's factor, plus the bias, clipped at zero. -/
theorem reg2_hidden_apply (v0 : Vec Ideal S10000x16 .f32) (v2 : Vec Ideal S10000x1 .f32) (v6 : Vec Ideal S16 .f32) (p : Fin 10000) (k : Fin 16) :
    (truncf .bf16 (maximumf (addf (mulf (shapeCast S10000x16 v0 shapeCasts_S10000x16_S10000x16)
        (broadcastTo S10000x16 (shapeCast S10000x1 v2 shapeCasts_S10000x1_S10000x1) broadcasts_S10000x1_S10000x16))
        (broadcastTo S10000x16 (shapeCast S1x16 v6 shapeCasts_S16_S1x16) broadcasts_S1x16_S10000x16))
        (broadcast S10000x16 (FloatOps.ofBits (F := Ideal) .f32 0x00000000#32))) bitsLt_bf16_f32 : FVec Ideal S10000x16 .bf16) (ix2 p k)
      = max (v0 (ix2 p k) * v2 (ix2 p (0 : Fin 1)) + v6 (ix1 k)) 0 := by
  rw [truncf_apply, maximumf_apply, addf_apply, mulf_apply, broadcast_apply, shapeCast_self, shapeCast_self,
    Cert.LibKeepdims.broadcastTo_a1_ab_apply, broadcastTo_1b_ab_apply, shapeCast_a_1a_apply]
  show max _ (Ideal.ofBits .f32 0x00000000#32) = _
  rw [Ideal.ofBits_zero_f32]

/-- The left operand's index of the contraction: row p, contracted coordinate. -/
theorem reg2_dot_lhs0 (i : S10000x2.Idx) (q : dot_S10000x16_S16x2_S10000x2_1_0_0_1_n_n.contr.Idx) :
    (dot_S10000x16_S16x2_S10000x2_1_0_0_1_n_n.lhsIdx i q 0).val = (i 0).val := by
  unfold DotDims.lhsIdx
  rw [dif_neg (show ¬(0 : Fin S10000x16.rank) ∈ dot_S10000x16_S16x2_S10000x2_1_0_0_1_n_n.lhsBatch by decide), dif_pos (show (0 : Fin S10000x16.rank) ∈ dot_S10000x16_S16x2_S10000x2_1_0_0_1_n_n.lhsNonContracting by decide)]
  rfl
theorem reg2_dot_lhs1 (i : S10000x2.Idx) (q : dot_S10000x16_S16x2_S10000x2_1_0_0_1_n_n.contr.Idx) :
    (dot_S10000x16_S16x2_S10000x2_1_0_0_1_n_n.lhsIdx i q 1).val = (q ⟨0, by decide⟩).val :=
  dot_S10000x16_S16x2_S10000x2_1_0_0_1_n_n.lhsIdx_val_of_single rfl i q
theorem reg2_dot_rhs0 (i : S10000x2.Idx) (q : dot_S10000x16_S16x2_S10000x2_1_0_0_1_n_n.contr.Idx) :
    (dot_S10000x16_S16x2_S10000x2_1_0_0_1_n_n.rhsIdx i q 0).val = (q ⟨0, by decide⟩).val :=
  dot_S10000x16_S16x2_S10000x2_1_0_0_1_n_n.rhsIdx_val_of_single rfl i q
theorem reg2_dot_rhs1 (i : S10000x2.Idx) (q : dot_S10000x16_S16x2_S10000x2_1_0_0_1_n_n.contr.Idx) :
    (dot_S10000x16_S16x2_S10000x2_1_0_0_1_n_n.rhsIdx i q 1).val = (i 1).val := by
  unfold DotDims.rhsIdx
  rw [dif_neg (show ¬(1 : Fin S16x2.rank) ∈ dot_S10000x16_S16x2_S10000x2_1_0_0_1_n_n.rhsBatch by decide), dif_pos (show (1 : Fin S16x2.rank) ∈ dot_S10000x16_S16x2_S10000x2_1_0_0_1_n_n.rhsNonContracting by decide)]
  rfl

/-- A block of hidden rows times the transposed output weights into the zero block, at (p, r): the row's sum over the 16 units. -/
theorem reg2_matmul_apply (H : FVec Ideal S10000x16 .bf16) (W : FVec Ideal S2x16 .bf16) (p : Fin 10000) (r : Fin 2) :
    matmul dot_S10000x16_S16x2_S10000x2_1_0_0_1_n_n none H (transpose S16x2 [1, 0] W transposes_S2x16_p1_0_S16x2)
      (constant S10000x2 .f32 0x00000000#32) (ix2 p r) = ∑ k : Fin 16, H (ix2 p k) * W (ix2 r k) := by
  refine (Ideal.matmul_constant_zero_apply dot_S10000x16_S16x2_S10000x2_1_0_0_1_n_n none H _ (ix2 p r)).trans ?_
  rw [← Equiv.sum_comp (ValueIdx.contrEquiv1 dot_S10000x16_S16x2_S10000x2_1_0_0_1_n_n 16 rfl rfl).symm]
  refine Finset.sum_congr rfl fun k _ => ?_
  have hk := ValueIdx.contrEquiv1_symm_val dot_S10000x16_S16x2_S10000x2_1_0_0_1_n_n 16 rfl rfl k
  have el : dot_S10000x16_S16x2_S10000x2_1_0_0_1_n_n.lhsIdx (ix2 p r) ((ValueIdx.contrEquiv1 dot_S10000x16_S16x2_S10000x2_1_0_0_1_n_n 16 rfl rfl).symm k) = ix2 p k := funext fun a => Fin.ext (by
    match a with
    | ⟨0, _⟩ => exact reg2_dot_lhs0 _ _
    | ⟨1, _⟩ => exact (reg2_dot_lhs1 _ _).trans hk)
  have er : dot_S10000x16_S16x2_S10000x2_1_0_0_1_n_n.rhsIdx (ix2 p r) ((ValueIdx.contrEquiv1 dot_S10000x16_S16x2_S10000x2_1_0_0_1_n_n 16 rfl rfl).symm k) = ix2 k r := funext fun a => Fin.ext (by
    match a with
    | ⟨0, _⟩ => exact (reg2_dot_rhs0 _ _).trans hk
    | ⟨1, _⟩ => exact reg2_dot_rhs1 _ _)
  rw [el, er, transpose_ix2_apply]

theorem reg2_logits_apply (v0 : Vec Ideal S10000x16 .f32) (v2 : Vec Ideal S10000x1 .f32) (v6 : Vec Ideal S16 .f32) (v13 : Vec Ideal S2x16 .f32) (v17 : Vec Ideal S2 .f32) (p : Fin 10000) (r : Fin 2) :
    reg2_logits v0 v2 v6 v13 v17 (ix2 p r)
      = (∑ k : Fin 16, max (v0 (ix2 p k) * v2 (ix2 p (0 : Fin 1)) + v6 (ix1 k)) 0 * v13 (ix2 r k)) + v17 (ix1 r) := by
  unfold reg2_logits
  rw [addf_apply, reg2_matmul_apply, broadcastTo_1b_ab_apply, shapeCast_a_1a_apply]
  refine congrArg (· + v17 (ix1 r)) (Finset.sum_congr rfl fun k _ => ?_)
  rw [reg2_hidden_apply, truncf_apply]

/-- ENTRY (p, q) OF WHAT A POINT COMPUTES: the log-softmax, at q, of the two logits of row p of its blocks. -/
theorem reg2_pay_apply (v0 : Vec Ideal S10000x16 .f32) (v2 : Vec Ideal S10000x1 .f32) (v6 : Vec Ideal S16 .f32) (v13 : Vec Ideal S2x16 .f32) (v17 : Vec Ideal S2 .f32) (p : Fin 10000) (q : Fin 2) :
    Gen.k2_pay1 (F := Ideal) v0 v2 v6 v13 v17 (ix2 p q)
      = Cert.Gcn.logSoftmax2 (fun r => (∑ k : Fin 16, max (v0 (ix2 p k) * v2 (ix2 p (0 : Fin 1)) + v6 (ix1 k)) 0 * v13 (ix2 r k)) + v17 (ix1 r)) q := by
  rw [reg2_pay_eq, reg2_lsm_apply]
  exact congrArg (fun z => Cert.Gcn.logSoftmax2 z q) (funext fun r => reg2_logits_apply v0 v2 v6 v13 v17 p r)

theorem reg2_hz2 : (![0, 0] : Fin 2 → Nat) = fun _ => 0 := funext fun a => by fin_cases a <;> rfl
theorem reg2_hz1 : (![0] : Fin 1 → Nat) = fun _ => 0 := funext fun a => by fin_cases a <;> rfl

/-- The block indices over the ten points: a row-blocked window's block index at point t is (t, 0), a whole-array window's
    is zero. -/
theorem reg2_idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

theorem reg2_t_lt (t : Fin cfg2.N) : t.val < 10 := lt_of_lt_of_eq t.isLt GenP.N_2

/-- The node that row p of row block t is: 10000 t + p. -/
def reg2_node (t : Fin cfg2.N) (p : Fin 10000) : Fin 100000 :=
  ⟨t.val * 10000 + p.val, by have := reg2_t_lt t; have := p.isLt; omega⟩

/-- Row block t of a [100000, 16] array, at (p, k), is the array at node 10000 t + p, unit k. -/
theorem reg2_blk0_apply (A : Cert.Gcn.A2 100000 16) (t : Fin cfg2.N) (p : Fin 10000) (k : Fin 16) :
    ((cfg2.win 0).blk t).view.read (Elt Ideal) A (ix2 p k) = A (ix2 (reg2_node t p) k) := by
  obtain ⟨e0, e1, -⟩ := reg2_idx t
  show A (((cfg2.win 0).blk t).view.emb (ix2 p k)) = _
  refine congrArg A (funext fun a => Fin.ext ?_)
  match a with
  | ⟨0, _⟩ => show win2_0.index t (0 : Fin 2) * 10000 + 1 * p.val = t.val * 10000 + p.val; rw [e0]; omega
  | ⟨1, _⟩ => show win2_0.index t (1 : Fin 2) * 16 + 1 * k.val = k.val; rw [e1]; omega

/-- Row block t of a [100000, 1] array, at (p, 0), is the array at node 10000 t + p. -/
theorem reg2_blk1_apply (D : Cert.Gcn.A2 100000 1) (t : Fin cfg2.N) (p : Fin 10000) :
    ((cfg2.win 1).blk t).view.read (Elt Ideal) D (ix2 p (0 : Fin 1)) = D (ix2 (reg2_node t p) (0 : Fin 1)) := by
  obtain ⟨-, -, e0, e1, -⟩ := reg2_idx t
  show D (((cfg2.win 1).blk t).view.emb (ix2 p (0 : Fin 1))) = _
  refine congrArg D (funext fun a => Fin.ext ?_)
  match a with
  | ⟨0, _⟩ => show win2_1.index t (0 : Fin 2) * 10000 + 1 * p.val = t.val * 10000 + p.val; rw [e0]; omega
  | ⟨1, _⟩ => show win2_1.index t (1 : Fin 2) * 1 + 1 * 0 = 0; rw [e1]

/-- The bias window's block is the whole [16] array at every point. -/
theorem reg2_blk2_apply (b : Cert.Gcn.A1 16) (t : Fin cfg2.N) (k : Fin 16) :
    ((cfg2.win 2).blk t).view.read (Elt Ideal) b (ix1 k) = b (ix1 k) := by
  obtain ⟨-, -, -, -, e0, -⟩ := reg2_idx t
  show b (((cfg2.win 2).blk t).view.emb (ix1 k)) = _
  refine congrArg b (funext fun a => Fin.ext ?_)
  match a with
  | ⟨0, _⟩ => show win2_2.index t (0 : Fin 1) * 16 + 1 * k.val = k.val; rw [e0]; omega

/-- The output weights' block is the whole [2, 16] array at every point. -/
theorem reg2_blk3_apply (W : Cert.Gcn.A2 2 16) (t : Fin cfg2.N) (r : Fin 2) (k : Fin 16) :
    ((cfg2.win 3).blk t).view.read (Elt Ideal) W (ix2 r k) = W (ix2 r k) := by
  obtain ⟨-, -, -, -, -, e0, e1, -⟩ := reg2_idx t
  show W (((cfg2.win 3).blk t).view.emb (ix2 r k)) = _
  refine congrArg W (funext fun a => Fin.ext ?_)
  match a with
  | ⟨0, _⟩ => show win2_3.index t (0 : Fin 2) * 2 + 1 * r.val = r.val; rw [e0]; omega
  | ⟨1, _⟩ => show win2_3.index t (1 : Fin 2) * 16 + 1 * k.val = k.val; rw [e1]; omega

/-- The output bias's block is the whole [2] array at every point. -/
theorem reg2_blk4_apply (bo : Cert.Gcn.A1 2) (t : Fin cfg2.N) (r : Fin 2) :
    ((cfg2.win 4).blk t).view.read (Elt Ideal) bo (ix1 r) = bo (ix1 r) := by
  obtain ⟨-, -, -, -, -, -, -, e0, -⟩ := reg2_idx t
  show bo (((cfg2.win 4).blk t).view.emb (ix1 r)) = _
  refine congrArg bo (funext fun a => Fin.ext ?_)
  match a with
  | ⟨0, _⟩ => show win2_4.index t (0 : Fin 1) * 2 + 1 * r.val = r.val; rw [e0]; omega

/-- ONE ENTRY of what a point computes, from blocks that are read off whole arrays: if row p of the row blocks is node n of
    the arrays and the small blocks are the small arrays, entry (p, q) of the point's result is entry (n, q) of the last stage. -/
theorem reg2_point (A : Cert.Gcn.A2 100000 16) (D : Cert.Gcn.A2 100000 1) (b : Cert.Gcn.A1 16) (Wo : Cert.Gcn.A2 2 16) (bo : Cert.Gcn.A1 2)
    (B0 : Vec Ideal S10000x16 .f32) (B1 : Vec Ideal S10000x1 .f32) (B2 : Vec Ideal S16 .f32) (B3 : Vec Ideal S2x16 .f32) (B4 : Vec Ideal S2 .f32)
    (n : Fin 100000) (p : Fin 10000) (q : Fin 2)
    (h0 : ∀ k : Fin 16, B0 (ix2 p k) = A (ix2 n k)) (h1 : B1 (ix2 p (0 : Fin 1)) = D (ix2 n (0 : Fin 1)))
    (h2 : ∀ k : Fin 16, B2 (ix1 k) = b (ix1 k)) (h3 : ∀ (r : Fin 2) (k : Fin 16), B3 (ix2 r k) = Wo (ix2 r k))
    (h4 : ∀ r : Fin 2, B4 (ix1 r) = bo (ix1 r)) :
    Gen.k2_pay1 (F := Ideal) B0 B1 B2 B3 B4 (ix2 p q) = Cert.Gcn.stage2 A D b Wo bo (ix2 n q) := by
  rw [reg2_pay_apply]
  show _ = Cert.Gcn.logSoftmax2 (Cert.Gcn.logits (Cert.Gcn.hidAgg A D b) Wo bo n) q
  refine congrArg (fun z => Cert.Gcn.logSoftmax2 z q) (funext fun r => ?_)
  unfold Cert.Gcn.logits Cert.Gcn.lin16 Cert.Gcn.hidAgg
  rw [h1, h4]
  refine congrArg (· + bo (ix1 r)) (Finset.sum_congr rfl fun k _ => ?_)
  rw [h0, h2, h3]

/-- WHAT POINT t WRITES BACK is row block t of the last stage of the arrays the region finds. -/
theorem reg2_flushed (V : (c : Dev nD) → (b : Ref sig .tc) → Buf (Elt Ideal) ((c : Thread nD τ).loc b)) (c : Dev nD) (t : Fin cfg2.N) :
    (GenP.dat2 (F := Ideal) V c).flushed 5 t = ((cfg2.win 5).blk t).view.read (Elt Ideal)
      (Cert.Gcn.stage2 (V c main_call0_v46) (V c main_call0_v16) (V c main_arg8) (V c main_arg9) (V c main_arg10)) := by
  show (cfg2.win 5).cut (grid2.coords t) ((GenP.dat2 V c).after 5 t) = _
  rw [GenP.after2_5]
  unfold GenP.out2_5
  rw [View.canon_unit_zero reg2_hz2]
  simp only [View.ld_unit_zero (S := S10000x16) reg2_hz2, View.ld_unit_zero (S := S10000x1) reg2_hz2, View.ld_unit_zero (S := S16) reg2_hz1, View.ld_unit_zero (S := S2x16) reg2_hz2, View.ld_unit_zero (S := S2) reg2_hz1]
  obtain ⟨-, -, -, -, -, -, -, -, e0, e1⟩ := reg2_idx t
  funext y
  refine (congrArg (Gen.k2_pay1 (F := Ideal) (GenP.iblk2 V c 0 t) (GenP.iblk2 V c 1 t) (GenP.iblk2 V c 2 t) (GenP.iblk2 V c 3 t) (GenP.iblk2 V c 4 t))
    (eq_ix2 ((cfg2.win 5).xinj (grid2.coords t) y))).trans ?_
  refine (reg2_point (V c main_call0_v46) (V c main_call0_v16) (V c main_arg8) (V c main_arg9) (V c main_arg10) _ _ _ _ _
    (reg2_node t ((cfg2.win 5).xinj (grid2.coords t) y 0)) _ _
    (fun k => reg2_blk0_apply (V c main_call0_v46) t _ k) (reg2_blk1_apply (V c main_call0_v16) t _)
    (fun k => reg2_blk2_apply (V c main_arg8) t k) (fun r k => reg2_blk3_apply (V c main_arg9) t r k)
    (fun r => reg2_blk4_apply (V c main_arg10) t r)).trans ?_
  show _ = Cert.Gcn.stage2 (V c main_call0_v46) (V c main_call0_v16) (V c main_arg8) (V c main_arg9) (V c main_arg10) (((cfg2.win 5).blk t).view.emb y)
  refine congrArg (Cert.Gcn.stage2 (V c main_call0_v46) (V c main_call0_v16) (V c main_arg8) (V c main_arg9) (V c main_arg10)) (funext fun a => Fin.ext ?_)
  match a with
  | ⟨0, _⟩ => show t.val * 10000 + (y 0).val = win2_5.index t (0 : Fin 2) * 10000 + 1 * (y 0).val; rw [e0]; omega
  | ⟨1, _⟩ => show (y 1).val = win2_5.index t (1 : Fin 2) * 2 + 1 * (y 1).val; rw [e1]; omega

/-- An index of the [100000, 2] result is in point t's block iff each coordinate is in the block's range on its axis. -/
theorem reg2_mem_blk (t : Fin cfg2.N) (i : S100000x2.Idx) :
    i ∈ ((cfg2.win 5).blk t).view.set ↔ ∀ a : Fin 2, win2_5.index t a * S10000x2.size a ≤ (i a).val
      ∧ (i a).val < win2_5.index t a * S10000x2.size a + S10000x2.size a := by
  show i ∈ ((View.whole main_v0).slice (win2_5.rect t)).set ↔ _
  rw [View.set_slice_whole, Rect.mem_set_unit]
  exact Iff.rfl

/-- Every entry of the result is written back: node n lies in the row block of point n / 10000. -/
theorem reg2_cover (i : S100000x2.Idx) :
    ∃ t : Fin cfg2.N, (cfg2.win 5).flush t = true ∧ i ∈ ((cfg2.win 5).blk t).view.set := by
  have hi0 : (i 0).val < 100000 := (i 0).isLt
  have hi1 : (i 1).val < 2 := (i 1).isLt
  obtain ⟨t, ht⟩ : ∃ t : Fin cfg2.N, t.val = (i 0).val / 10000 :=
    ⟨⟨(i 0).val / 10000, by rw [show cfg2.N = 10 from GenP.N_2]; omega⟩, rfl⟩
  obtain ⟨-, -, -, -, -, -, -, -, e0, e1⟩ := reg2_idx t
  refine ⟨t, Gen.flush2_5 t, ?_⟩
  rw [reg2_mem_blk]
  intro a
  match a with
  | ⟨0, _⟩ =>
    show win2_5.index t (0 : Fin 2) * 10000 ≤ (i 0).val ∧ (i 0).val < win2_5.index t (0 : Fin 2) * 10000 + 10000
    rw [e0, ht]; omega
  | ⟨1, _⟩ =>
    show win2_5.index t (1 : Fin 2) * 2 ≤ (i 1).val ∧ (i 1).val < win2_5.index t (1 : Fin 2) * 2 + 2
    rw [e1]; omega

/-- THE RESULT ARRAY after the region: the last stage of the arrays the region finds, entry by entry. -/
theorem region2_value (V : (c : Dev nD) → (b : Ref sig .tc) → Buf (Elt Ideal) ((c : Thread nD τ).loc b)) (c : Dev nD) :
    (GenP.dat2 (F := Ideal) V c).arrAt 5 cfg2.N
      = Cert.Gcn.stage2 (V c main_call0_v46) (V c main_call0_v16) (V c main_arg8) (V c main_arg9) (V c main_arg10) :=
  (GenP.dat2 (F := Ideal) V c).arrAt_eq_of_cover 5
    (Cert.Gcn.stage2 (V c main_call0_v46) (V c main_call0_v16) (V c main_arg8) (V c main_arg9) (V c main_arg10))
    (fun t _ => reg2_flushed V c t) reg2_cover

end Cert.KernelIdeal.RegVal

end
-- ==== Proof.RefValue.lean ====
/-
  The reference program's value, read stage by stage, is the graph-convolution network of `Spec.lean` with the
  reference's own aggregation; and the node factor `dinv` is a non-negative number that is never plus infinity.
-/
import proofs.«146560_j1984274891423_2_alg».proof.Proof.Agg
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.ReadP Cert.ReferenceIdeal.Gen Idealize.ShloMosaic Idealize.ShloMosaic.TcCoe
  Idealize.SL.Sem Idealize.ShloMosaic.StableHlo Idealize.ShloMosaic.ValueIdx

/-- The node factor: where the degree `d` is positive it is `1/√d` (zero at `d = ⊤`), elsewhere it is `0`; so it is
    never negative and never plus infinity. -/
theorem dinv_nonneg_ne_top (x1 : (⟨S2x6400000, .i32⟩ : BufTy).Contents (Elt Ideal))
    (x2 : (⟨S6400000, .f32⟩ : BufTy).Contents (Elt Ideal)) (i : S100000.Idx) :
    0 ≤ ReadP.val_main_v15 (F := Ideal) x1 x2 i ∧ ReadP.val_main_v15 (F := Ideal) x1 x2 i ≠ ⊤ := by
  rw [val_main_v15_apply, val_main_v13_apply, val_main_v14_apply, val_main_call0_v1_apply, val_main_call0_v0_apply,
    val_main_cst_2_apply, val_main_v12_apply, val_main_cst_1_apply]
  generalize val_main_v11 (F := Ideal) x1 x2 i = d
  rw [Ideal.ofBits_def, Ideal.ofBits_zero_f32, Ideal.hostUnary_rsqrt_def, Ideal.cmpf_def]
  by_cases h : (0 : EReal) < d
  · have hc : Ideal.cmp .ogt d 0 = 1#1 := by
      simp only [Ideal.cmp, h, decide_true, BitVec.ofBool_true]; rfl
    rw [hc, select_one]
    induction d using EReal.rec with
    | bot => exact absurd h (by simp)
    | top => rw [Ideal.rsqrt_top]; exact ⟨le_refl _, EReal.zero_ne_top⟩
    | coe r =>
      have hr : 0 < r := by exact_mod_cast h
      rw [Ideal.rsqrt_coe, if_neg (not_lt.mpr hr.le), if_neg hr.ne']
      exact ⟨EReal.coe_nonneg.mpr (inv_nonneg.mpr (Real.sqrt_nonneg r)), EReal.coe_ne_top _⟩
  · have hc : Ideal.cmp .ogt d 0 = 0#1 := by
      simp only [Ideal.cmp, h, decide_false, BitVec.ofBool_false]; rfl
    rw [hc, select_zero]
    exact ⟨le_refl _, EReal.zero_ne_top⟩

variable (x0 : (⟨S100000x128, .f32⟩ : BufTy).Contents (Elt Ideal)) (x1 : (⟨S2x6400000, .i32⟩ : BufTy).Contents (Elt Ideal))
  (x2 : (⟨S6400000, .f32⟩ : BufTy).Contents (Elt Ideal)) (x3 : (⟨S16x128, .f32⟩ : BufTy).Contents (Elt Ideal))
  (x4 : (⟨S16, .f32⟩ : BufTy).Contents (Elt Ideal)) (x5 : (⟨S16x16, .f32⟩ : BufTy).Contents (Elt Ideal))
  (x6 : (⟨S16, .f32⟩ : BufTy).Contents (Elt Ideal)) (x7 : (⟨S16x16, .f32⟩ : BufTy).Contents (Elt Ideal))
  (x8 : (⟨S16, .f32⟩ : BufTy).Contents (Elt Ideal)) (x9 : (⟨S2x16, .f32⟩ : BufTy).Contents (Elt Ideal))
  (x10 : (⟨S2, .f32⟩ : BufTy).Contents (Elt Ideal))

/-- The first dense layer: `max (x·Wfᵀ + bf) 0`. -/
theorem v37_eq : val_main_v37 (F := Ideal) x0 x3 x4 = fun i => Gcn.hid0 x0 x3 x4 (i 0) (i 1) := by
  funext i
  obtain ⟨n, q, rfl⟩ : ∃ (n : Fin 100000) (q : Fin 16), i = ix2 n q := ⟨i 0, i 1, eq_ix2 i⟩
  rw [val_main_v37_apply, val_main_v36_apply, val_main_v33_apply, val_main_v35_apply, val_main_v34_apply,
    val_main_call1_v0_apply, val_main_call1_cst_apply, Ideal.ofBits_def, Ideal.ofBits_zero_f32, Ideal.maximumf_def,
    Ideal.addf_def]
  simp only [val_main_v32_apply]
  have e1 : ∀ k : Fin 128, lidx_main_v33 (ix2 n q) k = ix2 n k := fun k => funext fun a => Fin.ext (by match a with | ⟨0, _⟩ => rfl | ⟨1, _⟩ => rfl)
  have e2 : ∀ k : Fin 128, idx_main_v32 (ridx_main_v33 (ix2 n q) k) = ix2 q k := fun k => funext fun a => Fin.ext (by match a with | ⟨0, _⟩ => rfl | ⟨1, _⟩ => rfl)
  have e3 : idx_main_v34 (idx_main_v35 (ix2 n q)) = ix1 q := funext fun a => Fin.ext (by match a with | ⟨0, _⟩ => rfl)
  simp only [e1, e2, e3]
  rfl

/-- The first convolution's product `H·W₁ᵀ` of the first hidden rows. -/
theorem v39_eq : val_main_v39 (F := Ideal) x0 x3 x4 x5 = Gcn.asArray (Gcn.lin16 (Gcn.hid0 x0 x3 x4) x5) := by
  funext i
  obtain ⟨n, q, rfl⟩ : ∃ (n : Fin 100000) (q : Fin 16), i = ix2 n q := ⟨i 0, i 1, eq_ix2 i⟩
  rw [val_main_v39_apply, v37_eq]
  simp only [val_main_v38_apply]
  have e1 : ∀ k : Fin 16, idx_main_v38 (ridx_main_v39 (ix2 n q) k) = ix2 q k := fun k => funext fun a => Fin.ext (by match a with | ⟨0, _⟩ => rfl | ⟨1, _⟩ => rfl)
  simp only [e1]
  rfl

/-- The second layer's row picker is the first layer's: the same operations on the same edge list. -/
theorem v64_eq : val_main_v64 (F := Ideal) x1 = val_main_v45 (F := Ideal) x1 := by
  unfold val_main_v64 val_main_v63 val_main_v60 val_main_v62 val_main_v59 val_main_v61 val_main_c_9 val_main_c_10
    val_main_v45 val_main_v44 val_main_v41 val_main_v43 val_main_v40 val_main_v42 val_main_c_6 val_main_c_7
  rfl

/-- The second layer's edge factor is the first layer's. -/
theorem v67_eq : val_main_v67 (F := Ideal) x1 x2 = val_main_v48 (F := Ideal) x1 x2 := by
  unfold val_main_v67 val_main_v66 val_main_v48 val_main_v47
  rfl

/-- The second layer's target column is the first layer's. -/
theorem v70_eq : val_main_v70 (F := Ideal) x1 = val_main_v51 (F := Ideal) x1 := by
  unfold val_main_v70 val_main_v51
  rfl

/-- The second layer's zero array is the first layer's. -/
theorem v69_eq : val_main_v69 (F := Ideal) = val_main_v50 (F := Ideal) := by
  unfold val_main_v69 val_main_cst_11 val_main_v50 val_main_cst_8
  rfl

/-- The first aggregation is the reference's aggregation of the first product. -/
theorem v52_eq : val_main_v52 (F := Ideal) x0 x1 x2 x3 x4 x5 = Agg.aggR x1 x2 (val_main_v39 (F := Ideal) x0 x3 x4 x5) := by
  unfold val_main_v52 val_main_v49 val_main_v46 val_main_v50 val_main_cst_8 Agg.aggR
  rfl

/-- The second aggregation is the reference's aggregation of the second product. -/
theorem v71_eq : val_main_v71 (F := Ideal) x0 x1 x2 x3 x4 x5 x6 x7
    = Agg.aggR x1 x2 (val_main_v58 (F := Ideal) x0 x1 x2 x3 x4 x5 x6 x7) := by
  unfold val_main_v71 val_main_v68 val_main_v65
  rw [v64_eq, v67_eq, v70_eq, v69_eq]
  unfold val_main_v50 val_main_cst_8 Agg.aggR
  rfl

/-- The first convolution's bias and clip on the arrived sums. -/
theorem v56_eq : val_main_v56 (F := Ideal) x0 x1 x2 x3 x4 x5 x6
    = fun i => Gcn.hidSum (val_main_v52 (F := Ideal) x0 x1 x2 x3 x4 x5) x6 (i 0) (i 1) := by
  funext i
  obtain ⟨n, q, rfl⟩ : ∃ (n : Fin 100000) (q : Fin 16), i = ix2 n q := ⟨i 0, i 1, eq_ix2 i⟩
  rw [val_main_v56_apply, val_main_v55_apply, val_main_v54_apply, val_main_v53_apply, val_main_call2_v0_apply,
    val_main_call2_cst_apply, Ideal.ofBits_def, Ideal.ofBits_zero_f32, Ideal.maximumf_def, Ideal.addf_def]
  have e3 : idx_main_v53 (idx_main_v54 (ix2 n q)) = ix1 q := funext fun a => Fin.ext (by match a with | ⟨0, _⟩ => rfl)
  rw [e3]
  generalize val_main_v52 (F := Ideal) x0 x1 x2 x3 x4 x5 = A
  rfl

/-- The second convolution's product `H·W₂ᵀ` of the second hidden rows. -/
theorem v58_eq : val_main_v58 (F := Ideal) x0 x1 x2 x3 x4 x5 x6 x7
    = Gcn.asArray (Gcn.lin16 (Gcn.hidSum (val_main_v52 (F := Ideal) x0 x1 x2 x3 x4 x5) x6) x7) := by
  funext i
  obtain ⟨n, q, rfl⟩ : ∃ (n : Fin 100000) (q : Fin 16), i = ix2 n q := ⟨i 0, i 1, eq_ix2 i⟩
  rw [val_main_v58_apply, v56_eq]
  simp only [val_main_v57_apply]
  have e1 : ∀ k : Fin 16, idx_main_v57 (ridx_main_v58 (ix2 n q) k) = ix2 q k := fun k => funext fun a => Fin.ext (by match a with | ⟨0, _⟩ => rfl | ⟨1, _⟩ => rfl)
  simp only [e1]
  generalize val_main_v52 (F := Ideal) x0 x1 x2 x3 x4 x5 = A
  rfl

/-- The second convolution's bias and clip on the arrived sums. -/
theorem v75_eq : val_main_v75 (F := Ideal) x0 x1 x2 x3 x4 x5 x6 x7 x8
    = fun i => Gcn.hidSum (val_main_v71 (F := Ideal) x0 x1 x2 x3 x4 x5 x6 x7) x8 (i 0) (i 1) := by
  funext i
  obtain ⟨n, q, rfl⟩ : ∃ (n : Fin 100000) (q : Fin 16), i = ix2 n q := ⟨i 0, i 1, eq_ix2 i⟩
  rw [val_main_v75_apply, val_main_v74_apply, val_main_v73_apply, val_main_v72_apply, val_main_call3_v0_apply,
    val_main_call3_cst_apply, Ideal.ofBits_def, Ideal.ofBits_zero_f32, Ideal.maximumf_def, Ideal.addf_def]
  have e3 : idx_main_v72 (idx_main_v73 (ix2 n q)) = ix1 q := funext fun a => Fin.ext (by match a with | ⟨0, _⟩ => rfl)
  rw [e3]
  generalize val_main_v71 (F := Ideal) x0 x1 x2 x3 x4 x5 x6 x7 = A
  rfl

/-- The two logits `H·Woᵀ + bo` of the last hidden rows. -/
theorem v80_eq : val_main_v80 (F := Ideal) x0 x1 x2 x3 x4 x5 x6 x7 x8 x9 x10
    = fun i => Gcn.logits (Gcn.hidSum (val_main_v71 (F := Ideal) x0 x1 x2 x3 x4 x5 x6 x7) x8) x9 x10 (i 0) (i 1) := by
  funext i
  obtain ⟨n, q, rfl⟩ : ∃ (n : Fin 100000) (q : Fin 2), i = ix2 n q := ⟨i 0, i 1, eq_ix2 i⟩
  rw [val_main_v80_apply, val_main_v77_apply, val_main_v79_apply, val_main_v78_apply, v75_eq, Ideal.addf_def]
  simp only [val_main_v76_apply]
  have e1 : ∀ k : Fin 16, idx_main_v76 (ridx_main_v77 (ix2 n q) k) = ix2 q k := fun k => funext fun a => Fin.ext (by match a with | ⟨0, _⟩ => rfl | ⟨1, _⟩ => rfl)
  have e3 : idx_main_v78 (idx_main_v79 (ix2 n q)) = ix1 q := funext fun a => Fin.ext (by match a with | ⟨0, _⟩ => rfl)
  simp only [e1, e3]
  generalize val_main_v71 (F := Ideal) x0 x1 x2 x3 x4 x5 x6 x7 = A
  rfl

/-- A node `n` with the column `k` of the dropped axis put back is the index (n, k). -/
theorem lift_ix2 (h : S100000x2.Reduces [1] S100000) (n : Fin 100000) (k : Fin (S100000x2.size 1)) :
    h.lift (ix1 n) k = ix2 n (⟨k.val, k.isLt⟩ : Fin 2) := by
  funext c
  apply Fin.ext
  match c with
  | ⟨0, _⟩ => rfl
  | ⟨1, _⟩ => rfl

/-- The maximum stage of the log-softmax, of any array `Z` of logits: at node `n` it is the fold of `max` from minus
    infinity over the row's two entries. -/
theorem reduce_max_row (Z : (⟨S100000x2, .f32⟩ : BufTy).Contents (Elt Ideal)) (n : Fin 100000) :
    (Host.reduce (FloatOps.maximumf (F := Ideal) (φ := .f32)) Z (val_main_call4_cst (F := Ideal))
        reducesTo_S100000x2_S100000_d1 h_S_ (ix1 n) : EReal)
      = (Finset.univ : Finset (Fin 2)).fold max Gcn.ninf (fun k : Fin 2 => Z (ix2 n k)) := by
  have h : S100000x2.Reduces [1] S100000 := by decide
  rw [Host.reduce_eq_fold_single (FloatOps.maximumf (F := Ideal) (φ := .f32)) Z _ reducesTo_S100000x2_S100000_d1 h h_S_, val_main_call4_cst_apply,
    Ideal.ofBits_def]
  have hf : (Z ∘ h.lift (ix1 n)) = fun k : Fin 2 => Z (ix2 n k) := funext fun k => congrArg Z (lift_ix2 h n k)
  unfold Gcn.ninf
  exact congrArg (fun f => Finset.fold max (Ideal.ofBits .f32 0xFF800000#32) f (Finset.univ : Finset (Fin 2))) hf

/-- The row maximum, broadcast back over the row. -/
theorem c4v4_eq : val_main_call4_v4 (F := Ideal) x0 x1 x2 x3 x4 x5 x6 x7 x8 x9 x10
    = fun i => Gcn.rowMax (fun k : Fin 2 => val_main_v80 (F := Ideal) x0 x1 x2 x3 x4 x5 x6 x7 x8 x9 x10 (ix2 (i 0) k)) := by
  funext i
  obtain ⟨n, q, rfl⟩ : ∃ (n : Fin 100000) (q : Fin 2), i = ix2 n q := ⟨i 0, i 1, eq_ix2 i⟩
  rw [val_main_call4_v4_apply, val_main_call4_v3_apply, val_main_call4_v2_apply, val_main_call4_v1_apply,
    val_main_call4_cst_0_apply, Ideal.ofBits_def, Ideal.maximumf_def]
  have e : idx_main_call4_v3 (idx_main_call4_v4 (ix2 n q)) = ix1 n := funext fun a => Fin.ext (by match a with | ⟨0, _⟩ => rfl)
  rw [e]
  unfold val_main_call4_v0
  generalize val_main_v80 (F := Ideal) x0 x1 x2 x3 x4 x5 x6 x7 x8 x9 x10 = Z
  rw [reduce_max_row Z n]
  rfl

/-- The logits less their row maximum. -/
theorem c4v5_eq : val_main_call4_v5 (F := Ideal) x0 x1 x2 x3 x4 x5 x6 x7 x8 x9 x10
    = fun i => val_main_v80 (F := Ideal) x0 x1 x2 x3 x4 x5 x6 x7 x8 x9 x10 i
        - Gcn.rowMax (fun k : Fin 2 => val_main_v80 (F := Ideal) x0 x1 x2 x3 x4 x5 x6 x7 x8 x9 x10 (ix2 (i 0) k)) := by
  funext i
  rw [val_main_call4_v5_apply, c4v4_eq, Ideal.subf_def]

/-- The logarithm of the row's sum of exponentials, broadcast back over the row. -/
theorem c4v10_eq : val_main_call4_v10 (F := Ideal) x0 x1 x2 x3 x4 x5 x6 x7 x8 x9 x10
    = fun i => Ideal.log (∑ k : Fin 2, Ideal.exp (val_main_call4_v5 (F := Ideal) x0 x1 x2 x3 x4 x5 x6 x7 x8 x9 x10 (ix2 (i 0) k))) := by
  funext i
  obtain ⟨n, q, rfl⟩ : ∃ (n : Fin 100000) (q : Fin 2), i = ix2 n q := ⟨i 0, i 1, eq_ix2 i⟩
  rw [val_main_call4_v10_apply, val_main_call4_v9_apply, val_main_call4_v8_apply, val_main_call4_v7_apply,
    val_main_call4_cst_1_apply, Ideal.ofBits_def, Ideal.ofBits_zero_f32, zero_add, Ideal.hostUnary_log_def]
  refine congrArg Ideal.log (Finset.sum_congr rfl fun k _ => ?_)
  have e : idx_main_call4_v7 (idx_main_call4_v8 (idx_main_call4_v10 (ix2 n q))) k = ix2 n k :=
    funext fun a => Fin.ext (by match a with | ⟨0, _⟩ => rfl | ⟨1, _⟩ => rfl)
  rw [val_main_call4_v6_apply, Ideal.hostUnary_exp_def, e]

/-- The log-softmax of the logits, row by row. -/
theorem v81_eq : val_main_v81 (F := Ideal) x0 x1 x2 x3 x4 x5 x6 x7 x8 x9 x10
    = fun i => Gcn.logSoftmax2 (fun k : Fin 2 => val_main_v80 (F := Ideal) x0 x1 x2 x3 x4 x5 x6 x7 x8 x9 x10 (ix2 (i 0) k)) (i 1) := by
  funext i
  obtain ⟨n, q, rfl⟩ : ∃ (n : Fin 100000) (q : Fin 2), i = ix2 n q := ⟨i 0, i 1, eq_ix2 i⟩
  rw [val_main_v81_apply, c4v10_eq, c4v5_eq, Ideal.subf_def]
  generalize val_main_v80 (F := Ideal) x0 x1 x2 x3 x4 x5 x6 x7 x8 x9 x10 = Z
  rfl

/-- The reference program's result is the network of `Spec.lean` with the reference's own aggregation. -/
theorem ref_value (x0 : (⟨S100000x128, .f32⟩ : BufTy).Contents (Elt Ideal)) (x1 : (⟨S2x6400000, .i32⟩ : BufTy).Contents (Elt Ideal))
    (x2 : (⟨S6400000, .f32⟩ : BufTy).Contents (Elt Ideal)) (x3 : (⟨S16x128, .f32⟩ : BufTy).Contents (Elt Ideal))
    (x4 : (⟨S16, .f32⟩ : BufTy).Contents (Elt Ideal)) (x5 : (⟨S16x16, .f32⟩ : BufTy).Contents (Elt Ideal))
    (x6 : (⟨S16, .f32⟩ : BufTy).Contents (Elt Ideal)) (x7 : (⟨S16x16, .f32⟩ : BufTy).Contents (Elt Ideal))
    (x8 : (⟨S16, .f32⟩ : BufTy).Contents (Elt Ideal)) (x9 : (⟨S2x16, .f32⟩ : BufTy).Contents (Elt Ideal))
    (x10 : (⟨S2, .f32⟩ : BufTy).Contents (Elt Ideal)) :
    ReadP.val_main_v81 (F := Ideal) x0 x1 x2 x3 x4 x5 x6 x7 x8 x9 x10
      = Cert.Gcn.refOut (Agg.aggR x1 x2) x0 x3 x4 x5 x6 x7 x8 x9 x10 := by
  rw [v81_eq, v80_eq, v71_eq, v58_eq, v52_eq, v39_eq]
  unfold Gcn.refOut
  generalize Gcn.hidSum (Agg.aggR x1 x2 (Gcn.asArray (Gcn.lin16 (Gcn.hidSum (Agg.aggR x1 x2
    (Gcn.asArray (Gcn.lin16 (Gcn.hid0 x0 x3 x4) x5))) x6) x7))) x8 = H
  rfl

end Cert.ReferenceIdeal.RefValue

end
-- ==== Proof.LibRowIndexing.lean ====
/-
  Rows picked by an integer column, read at an index.

  Three of StableHLO's indexed operations in the forms that `x[idx]` and `segment_sum` over the rows of a matrix lower to,
  each read at ONE index, for literal extents `N` (rows of the operand), `L` (number of picks) and `C` (row length):

  * `gather_rows_apply`  — the gather of whole rows of an `[N, C]` operand at an `[L, 1]` column of start indices:
    element `(l, c)` of the result is the operand at row `clamp (idx[l, 0])`, column `c`, the start index read signed and
    clamped into `[0, N − 1]`;
  * `gather_elems_apply` — the same for a flat `[N]` operand: element `l` is the operand at `clamp (idx[l, 0])`;
  * `scatter_rows_resultIdx` — where update element `(l, c)` of a row scatter into an `[N, C]` operand lands: if it lands on
    `i` at all then `idx[l, 0]`, read signed and NOT clamped, is `i`'s row and `c` is `i`'s column.
-/
import Idealize.ShloMosaic.PureOps.Ideal
import Idealize.ShloMosaic.Lib.ValueIdx

noncomputable section

namespace Idealize.ShloMosaic.RowIndexing

open Idealize.ShloMosaic Idealize.ShloMosaic.ValueIdx

/-- The start-indices index `[l, 0]` of pick `l`. -/
abbrev pickIdx {L : Nat} (l : Fin L) : (⟨2, ![L, 1]⟩ : Shape).Idx := ix2 l (⟨0, Nat.one_pos⟩ : Fin 1)

section Gather
variable {α : Type}

/-- The dimension numbers of a gather of whole rows: operand `[N, C]`, start indices `[L, 1]`, result `[L, C]`. -/
abbrev rowsDims (N L C : Nat)
    (wf : GatherDims.WF ⟨2, ![N, C]⟩ ⟨2, ![L, 1]⟩ ⟨2, ![L, C]⟩ [1] [0] [] [0] [] 1 ![1, C]) :
    GatherDims ⟨2, ![N, C]⟩ ⟨2, ![L, 1]⟩ ⟨2, ![L, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(l, c)`: the operand at row `idx[l, 0]`, read signed and clamped into `[0, N − 1]`, column `c`. -/
theorem gather_rows_apply {N L C w : Nat} (hN : 0 < N)
    (wf : GatherDims.WF ⟨2, ![N, C]⟩ ⟨2, ![L, 1]⟩ ⟨2, ![L, C]⟩ [1] [0] [] [0] [] 1 ![1, C])
    (x : (⟨2, ![N, C]⟩ : Shape).Idx → α) (idx : IVec ⟨2, ![L, 1]⟩ w) (y : (⟨2, ![L, C]⟩ : Shape).Idx) :
    Host.gather (rowsDims N L C wf) x idx y
      = x (ix2 (⟨min (idx (pickIdx (y 0))).toInt.toNat (N - 1), by omega⟩ : Fin N) (y 1)) := by
  unfold Host.gather
  congr 1
  funext a
  refine Fin.ext ?_
  match a with
  | ⟨0, _⟩ =>
    show (rowsDims N L C wf).start y idx 0 + (rowsDims N L C wf).batchCoord y 0 + (rowsDims N L C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N L C wf).startIndexMap from List.mem_singleton.mpr rfl)]
    have hsi : (rowsDims N L C wf).siIdx y ⟨List.idxOf (0 : Fin 2) (rowsDims N L C wf).startIndexMap,
        List.idxOf_lt_length_iff.2 (List.mem_singleton.mpr rfl)⟩ = pickIdx (y 0) := by
      funext b; refine Fin.ext ?_
      match b with
      | ⟨0, _⟩ => rfl
      | ⟨1, _⟩ => rfl
    rw [hsi]
    rfl
  | ⟨1, _⟩ =>
    show (rowsDims N L C wf).start y idx 1 + (rowsDims N L C wf).batchCoord y 1 + (rowsDims N L C wf).offCoord y 1 = (y 1).val
    rw [GatherDims.batchCoord_eq_zero _ _ _ List.not_mem_nil]
    have hs : (rowsDims N L C wf).start y idx 1 = 0 := by
      unfold GatherDims.start
      exact dif_neg (show (1 : Fin 2) ∉ ([0] : List (Fin 2)) by decide)
    rw [hs]
    simp only [Nat.zero_add, Nat.add_zero]
    unfold GatherDims.offCoord
    rw [dif_pos ((GatherDims.mem_sKept (rowsDims N L C wf) 1).mpr
      ⟨(show (1 : Fin 2) ∉ ([0] : List (Fin 2)) by decide), List.not_mem_nil⟩)]
    rfl

/-- The dimension numbers of a gather of single elements: operand `[N]`, start indices `[L, 1]`, result `[L]`. -/
abbrev elemsDims (N L : Nat)
    (wf : GatherDims.WF ⟨1, ![N]⟩ ⟨2, ![L, 1]⟩ ⟨1, ![L]⟩ [] [0] [] [0] [] 1 ![1]) :
    GatherDims ⟨1, ![N]⟩ ⟨2, ![L, 1]⟩ ⟨1, ![L]⟩ where
  offsetDims := []
  collapsedSliceDims := [0]
  operandBatchingDims := []
  startIndicesBatchingDims := []
  startIndexMap := [0]
  indexVectorDim := 1
  sliceSizes := ![1]
  wf := wf

/-- THE ELEMENT GATHER READ AT `l`: the operand at `idx[l, 0]`, read signed and clamped into `[0, N − 1]`. -/
theorem gather_elems_apply {N L w : Nat} (hN : 0 < N)
    (wf : GatherDims.WF ⟨1, ![N]⟩ ⟨2, ![L, 1]⟩ ⟨1, ![L]⟩ [] [0] [] [0] [] 1 ![1])
    (x : (⟨1, ![N]⟩ : Shape).Idx → α) (idx : IVec ⟨2, ![L, 1]⟩ w) (y : (⟨1, ![L]⟩ : Shape).Idx) :
    Host.gather (elemsDims N L wf) x idx y
      = x (ix1 (⟨min (idx (pickIdx (y 0))).toInt.toNat (N - 1), by omega⟩ : Fin N)) := by
  unfold Host.gather
  congr 1
  funext a
  obtain rfl : a = 0 := Subsingleton.elim _ _
  refine Fin.ext ?_
  show (elemsDims N L wf).start y idx 0 + (elemsDims N L wf).batchCoord y 0 + (elemsDims N L wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemsDims N L wf).startIndexMap from List.mem_singleton.mpr rfl)]
  have hsi : (elemsDims N L wf).siIdx y ⟨List.idxOf (0 : Fin 1) (elemsDims N L wf).startIndexMap,
      List.idxOf_lt_length_iff.2 (List.mem_singleton.mpr rfl)⟩ = pickIdx (y 0) := by
    funext b; refine Fin.ext ?_
    match b with
    | ⟨0, _⟩ => rfl
    | ⟨1, _⟩ => rfl
  rw [hsi]
  rfl

end Gather

section Scatter

/-- The dimension numbers of a scatter of whole rows: operand `[N, C]`, scatter indices `[L, 1]`, updates `[L, C]`. -/
abbrev rowsScatter (N L C : Nat)
    (wf : ScatterDims.WF ⟨2, ![N, C]⟩ ⟨2, ![L, 1]⟩ ⟨2, ![L, C]⟩ [1] [0] [0] 1) :
    ScatterDims ⟨2, ![N, C]⟩ ⟨2, ![L, 1]⟩ ⟨2, ![L, C]⟩ where
  updateWindowDims := [1]
  insertedWindowDims := [0]
  scatterDimsToOperandDims := [0]
  indexVectorDim := 1
  wf := wf

/-- WHERE AN UPDATE ELEMENT LANDS: if update element `(l, c)` lands on `i`, then `idx[l, 0]` read signed is `i`'s row and
    `c` is `i`'s column. -/
theorem scatter_rows_resultIdx {N L C w : Nat}
    (wf : ScatterDims.WF ⟨2, ![N, C]⟩ ⟨2, ![L, 1]⟩ ⟨2, ![L, C]⟩ [1] [0] [0] 1)
    (idx : IVec ⟨2, ![L, 1]⟩ w) (j : (⟨2, ![L, C]⟩ : Shape).Idx) (i : (⟨2, ![N, C]⟩ : Shape).Idx)
    (h : (rowsScatter N L C wf).resultIdx? j idx = some i) :
    (idx (pickIdx (j 0))).toInt = ((i 0).val : Int) ∧ (j 1).val = (i 1).val := by
  have s0 : (rowsScatter N L C wf).start j idx 0 = (idx (pickIdx (j 0))).toInt := by
    unfold ScatterDims.start
    rw [dif_pos (show (0 : Fin 2) ∈ (rowsScatter N L C wf).scatterDimsToOperandDims from List.mem_singleton.mpr rfl)]
    have hsi : (rowsScatter N L C wf).siIdx j ⟨List.idxOf (0 : Fin 2) (rowsScatter N L C wf).scatterDimsToOperandDims,
        List.idxOf_lt_length_iff.2 (List.mem_singleton.mpr rfl)⟩ = pickIdx (j 0) := by
      funext b; refine Fin.ext ?_
      match b with
      | ⟨0, _⟩ => rfl
      | ⟨1, _⟩ => rfl
    rw [hsi]
    rfl
  have k0 : (0 : Fin 2) ∉ (rowsScatter N L C wf).sKept := by
    simp [ScatterDims.sKept, Shape.kept, List.mem_filter, List.mem_finRange]
  have k1 : (1 : Fin 2) ∈ (rowsScatter N L C wf).sKept := by
    simp [ScatterDims.sKept, Shape.kept, List.mem_filter, List.mem_finRange]
  have w0 : (rowsScatter N L C wf).window j 0 = 0 := by
    unfold ScatterDims.window
    exact dif_neg k0
  have s1 : (rowsScatter N L C wf).start j idx 1 = 0 := by
    unfold ScatterDims.start
    exact dif_neg (show (1 : Fin 2) ∉ ([0] : List (Fin 2)) by decide)
  have w1 : (rowsScatter N L C wf).window j 1 = (j 1).val := by
    unfold ScatterDims.window
    rw [dif_pos k1]
    rfl
  unfold ScatterDims.resultIdx? at h
  split at h
  · rename_i hall
    have hi := Option.some.inj h
    have h0 := hall 0
    have h1 := hall 1
    have e0 : (i 0).val = ((rowsScatter N L C wf).start j idx 0 + ((rowsScatter N L C wf).window j 0 : Int)).toNat := by
      rw [← hi]
    have e1 : (i 1).val = ((rowsScatter N L C wf).start j idx 1 + ((rowsScatter N L C wf).window j 1 : Int)).toNat := by
      rw [← hi]
    rw [s0, w0] at e0 h0
    rw [s1, w1] at e1 h1
    constructor <;> omega
  · exact absurd h (by simp)

end Scatter

end Idealize.ShloMosaic.RowIndexing

end
-- ==== Proof.LibScaledScatter.lean ====
/-
  A sum of extended reals scaled by a non-negative real, and the accumulating scatter scaled.

  On the extended reals multiplication does not distribute over addition in general (`(⊤ + ⊥) * (-1)` against
  `⊤ * (-1) + ⊥ * (-1)`; `(1 + (-1)) * ⊤` against `⊤ + ⊥`), but it does when the common factor `q` is a non-negative REAL:
  `0 ≤ q`, `q ≠ ⊤`. Then a finite sum scaled is the sum of the scaled terms (`sum_mul_of_nonneg_ne_top`), and so the exact
  accumulating scatter (each operand element plus the sum of the updates landing on it) scaled at an element `i` is the
  scatter of the scaled operand and the scaled updates — only the updates that LAND ON `i` need be compared
  (`hostScatterAdd_mul`). Last, the reciprocal square root of an extended real `y ≥ 1` is such a factor
  (`rsqrt_nonneg_ne_top`: `⊤ ↦ 0`, a real `r ≥ 1 ↦ 1/√r`).
-/
import Idealize.ShloMosaic.PureOps.Ideal

noncomputable section

open scoped BigOperators

namespace Idealize.ShloMosaic.ScaledScatter

open Idealize.ShloMosaic

/-- A finite sum of extended reals times a non-negative real is the sum of the terms times it. -/
theorem sum_mul_of_nonneg_ne_top {ι : Type} (s : Finset ι) (f : ι → EReal) {q : EReal} (h0 : 0 ≤ q) (ht : q ≠ ⊤) :
    (∑ j ∈ s, f j) * q = ∑ j ∈ s, f j * q := by
  classical
  induction s using Finset.induction_on with
  | empty => simp
  | insert a s ha ih =>
    rw [Finset.sum_insert ha, Finset.sum_insert ha, EReal.right_distrib_of_nonneg_of_ne_top h0 ht, ih]

/-- THE ACCUMULATING SCATTER, SCALED AT ONE ELEMENT by a non-negative real `q`: the scatter of an operand whose element
    there is the scaled one and of updates that, WHERE THEY LAND ON THAT ELEMENT, are the scaled ones. -/
theorem hostScatterAdd_mul {s si su : Shape} (d : ScatterDims s si su) {w : Nat} (idx : IVec si w)
    (x x' : s.Idx → EReal) (upd upd' : su.Idx → EReal) (i : s.Idx) {q : EReal} (h0 : 0 ≤ q) (ht : q ≠ ⊤)
    (hx : x i * q = x' i) (hu : ∀ j, d.resultIdx? j idx = some i → upd j * q = upd' j) :
    Ideal.hostScatterAdd d x idx upd i * q = Ideal.hostScatterAdd d x' idx upd' i := by
  unfold Ideal.hostScatterAdd
  rw [EReal.right_distrib_of_nonneg_of_ne_top h0 ht, sum_mul_of_nonneg_ne_top _ _ h0 ht, hx]
  congr 1
  exact Finset.sum_congr rfl fun j hj => hu j (Finset.mem_filter.mp hj).2

/-- The reciprocal square root of an extended real at least `1` is a non-negative real. -/
theorem rsqrt_nonneg_ne_top {y : EReal} (hy : 1 ≤ y) : 0 ≤ Ideal.rsqrt y ∧ Ideal.rsqrt y ≠ ⊤ := by
  induction y using EReal.rec with
  | bot =>
    exact absurd (lt_of_lt_of_le (show (⊥ : EReal) < 1 by rw [← EReal.coe_one]; exact EReal.bot_lt_coe 1) hy) (lt_irrefl _)
  | top => simp
  | coe r =>
    have hr : (1 : ℝ) ≤ r := by exact_mod_cast hy
    rw [Ideal.rsqrt_coe, if_neg (by linarith), if_neg (by linarith)]
    exact ⟨by exact_mod_cast inv_nonneg.mpr (Real.sqrt_nonneg r), EReal.coe_ne_top _⟩

end Idealize.ShloMosaic.ScaledScatter

end
-- ==== Proof.Layer.lean ====
/-
  One convolution layer: the kernel program's aggregation, its messages scaled before and its sums scaled after, is the
  reference's aggregation.

  Fix a node `n` and a unit `k`. An edge `e` contributes to the arrived sum at `(n, k)` only when its target, read
  signed, IS `n` (a target outside `[0, 100000)` contributes nowhere). For such an edge the reference's factor
  `dinv[src e] · ew e · dinv[dst e]` has `dst e = n`: a non-negative target is not wrapped, and clamping `n` leaves it.
  So the reference's term is `M[src e, k] · ((dinv[src e] · ew e) · dinv n)` and the kernel program's, after the node's
  own factor, `((M[src e, k] · dinv[src e]) · ew e) · dinv n`: the same product re-associated. The node's factor
  `dinv n` is a non-negative REAL, so it distributes over the sum of the arriving terms, whatever extended reals they are.
-/
import proofs.«146560_j1984274891423_2_alg».proof.Proof.Agg
import proofs.«146560_j1984274891423_2_alg».proof.Proof.LibRowIndexing
import proofs.«146560_j1984274891423_2_alg».proof.Proof.LibScaledScatter
import Idealize.ShloMosaic.Lib.Pipeline.Value
import Idealize.ShloMosaic.PureOps.Ideal.Laws

noncomputable section

namespace Cert.ReferenceIdeal.Layer

open Cert.ReferenceIdeal Cert.ReferenceIdeal.Gen Cert.ReferenceIdeal.ReadP Cert.ReferenceIdeal.Agg
open Idealize.ShloMosaic Idealize.ShloMosaic.ValueIdx Idealize.ShloMosaic.RowIndexing Idealize.ShloMosaic.ScaledScatter

variable (x1 : EdgeIdx) (x2 : EdgeW)

/-! ## The printed dimension numbers are the row forms -/

theorem scatRows_eq : scatter_S100000x16_S6500000x1_S6500000x16_1_0_0_1
    = rowsScatter 100000 6500000 16 Facts₀.scatter_S100000x16_S6500000x1_S6500000x16_1_0_0_1_wf := rfl
theorem gathRows_eq : gather_S100000x16_S6500000x1_S6500000x16_1_0_n_n_0_1_116
    = rowsDims 100000 6500000 16 Facts₀.gather_S100000x16_S6500000x1_S6500000x16_1_0_n_n_0_1_116_wf := rfl
theorem gathElems_eq : gather_S100000_S6500000x1_S6500000_n_0_n_n_0_1_1
    = elemsDims 100000 6500000 Facts₀.gather_S100000_S6500000x1_S6500000_n_0_n_n_0_1_1_wf := rfl

/-! ## The column and the broadcasts at an index -/

/-- The factor column at `(n, 0)` is `dinv n`. -/
theorem dcol_apply (n : Fin 100000) : dcol x1 x2 (ix2 n (0 : Fin 1)) = val_main_v15 (F := Ideal) x1 x2 (ix1 n) := by
  unfold dcol
  generalize val_main_v15 (F := Ideal) x1 x2 = y
  exact broadcastInDim_apply _ bcast_S100000_S100000x1_0 y _ (ix1 n) (fun a => match a with
    | ⟨0, _⟩ => by show n.val = if (100000 : Nat) = 1 then 0 else n.val; rw [if_neg (by decide)])

/-- The zero array the sums start from. -/
theorem zeros_apply (i : S100000x16.Idx) :
    broadcastInDim S100000x16 ![] bcast_S_S100000x16 (constant (F := Ideal) S_ .f32 0x00000000#32) i = 0 := by
  rw [broadcastInDim_apply _ bcast_S_S100000x16 _ i ix0 (fun a => a.elim0)]
  exact Ideal.ofBits_zero_f32

/-- The edge weight spread over the 16 units reads the edge's weight. -/
theorem ewbb_apply (e : Fin 6500000) (c : Fin 16) :
    broadcastInDim S6500000x16 ![0, 1] bcast_S6500000x1_S6500000x16_0_1
      (broadcastInDim S6500000x1 ![0] bcast_S6500000_S6500000x1_0 (val_main_v8 (F := Ideal) x2)) (ix2 e c)
      = val_main_v8 (F := Ideal) x2 (ix1 e) := by
  generalize val_main_v8 (F := Ideal) x2 = y
  rw [broadcastInDim_apply _ bcast_S6500000x1_S6500000x16_0_1 _ (ix2 e c) (ix2 e (0 : Fin 1)) (fun a => match a with
    | ⟨0, _⟩ => by show e.val = if (6500000 : Nat) = 1 then 0 else e.val; rw [if_neg (by decide)]
    | ⟨1, _⟩ => by show 0 = if (1 : Nat) = 1 then 0 else c.val; rw [if_pos rfl])]
  exact broadcastInDim_apply _ bcast_S6500000_S6500000x1_0 y (ix2 e (0 : Fin 1)) (ix1 e) (fun a => match a with
    | ⟨0, _⟩ => by show e.val = if (6500000 : Nat) = 1 then 0 else e.val; rw [if_neg (by decide)])

/-- The edge's whole factor spread over the 16 units reads the edge's factor. -/
theorem normbb_apply (e : Fin 6500000) (c : Fin 16) :
    val_main_v48 (F := Ideal) x1 x2 (ix2 e c) = val_main_v31 (F := Ideal) x1 x2 (ix1 e) := by
  rw [val_main_v48_apply, val_main_v47_apply]
  exact congrArg _ (funext fun a => Fin.ext (by match a with | ⟨0, _⟩ => rfl))

/-! ## The integer columns -/

/-- The source column the factor gather uses is the one the message gather uses: the same wrapped sources. -/
theorem srcCol_eq : val_main_v21 (F := Ideal) x1 = val_main_v45 (F := Ideal) x1 := rfl

/-- The target column at pick `e` is the edge's target. -/
theorem dstCol_apply (e : Fin 6500000) : val_main_v51 (F := Ideal) x1 (pickIdx e) = val_main_v6 (F := Ideal) x1 (ix1 e) := by
  rw [val_main_v51_apply]
  exact congrArg _ (funext fun a => Fin.ext (by match a with | ⟨0, _⟩ => rfl))

/-- A target that reads non-negative is not wrapped. -/
theorem wrapped_dst_apply (e : Fin 6500000) (h : 0 ≤ (val_main_v6 (F := Ideal) x1 (ix1 e)).toInt) :
    val_main_v29 (F := Ideal) x1 (pickIdx e) = val_main_v6 (F := Ideal) x1 (ix1 e) := by
  rw [val_main_v29_apply]
  have hi : idx_main_v29 (pickIdx e) = ix1 e := funext fun a => Fin.ext (by match a with | ⟨0, _⟩ => rfl)
  rw [hi, val_main_v28_apply, val_main_v25_apply, val_main_v24_apply]
  generalize val_main_v6 (F := Ideal) x1 (ix1 e) = w at h ⊢
  generalize val_main_v27 (F := Ideal) x1 (ix1 e) = w'
  have hc : IntOp.cmpi .slt w (val_main_c_4 (F := Ideal) (idx_main_v24 (ix1 e))) = 0#1 := by
    show BitVec.ofBool (w.slt 0#32) = 0#1
    have : w.slt 0#32 = false := by
      rw [BitVec.slt]; simp only [BitVec.toInt_zero, decide_eq_false_iff_not, not_lt]; exact h
    rw [this]; rfl
  rw [hc]
  exact select_zero _ _

/-! ## The layer -/

/-- THE LAYER at node `n`, unit `k`: scale the messages' rows, aggregate with the plain edge weights, scale the arrived
    row — that is the reference's aggregation of the unscaled messages with the whole edge factors. -/
theorem layer (hd : ∀ i : S100000.Idx, 0 ≤ val_main_v15 (F := Ideal) x1 x2 i ∧ val_main_v15 (F := Ideal) x1 x2 i ≠ ⊤)
    (M : Fin 100000 → Fin 16 → EReal) (n : Fin 100000) (k : Fin 16) :
    aggK x1 x2 (Cert.Gcn.scaleRows M (dcol x1 x2)) (ix2 n k) * dcol x1 x2 (ix2 n (0 : Fin 1))
      = aggR x1 x2 (Cert.Gcn.asArray M) (ix2 n k) := by
  rw [dcol_apply]
  unfold aggK aggR
  rw [Host.scatterAdd, Host.scatterAdd, Ideal.hostScatterAdd_def, Ideal.hostScatterAdd_def]
  refine hostScatterAdd_mul _ _ _ _ _ _ _ (hd _).1 (hd _).2 ?_ ?_
  · rw [zeros_apply, zero_mul]
  · intro j hj
    obtain ⟨e, c, rfl⟩ : ∃ (e : Fin 6500000) (c : Fin 16), j = ix2 e c := ⟨j 0, j 1, eq_ix2 j⟩
    -- the edge lands on node n: its target reads n
    have hland := scatter_rows_resultIdx (N := 100000) (L := 6500000) (C := 16)
      Facts₀.scatter_S100000x16_S6500000x1_S6500000x16_1_0_0_1_wf (val_main_v51 (F := Ideal) x1) (ix2 e c) (ix2 n k) hj
    have hdst : (val_main_v6 (F := Ideal) x1 (ix1 e)).toInt = (n.val : Int) := by
      rw [← dstCol_apply]; exact hland.1
    -- so the reference's target factor is the node's
    have hv30 : val_main_v30 (F := Ideal) x1 x2 (ix1 e) = val_main_v15 (F := Ideal) x1 x2 (ix1 n) := by
      unfold val_main_v30
      rw [gathElems_eq, gather_elems_apply (by decide)]
      refine congrArg _ (congrArg ix1 (Fin.ext ?_))
      show min (val_main_v29 (F := Ideal) x1 (pickIdx e)).toInt.toNat (100000 - 1) = n.val
      rw [wrapped_dst_apply x1 e (by rw [hdst]; exact Int.natCast_nonneg _), hdst]
      have := n.isLt
      omega
    -- the source's factor, at the row the message gather picks
    have hv22 : val_main_v22 (F := Ideal) x1 x2 (ix1 e)
        = val_main_v15 (F := Ideal) x1 x2 (ix1 (⟨min (val_main_v45 (F := Ideal) x1 (pickIdx e)).toInt.toNat (100000 - 1), by omega⟩ : Fin 100000)) := by
      unfold val_main_v22
      rw [gathElems_eq, gather_elems_apply (by decide), srcCol_eq]
    rw [mulf_apply, mulf_apply, gathRows_eq, gather_rows_apply (by decide), gather_rows_apply (by decide), ewbb_apply, normbb_apply,
      val_main_v31_apply, val_main_v23_apply, hv30, hv22]
    show (M _ _ * dcol x1 x2 (ix2 _ (0 : Fin 1))) * _ * _ = M _ _ * _
    rw [dcol_apply]
    simp only [Ideal.mulf_def, mul_assoc]

end Cert.ReferenceIdeal.Layer

end
-- ==== Proof.lean ====
/-
  THE CERTIFICATE: a two-layer graph-convolution network on 100000 nodes and 6400000 weighted edges, computed two ways,
  is one array of extended reals.

  BOTH PROGRAMS take the node features X [100000, 128], the edge list (sources and targets [2, 6400000], weights
  [6400000]) and the weights and biases of a dense layer (Wf, bf), of two convolution layers (W1, b1; W2, b2) and of an
  output layer (Wo, bo). Each adds one self loop of weight 1 per node, takes the node factor dinv n = 1/√deg n from the
  weighted in-degree (0 where the degree is not positive), and computes: the hidden rows max (X·Wfᵀ + bf) 0; twice a
  convolution — the rows times Wᵀ, sent along the edges, summed where they arrive, plus the bias, clipped at zero —;
  two logits per node; their log-softmax, [100000, 2].

  THE REFERENCE weights the message on edge e by dinv[src e] · w e · dinv[dst e] while it travels. THE KERNEL PROGRAM does
  the dense arithmetic in three row-blocked stages (ten blocks of 10000 nodes each) and, between them, sums the messages
  over the edges weighted by w e alone: a stage scales a node's outgoing row by dinv n BEFORE it travels, and the next
  stage scales the arrived sum by dinv n AFTER.

  THE ONE LAW that joins them (Layer.lean, `layer`): for every message array M and node n,
      (∑ over the edges e into n of (M[src e] · dinv[src e]) · w e) · dinv n = ∑ over the edges e into n of M[src e] · (dinv[src e] · w e · dinv n):
  a factor that is the same on every term arriving at one node moves out of the sum. On the extended reals that asks the
  factor to lie in [0, ∞), which dinv does (RefValue.lean, `dinv_nonneg_ne_top`). Everything else is the same function of
  the same arrays on both sides (Spec.lean, `kernelOut_eq_refOut`).

  THE MODULES. Spec.lean: the network as plain functions of extended reals, the aggregation a parameter, and the step from
  the law to the equality of the two results. Agg.lean: the two aggregations over the edge list. Layer.lean: the law.
  RefValue.lean: the reference's result is `refOut` at its aggregation; the node factor's range. Region0.lean, Region1.lean,
  Region2.lean: each row-blocked stage's output array is the stage's function of its input arrays, entry by entry.
  KChain.lean: the kernel program's result — host operations, stage, aggregation, stage, aggregation, stage — is
  `kernelOut` at its aggregation. KRun.lean: the kernel program's run with its result named. FrameKernel.lean,
  FrameKernelIdeal.lean, RunReferenceIdeal.lean, ReadReferenceIdeal.lean: the three programs' runs — every execution ends,
  nothing faults, the arguments are unchanged — and the reference's result as a term of its arguments.

  THE CLAIMS. The three frame claims are those runs with the result forgotten. The idealized kernel program is the kernel
  program's own text read over the extended reals, no operation replaced, so `preserves` states nothing. `algebraic`: from
  memories that agree on the eleven arguments the kernel program ends at `kernelOut` of them and the reference at `refOut`
  of them, and the law makes the two one array.
-/
import proofs.«146560_j1984274891423_2_alg».proof.Defs
import proofs.«146560_j1984274891423_2_alg».proof.Proof.Gen.Kernel
import proofs.«146560_j1984274891423_2_alg».proof.Proof.Gen.KernelIdeal
import proofs.«146560_j1984274891423_2_alg».proof.Proof.Gen.ReferenceIdeal
import proofs.«146560_j1984274891423_2_alg».proof.Proof.Gen.Pre_finite_inputs
import proofs.«146560_j1984274891423_2_alg».proof.Proof.FrameKernel
import proofs.«146560_j1984274891423_2_alg».proof.Proof.FrameKernelIdeal
import proofs.«146560_j1984274891423_2_alg».proof.Proof.KRun
import proofs.«146560_j1984274891423_2_alg».proof.Proof.KChain
import proofs.«146560_j1984274891423_2_alg».proof.Proof.Region0
import proofs.«146560_j1984274891423_2_alg».proof.Proof.Region1
import proofs.«146560_j1984274891423_2_alg».proof.Proof.Region2
import proofs.«146560_j1984274891423_2_alg».proof.Proof.RefValue
import proofs.«146560_j1984274891423_2_alg».proof.Proof.Layer
import Idealize.ShloMosaic.Adequacy
import Idealize.ShloMosaic.Init

noncomputable section

namespace Cert.Proof

open Idealize.ShloMosaic Idealize.SL.Sem

/-- The kernel program runs and leaves its arguments as they were. -/
theorem frame_kernel : Cert.frame_Kernel := fun m ρ _ => Cert.Kernel.GenP.frame m ρ

/-- So does the same text read over the extended reals. -/
theorem frame_kernelIdeal : Cert.frame_KernelIdeal := fun m ρ _ => Cert.KernelIdeal.GenP.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation of the kernel program was replaced when it was read over the extended reals. -/
theorem preserves : Cert.preserves_Kernel_KernelIdeal := trivial

/-- From memories that agree on the eleven arguments, the kernel program's result array and the reference's are one
    array: `kernelOut` of the arguments at the kernel program's aggregation, which the law between the two aggregations
    makes `refOut` at the reference's. -/
theorem algebraic : Cert.algebraic_KernelIdeal_ReferenceIdeal := by
  intro m ρ m' ρ' _ hagree
  refine ⟨fun c => Cert.Gcn.kernelOut (Cert.ReferenceIdeal.Agg.aggK (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      (Cert.ReferenceIdeal.Agg.dcol (m ((c.tc : Thread Cert.KernelIdeal.nD Cert.KernelIdeal.τ).loc Cert.KernelIdeal.main_arg1)) (m ((c.tc : Thread Cert.KernelIdeal.nD Cert.KernelIdeal.τ).loc Cert.KernelIdeal.main_arg2))), ?_, ?_⟩
  · exact (θ_run Cert.KernelIdeal.defs _ _).mono
      (fun r h c => ⟨(h c).1.trans (Cert.KernelIdeal.KChain.result_eq m ρ c Cert.KernelIdeal.RegVal.region0_value
        Cert.KernelIdeal.RegVal.region1_value Cert.KernelIdeal.RegVal.region2_value), (h c).2⟩)
      (Cert.KernelIdeal.KRun.run_main (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9, e10⟩ := hagree c
    rw [Cert.ReferenceIdeal.ReadP.val_main_v81_eq, Cert.ReferenceIdeal.RefValue.ref_value, e0, e1, e2, e3, e4, e5, e6, e7, e8, e9, e10]
    exact (Cert.Gcn.kernelOut_eq_refOut _ _ _
      (fun M n k => Cert.ReferenceIdeal.Layer.layer _ _ (Cert.ReferenceIdeal.RefValue.dinv_nonneg_ne_top _ _) M n k) _ _ _ _ _ _ _ _ _).symm

/-- Everything the certificate claims, behind the witnesses of the facts the programs state. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
